-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v283)) (v1 : (c : Dev Cert.KernelIdeal.nD) → Buf (Elt Ideal) ((c.tc : Thread Cert.KernelIdeal.nD Cert.KernelIdeal.τ).loc Cert.KernelIdeal.main_v285)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v283) = v0 c
          ∧ r.2.mem ((c.tc : Thread Cert.KernelIdeal.nD Cert.KernelIdeal.τ).loc Cert.KernelIdeal.main_v285) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v371) = v0 c
          ∧ r.2.mem ((c.tc : Thread Cert.ReferenceIdeal.nD Cert.ReferenceIdeal.τ).loc Cert.ReferenceIdeal.main_v373) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S256x256x256x2 : Shape := ⟨4, ![256, 256, 256, 2]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S256x256x256x2 : S_.BroadcastsInDim S256x256x256x2 (![] : Fin 0 → Fin S256x256x256x2.rank)
  reducesTo_S256x256x256x2_S_d0_1_2_3 : S256x256x256x2.ReducesTo [0, 1, 2, 3] S_

variable [Facts]

def fn {F : FTy → Type} [FloatOps F] (main_arg0 : FVec F S2097152x3 .f32) (main_arg1 : FVec F S256x256x256x2 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S256x256x256x2 .f32 := Host.absf main_arg1
  let main_cst_0 : FVec F S_ .f32 := constant S_ .f32 0x7F800000#32
  let main_v5 : FVec F S256x256x256x2 .f32 := broadcastInDim S256x256x256x2 ![] bcast_S_S256x256x256x2 main_cst_0
  let main_v6 : IVec S256x256x256x2 1 := cmpf .olt main_v4 main_v5
  let main_c_1 : IVec S_ 1 := constantI S_ 1 1#1
  let main_v7 : IVec S_ 1 := (fun x v => Host.reduce IntOp.andi x v reducesTo_S256x256x256x2_S_d0_1_2_3 h_S_) main_v6 main_c_1
  let main_v8 : IVec S_ 1 := andi main_v3 main_v7
  main_v8
-- ==== Kernel.lean ====
abbrev S2097152x3 : Shape := ⟨2, ![2097152, 3]⟩
abbrev S256x256x256x2 : Shape := ⟨4, ![256, 256, 256, 2]⟩
abbrev S3 : Shape := ⟨1, ![3]⟩
abbrev S_ : Shape := ⟨0, ![]⟩
abbrev S1x3 : Shape := ⟨2, ![1, 3]⟩
abbrev S2097152 : Shape := ⟨1, ![2097152]⟩
abbrev S2097152x1 : Shape := ⟨2, ![2097152, 1]⟩
abbrev S2097152x4 : Shape := ⟨2, ![2097152, 4]⟩
abbrev S2097152x2 : Shape := ⟨2, ![2097152, 2]⟩
abbrev S2097152x16 : Shape := ⟨2, ![2097152, 16]⟩
abbrev S2048x4 : Shape := ⟨2, ![2048, 4]⟩
abbrev S2048x16 : Shape := ⟨2, ![2048, 16]⟩
abbrev S2048x2 : Shape := ⟨2, ![2048, 2]⟩
abbrev S2048x1 : Shape := ⟨2, ![2048, 1]⟩

abbrev nBuf : Space → Nat
  | .hbm => 373
  | .vmem => 6
  | .smem => 0
  | _ => 0

abbrev hbmTy0_0 (i : Nat) : BufTy := match i % 128 with
  | 0 => ⟨S2097152x3, .f32⟩
  | 1 => ⟨S256x256x256x2, .f32⟩
  | 2 => ⟨S3, .f32⟩
  | 3 => ⟨S_, .f32⟩
  | 4 => ⟨S3, .f32⟩
  | 5 => ⟨S1x3, .f32⟩
  | 6 => ⟨S2097152x3, .f32⟩
  | 7 => ⟨S2097152x3, .f32⟩
  | 8 => ⟨S2097152x3, .f32⟩
  | 9 => ⟨S2097152x3, .f32⟩
  | 10 => ⟨S2097152x3, .f32⟩
  | 11 => ⟨S_, .f32⟩
  | 12 => ⟨S3, .f32⟩
  | 13 => ⟨S3, .f32⟩
  | 14 => ⟨S_, .f32⟩
  | 15 => ⟨S_, .f32⟩
  | 16 => ⟨S2097152x3, .f32⟩
  | 17 => ⟨S2097152x3, .f32⟩
  | 18 => ⟨S1x3, .f32⟩
  | 19 => ⟨S2097152x3, .f32⟩
  | 20 => ⟨S2097152x3, .f32⟩
  | 21 => ⟨S2097152x3, .i32⟩
  | 22 => ⟨S2097152x3, .f32⟩
  | 23 => ⟨S2097152x3, .f32⟩
  | 24 => ⟨S_, .f32⟩
  | 25 => ⟨S2097152x3, .f32⟩
  | 26 => ⟨S2097152x3, .i1⟩
  | 27 => ⟨S_, .f32⟩
  | 28 => ⟨S3, .f32⟩
  | 29 => ⟨S3, .f32⟩
  | 30 => ⟨S1x3, .f32⟩
  | 31 => ⟨S2097152x3, .f32⟩
  | 32 => ⟨S2097152x3, .i1⟩
  | 33 => ⟨S2097152x3, .i1⟩
  | 34 => ⟨S_, .i1⟩
  | 35 => ⟨S2097152, .i1⟩
  | 36 => ⟨S2097152, .f32⟩
  | 37 => ⟨S2097152x1, .f32⟩
  | 38 => ⟨S2097152x4, .f32⟩
  | 39 => ⟨S2097152x1, .i32⟩
  | 40 => ⟨S2097152, .i32⟩
  | 41 => ⟨S_, .i32⟩
  | 42 => ⟨S2097152, .i32⟩
  | 43 => ⟨S2097152, .i32⟩
  | 44 => ⟨S2097152x1, .i32⟩
  | 45 => ⟨S2097152, .i32⟩
  | 46 => ⟨S_, .i32⟩
  | 47 => ⟨S2097152, .i32⟩
  | 48 => ⟨S2097152, .i32⟩
  | 49 => ⟨S2097152x1, .i32⟩
  | 50 => ⟨S2097152, .i32⟩
  | 51 => ⟨S_, .i32⟩
  | 52 => ⟨S2097152, .i32⟩
  | 53 => ⟨S2097152, .i32⟩
  | 54 => ⟨S_, .i32⟩
  | 55 => ⟨S2097152, .i32⟩
  | 56 => ⟨S2097152, .i1⟩
  | 57 => ⟨S_, .i32⟩
  | 58 => ⟨S2097152, .i32⟩
  | 59 => ⟨S2097152, .i32⟩
  | 60 => ⟨S2097152, .i32⟩
  | 61 => ⟨S_, .i32⟩
  | 62 => ⟨S2097152, .i32⟩
  | 63 => ⟨S2097152, .i1⟩
  | 64 => ⟨S_, .i32⟩
  | 65 => ⟨S2097152, .i32⟩
  | 66 => ⟨S2097152, .i32⟩
  | 67 => ⟨S2097152, .i32⟩
  | 68 => ⟨S_, .i32⟩
  | 69 => ⟨S2097152, .i32⟩
  | 70 => ⟨S2097152, .i1⟩
  | 71 => ⟨S_, .i32⟩
  | 72 => ⟨S2097152, .i32⟩
  | 73 => ⟨S2097152, .i32⟩
  | 74 => ⟨S2097152, .i32⟩
  | 75 => ⟨S2097152x1, .i32⟩
  | 76 => ⟨S2097152x1, .i32⟩
  | 77 => ⟨S2097152x1, .i32⟩
  | 78 => ⟨S2097152x3, .i32⟩
  | 79 => ⟨S2097152x2, .f32⟩
  | 80 => ⟨S2097152x1, .i32⟩
  | 81 => ⟨S2097152, .i32⟩
  | 82 => ⟨S_, .i32⟩
  | 83 => ⟨S2097152, .i32⟩
  | 84 => ⟨S2097152, .i32⟩
  | 85 => ⟨S2097152x1, .i32⟩
  | 86 => ⟨S2097152, .i32⟩
  | 87 => ⟨S_, .i32⟩
  | 88 => ⟨S2097152, .i32⟩
  | 89 => ⟨S2097152, .i32⟩
  | 90 => ⟨S2097152x1, .i32⟩
  | 91 => ⟨S2097152, .i32⟩
  | 92 => ⟨S_, .i32⟩
  | 93 => ⟨S2097152, .i32⟩
  | 94 => ⟨S2097152, .i32⟩
  | 95 => ⟨S_, .i32⟩
  | 96 => ⟨S2097152, .i32⟩
  | 97 => ⟨S2097152, .i1⟩
  | 98 => ⟨S_, .i32⟩
  | 99 => ⟨S2097152, .i32⟩
  | 100 => ⟨S2097152, .i32⟩
  | 101 => ⟨S2097152, .i32⟩
  | 102 => ⟨S_, .i32⟩
  | 103 => ⟨S2097152, .i32⟩
  | 104 => ⟨S2097152, .i1⟩
  | 105 => ⟨S_, .i32⟩
  | 106 => ⟨S2097152, .i32⟩
  | 107 => ⟨S2097152, .i32⟩
  | 108 => ⟨S2097152, .i32⟩
  | 109 => ⟨S_, .i32⟩
  | 110 => ⟨S2097152, .i32⟩
  | 111 => ⟨S2097152, .i1⟩
  | 112 => ⟨S_, .i32⟩
  | 113 => ⟨S2097152, .i32⟩
  | 114 => ⟨S2097152, .i32⟩
  | 115 => ⟨S2097152, .i32⟩
  | 116 => ⟨S2097152x1, .i32⟩
  | 117 => ⟨S2097152x1, .i32⟩
  | 118 => ⟨S2097152x1, .i32⟩
  | 119 => ⟨S2097152x3, .i32⟩
  | 120 => ⟨S2097152x2, .f32⟩
  | 121 => ⟨S2097152x1, .i32⟩
  | 122 => ⟨S2097152, .i32⟩
  | 123 => ⟨S_, .i32⟩
  | 124 => ⟨S2097152, .i32⟩
  | 125 => ⟨S2097152, .i32⟩
  | 126 => ⟨S2097152x1, .i32⟩
  | 127 => ⟨S2097152, .i32⟩
  | _ => ⟨S2097152x3, .f32⟩

abbrev hbmTy0_1 (i : Nat) : BufTy := match i % 128 with
  | 0 => ⟨S_, .i32⟩
  | 1 => ⟨S2097152, .i32⟩
  | 2 => ⟨S2097152, .i32⟩
  | 3 => ⟨S2097152x1, .i32⟩
  | 4 => ⟨S2097152, .i32⟩
  | 5 => ⟨S_, .i32⟩
  | 6 => ⟨S2097152, .i32⟩
  | 7 => ⟨S2097152, .i32⟩
  | 8 => ⟨S_, .i32⟩
  | 9 => ⟨S2097152, .i32⟩
  | 10 => ⟨S2097152, .i1⟩
  | 11 => ⟨S_, .i32⟩
  | 12 => ⟨S2097152, .i32⟩
  | 13 => ⟨S2097152, .i32⟩
  | 14 => ⟨S2097152, .i32⟩
  | 15 => ⟨S_, .i32⟩
  | 16 => ⟨S2097152, .i32⟩
  | 17 => ⟨S2097152, .i1⟩
  | 18 => ⟨S_, .i32⟩
  | 19 => ⟨S2097152, .i32⟩
  | 20 => ⟨S2097152, .i32⟩
  | 21 => ⟨S2097152, .i32⟩
  | 22 => ⟨S_, .i32⟩
  | 23 => ⟨S2097152, .i32⟩
  | 24 => ⟨S2097152, .i1⟩
  | 25 => ⟨S_, .i32⟩
  | 26 => ⟨S2097152, .i32⟩
  | 27 => ⟨S2097152, .i32⟩
  | 28 => ⟨S2097152, .i32⟩
  | 29 => ⟨S2097152x1, .i32⟩
  | 30 => ⟨S2097152x1, .i32⟩
  | 31 => ⟨S2097152x1, .i32⟩
  | 32 => ⟨S2097152x3, .i32⟩
  | 33 => ⟨S2097152x2, .f32⟩
  | 34 => ⟨S2097152x1, .i32⟩
  | 35 => ⟨S2097152, .i32⟩
  | 36 => ⟨S_, .i32⟩
  | 37 => ⟨S2097152, .i32⟩
  | 38 => ⟨S2097152, .i32⟩
  | 39 => ⟨S2097152x1, .i32⟩
  | 40 => ⟨S2097152, .i32⟩
  | 41 => ⟨S_, .i32⟩
  | 42 => ⟨S2097152, .i32⟩
  | 43 => ⟨S2097152, .i32⟩
  | 44 => ⟨S2097152x1, .i32⟩
  | 45 => ⟨S2097152, .i32⟩
  | 46 => ⟨S_, .i32⟩
  | 47 => ⟨S2097152, .i32⟩
  | 48 => ⟨S2097152, .i32⟩
  | 49 => ⟨S_, .i32⟩
  | 50 => ⟨S2097152, .i32⟩
  | 51 => ⟨S2097152, .i1⟩
  | 52 => ⟨S_, .i32⟩
  | 53 => ⟨S2097152, .i32⟩
  | 54 => ⟨S2097152, .i32⟩
  | 55 => ⟨S2097152, .i32⟩
  | 56 => ⟨S_, .i32⟩
  | 57 => ⟨S2097152, .i32⟩
  | 58 => ⟨S2097152, .i1⟩
  | 59 => ⟨S_, .i32⟩
  | 60 => ⟨S2097152, .i32⟩
  | 61 => ⟨S2097152, .i32⟩
  | 62 => ⟨S2097152, .i32⟩
  | 63 => ⟨S_, .i32⟩
  | 64 => ⟨S2097152, .i32⟩
  | 65 => ⟨S2097152, .i1⟩
  | 66 => ⟨S_, .i32⟩
  | 67 => ⟨S2097152, .i32⟩
  | 68 => ⟨S2097152, .i32⟩
  | 69 => ⟨S2097152, .i32⟩
  | 70 => ⟨S2097152x1, .i32⟩
  | 71 => ⟨S2097152x1, .i32⟩
  | 72 => ⟨S2097152x1, .i32⟩
  | 73 => ⟨S2097152x3, .i32⟩
  | 74 => ⟨S2097152x2, .f32⟩
  | 75 => ⟨S2097152x1, .i32⟩
  | 76 => ⟨S2097152, .i32⟩
  | 77 => ⟨S_, .i32⟩
  | 78 => ⟨S2097152, .i32⟩
  | 79 => ⟨S2097152, .i32⟩
  | 80 => ⟨S2097152x1, .i32⟩
  | 81 => ⟨S2097152, .i32⟩
  | 82 => ⟨S_, .i32⟩
  | 83 => ⟨S2097152, .i32⟩
  | 84 => ⟨S2097152, .i32⟩
  | 85 => ⟨S2097152x1, .i32⟩
  | 86 => ⟨S2097152, .i32⟩
  | 87 => ⟨S_, .i32⟩
  | 88 => ⟨S2097152, .i32⟩
  | 89 => ⟨S2097152, .i32⟩
  | 90 => ⟨S_, .i32⟩
  | 91 => ⟨S2097152, .i32⟩
  | 92 => ⟨S2097152, .i1⟩
  | 93 => ⟨S_, .i32⟩
  | 94 => ⟨S2097152, .i32⟩
  | 95 => ⟨S2097152, .i32⟩
  | 96 => ⟨S2097152, .i32⟩
  | 97 => ⟨S_, .i32⟩
  | 98 => ⟨S2097152, .i32⟩
  | 99 => ⟨S2097152, .i1⟩
  | 100 => ⟨S_, .i32⟩
  | 101 => ⟨S2097152, .i32⟩
  | 102 => ⟨S2097152, .i32⟩
  | 103 => ⟨S2097152, .i32⟩
  | 104 => ⟨S_, .i32⟩
  | 105 => ⟨S2097152, .i32⟩
  | 106 => ⟨S2097152, .i1⟩
  | 107 => ⟨S_, .i32⟩
  | 108 => ⟨S2097152, .i32⟩
  | 109 => ⟨S2097152, .i32⟩
  | 110 => ⟨S2097152, .i32⟩
  | 111 => ⟨S2097152x1, .i32⟩
  | 112 => ⟨S2097152x1, .i32⟩
  | 113 => ⟨S2097152x1, .i32⟩
  | 114 => ⟨S2097152x3, .i32⟩
  | 115 => ⟨S2097152x2, .f32⟩
  | 116 => ⟨S2097152x1, .i32⟩
  | 117 => ⟨S2097152, .i32⟩
  | 118 => ⟨S_, .i32⟩
  | 119 => ⟨S2097152, .i32⟩
  | 120 => ⟨S2097152, .i32⟩
  | 121 => ⟨S2097152x1, .i32⟩
  | 122 => ⟨S2097152, .i32⟩
  | 123 => ⟨S_, .i32⟩
  | 124 => ⟨S2097152, .i32⟩
  | 125 => ⟨S2097152, .i32⟩
  | 126 => ⟨S2097152x1, .i32⟩
  | 127 => ⟨S2097152, .i32⟩
  | _ => ⟨S2097152x3, .f32⟩

abbrev hbmTy0_2 (i : Nat) : BufTy := match i % 128 with
  | 0 => ⟨S_, .i32⟩
  | 1 => ⟨S2097152, .i32⟩
  | 2 => ⟨S2097152, .i32⟩
  | 3 => ⟨S_, .i32⟩
  | 4 => ⟨S2097152, .i32⟩
  | 5 => ⟨S2097152, .i1⟩
  | 6 => ⟨S_, .i32⟩
  | 7 => ⟨S2097152, .i32⟩
  | 8 => ⟨S2097152, .i32⟩
  | 9 => ⟨S2097152, .i32⟩
  | 10 => ⟨S_, .i32⟩
  | 11 => ⟨S2097152, .i32⟩
  | 12 => ⟨S2097152, .i1⟩
  | 13 => ⟨S_, .i32⟩
  | 14 => ⟨S2097152, .i32⟩
  | 15 => ⟨S2097152, .i32⟩
  | 16 => ⟨S2097152, .i32⟩
  | 17 => ⟨S_, .i32⟩
  | 18 => ⟨S2097152, .i32⟩
  | 19 => ⟨S2097152, .i1⟩
  | 20 => ⟨S_, .i32⟩
  | 21 => ⟨S2097152, .i32⟩
  | 22 => ⟨S2097152, .i32⟩
  | 23 => ⟨S2097152, .i32⟩
  | 24 => ⟨S2097152x1, .i32⟩
  | 25 => ⟨S2097152x1, .i32⟩
  | 26 => ⟨S2097152x1, .i32⟩
  | 27 => ⟨S2097152x3, .i32⟩
  | 28 => ⟨S2097152x2, .f32⟩
  | 29 => ⟨S2097152x1, .i32⟩
  | 30 => ⟨S2097152, .i32⟩
  | 31 => ⟨S_, .i32⟩
  | 32 => ⟨S2097152, .i32⟩
  | 33 => ⟨S2097152, .i32⟩
  | 34 => ⟨S2097152x1, .i32⟩
  | 35 => ⟨S2097152, .i32⟩
  | 36 => ⟨S_, .i32⟩
  | 37 => ⟨S2097152, .i32⟩
  | 38 => ⟨S2097152, .i32⟩
  | 39 => ⟨S2097152x1, .i32⟩
  | 40 => ⟨S2097152, .i32⟩
  | 41 => ⟨S_, .i32⟩
  | 42 => ⟨S2097152, .i32⟩
  | 43 => ⟨S2097152, .i32⟩
  | 44 => ⟨S_, .i32⟩
  | 45 => ⟨S2097152, .i32⟩
  | 46 => ⟨S2097152, .i1⟩
  | 47 => ⟨S_, .i32⟩
  | 48 => ⟨S2097152, .i32⟩
  | 49 => ⟨S2097152, .i32⟩
  | 50 => ⟨S2097152, .i32⟩
  | 51 => ⟨S_, .i32⟩
  | 52 => ⟨S2097152, .i32⟩
  | 53 => ⟨S2097152, .i1⟩
  | 54 => ⟨S_, .i32⟩
  | 55 => ⟨S2097152, .i32⟩
  | 56 => ⟨S2097152, .i32⟩
  | 57 => ⟨S2097152, .i32⟩
  | 58 => ⟨S_, .i32⟩
  | 59 => ⟨S2097152, .i32⟩
  | 60 => ⟨S2097152, .i1⟩
  | 61 => ⟨S_, .i32⟩
  | 62 => ⟨S2097152, .i32⟩
  | 63 => ⟨S2097152, .i32⟩
  | 64 => ⟨S2097152, .i32⟩
  | 65 => ⟨S2097152x1, .i32⟩
  | 66 => ⟨S2097152x1, .i32⟩
  | 67 => ⟨S2097152x1, .i32⟩
  | 68 => ⟨S2097152x3, .i32⟩
  | 69 => ⟨S2097152x2, .f32⟩
  | 70 => ⟨S2097152x1, .i32⟩
  | 71 => ⟨S2097152, .i32⟩
  | 72 => ⟨S_, .i32⟩
  | 73 => ⟨S2097152, .i32⟩
  | 74 => ⟨S2097152, .i32⟩
  | 75 => ⟨S2097152x1, .i32⟩
  | 76 => ⟨S2097152, .i32⟩
  | 77 => ⟨S_, .i32⟩
  | 78 => ⟨S2097152, .i32⟩
  | 79 => ⟨S2097152, .i32⟩
  | 80 => ⟨S2097152x1, .i32⟩
  | 81 => ⟨S2097152, .i32⟩
  | 82 => ⟨S_, .i32⟩
  | 83 => ⟨S2097152, .i32⟩
  | 84 => ⟨S2097152, .i32⟩
  | 85 => ⟨S_, .i32⟩
  | 86 => ⟨S2097152, .i32⟩
  | 87 => ⟨S2097152, .i1⟩
  | 88 => ⟨S_, .i32⟩
  | 89 => ⟨S2097152, .i32⟩
  | 90 => ⟨S2097152, .i32⟩
  | 91 => ⟨S2097152, .i32⟩
  | 92 => ⟨S_, .i32⟩
  | 93 => ⟨S2097152, .i32⟩
  | 94 => ⟨S2097152, .i1⟩
  | 95 => ⟨S_, .i32⟩
  | 96 => ⟨S2097152, .i32⟩
  | 97 => ⟨S2097152, .i32⟩
  | 98 => ⟨S2097152, .i32⟩
  | 99 => ⟨S_, .i32⟩
  | 100 => ⟨S2097152, .i32⟩
  | 101 => ⟨S2097152, .i1⟩
  | 102 => ⟨S_, .i32⟩
  | 103 => ⟨S2097152, .i32⟩
  | 104 => ⟨S2097152, .i32⟩
  | 105 => ⟨S2097152, .i32⟩
  | 106 => ⟨S2097152x1, .i32⟩
  | 107 => ⟨S2097152x1, .i32⟩
  | 108 => ⟨S2097152x1, .i32⟩
  | 109 => ⟨S2097152x3, .i32⟩
  | 110 => ⟨S2097152x2, .f32⟩
  | 111 => ⟨S2097152x16, .f32⟩
  | 112 => ⟨S2097152x2, .f32⟩
  | 113 => ⟨S2097152x1, .f32⟩
  | 114 => ⟨S2097152, .f32⟩
  | 115 => ⟨S2097152x1, .f32⟩
  | 116 => ⟨S2097152, .f32⟩
  | _ => ⟨S2097152x3, .f32⟩

abbrev hbmTy (i : Nat) : BufTy := match i / 128 with
  | 0 => hbmTy0_0 i
  | 1 => hbmTy0_1 i
  | 2 => hbmTy0_2 i
  | _ => ⟨S2097152x3, .f32⟩

abbrev bufTy : (tb : Table) → Fin (tcTables nBuf tb) → BufTy
  | .hbm, ⟨i, _⟩ => hbmTy i
  | .local _ .vmem, ⟨0, _⟩ => ⟨S2048x4, .f32⟩
  | .local _ .vmem, ⟨1, _⟩ => ⟨S2048x4, .f32⟩
  | .local _ .vmem, ⟨2, _⟩ => ⟨S2048x16, .f32⟩
  | .local _ .vmem, ⟨3, _⟩ => ⟨S2048x16, .f32⟩
  | .local _ .vmem, ⟨4, _⟩ => ⟨S2048x2, .f32⟩
  | .local _ .vmem, ⟨5, _⟩ => ⟨S2048x2, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_11 : Ref sig .tc := ⟨.hbm, 61, rfl⟩
abbrev main_v41 : Ref sig .tc := ⟨.hbm, 62, rfl⟩
abbrev main_v42 : Ref sig .tc := ⟨.hbm, 63, rfl⟩
abbrev main_c_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_13 : Ref sig .tc := ⟨.hbm, 68, rfl⟩
abbrev main_v46 : Ref sig .tc := ⟨.hbm, 69, rfl⟩
abbrev main_v47 : Ref sig .tc := ⟨.hbm, 70, rfl⟩
abbrev main_c_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_15 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_16 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_17 : Ref sig .tc := ⟨.hbm, 92, rfl⟩
abbrev main_v66 : Ref sig .tc := ⟨.hbm, 93, rfl⟩
abbrev main_v67 : Ref sig .tc := ⟨.hbm, 94, rfl⟩
abbrev main_c_18 : Ref sig .tc := ⟨.hbm, 95, rfl⟩
abbrev main_v68 : Ref sig .tc := ⟨.hbm, 96, rfl⟩
abbrev main_v69 : Ref sig .tc := ⟨.hbm, 97, rfl⟩
abbrev main_c_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_20 : Ref sig .tc := ⟨.hbm, 102, rfl⟩
abbrev main_v73 : Ref sig .tc := ⟨.hbm, 103, rfl⟩
abbrev main_v74 : Ref sig .tc := ⟨.hbm, 104, rfl⟩
abbrev main_c_21 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_22 : Ref sig .tc := ⟨.hbm, 109, rfl⟩
abbrev main_v78 : Ref sig .tc := ⟨.hbm, 110, rfl⟩
abbrev main_v79 : Ref sig .tc := ⟨.hbm, 111, rfl⟩
abbrev main_c_23 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_24 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_25 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_26 : Ref sig .tc := ⟨.hbm, 133, rfl⟩
abbrev main_v98 : Ref sig .tc := ⟨.hbm, 134, rfl⟩
abbrev main_v99 : Ref sig .tc := ⟨.hbm, 135, rfl⟩
abbrev main_c_27 : Ref sig .tc := ⟨.hbm, 136, rfl⟩
abbrev main_v100 : Ref sig .tc := ⟨.hbm, 137, rfl⟩
abbrev main_v101 : Ref sig .tc := ⟨.hbm, 138, rfl⟩
abbrev main_c_28 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_c_29 : Ref sig .tc := ⟨.hbm, 143, rfl⟩
abbrev main_v105 : Ref sig .tc := ⟨.hbm, 144, rfl⟩
abbrev main_v106 : Ref sig .tc := ⟨.hbm, 145, rfl⟩
abbrev main_c_30 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_31 : Ref sig .tc := ⟨.hbm, 150, rfl⟩
abbrev main_v110 : Ref sig .tc := ⟨.hbm, 151, rfl⟩
abbrev main_v111 : Ref sig .tc := ⟨.hbm, 152, rfl⟩
abbrev main_c_32 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_c_33 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_c_34 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_c_35 : Ref sig .tc := ⟨.hbm, 174, rfl⟩
abbrev main_v130 : Ref sig .tc := ⟨.hbm, 175, rfl⟩
abbrev main_v131 : Ref sig .tc := ⟨.hbm, 176, rfl⟩
abbrev main_c_36 : Ref sig .tc := ⟨.hbm, 177, rfl⟩
abbrev main_v132 : Ref sig .tc := ⟨.hbm, 178, rfl⟩
abbrev main_v133 : Ref sig .tc := ⟨.hbm, 179, rfl⟩
abbrev main_c_37 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_c_38 : Ref sig .tc := ⟨.hbm, 184, rfl⟩
abbrev main_v137 : Ref sig .tc := ⟨.hbm, 185, rfl⟩
abbrev main_v138 : Ref sig .tc := ⟨.hbm, 186, rfl⟩
abbrev main_c_39 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_c_40 : Ref sig .tc := ⟨.hbm, 191, rfl⟩
abbrev main_v142 : Ref sig .tc := ⟨.hbm, 192, rfl⟩
abbrev main_v143 : Ref sig .tc := ⟨.hbm, 193, rfl⟩
abbrev main_c_41 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_c_42 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_43 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_c_44 : Ref sig .tc := ⟨.hbm, 215, rfl⟩
abbrev main_v162 : Ref sig .tc := ⟨.hbm, 216, rfl⟩
abbrev main_v163 : Ref sig .tc := ⟨.hbm, 217, rfl⟩
abbrev main_c_45 : Ref sig .tc := ⟨.hbm, 218, rfl⟩
abbrev main_v164 : Ref sig .tc := ⟨.hbm, 219, rfl⟩
abbrev main_v165 : Ref sig .tc := ⟨.hbm, 220, rfl⟩
abbrev main_c_46 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_c_47 : Ref sig .tc := ⟨.hbm, 225, rfl⟩
abbrev main_v169 : Ref sig .tc := ⟨.hbm, 226, rfl⟩
abbrev main_v170 : Ref sig .tc := ⟨.hbm, 227, rfl⟩
abbrev main_c_48 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_c_49 : Ref sig .tc := ⟨.hbm, 232, rfl⟩
abbrev main_v174 : Ref sig .tc := ⟨.hbm, 233, rfl⟩
abbrev main_v175 : Ref sig .tc := ⟨.hbm, 234, rfl⟩
abbrev main_c_50 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_c_51 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_c_52 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_c_53 : Ref sig .tc := ⟨.hbm, 256, rfl⟩
abbrev main_v194 : Ref sig .tc := ⟨.hbm, 257, rfl⟩
abbrev main_v195 : Ref sig .tc := ⟨.hbm, 258, rfl⟩
abbrev main_c_54 : Ref sig .tc := ⟨.hbm, 259, rfl⟩
abbrev main_v196 : Ref sig .tc := ⟨.hbm, 260, rfl⟩
abbrev main_v197 : Ref sig .tc := ⟨.hbm, 261, rfl⟩
abbrev main_c_55 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_c_56 : Ref sig .tc := ⟨.hbm, 266, rfl⟩
abbrev main_v201 : Ref sig .tc := ⟨.hbm, 267, rfl⟩
abbrev main_v202 : Ref sig .tc := ⟨.hbm, 268, rfl⟩
abbrev main_c_57 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_c_58 : Ref sig .tc := ⟨.hbm, 273, rfl⟩
abbrev main_v206 : Ref sig .tc := ⟨.hbm, 274, rfl⟩
abbrev main_v207 : Ref sig .tc := ⟨.hbm, 275, rfl⟩
abbrev main_c_59 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_c_60 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_c_61 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_c_62 : Ref sig .tc := ⟨.hbm, 297, rfl⟩
abbrev main_v226 : Ref sig .tc := ⟨.hbm, 298, rfl⟩
abbrev main_v227 : Ref sig .tc := ⟨.hbm, 299, rfl⟩
abbrev main_c_63 : Ref sig .tc := ⟨.hbm, 300, rfl⟩
abbrev main_v228 : Ref sig .tc := ⟨.hbm, 301, rfl⟩
abbrev main_v229 : Ref sig .tc := ⟨.hbm, 302, rfl⟩
abbrev main_c_64 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_c_65 : Ref sig .tc := ⟨.hbm, 307, rfl⟩
abbrev main_v233 : Ref sig .tc := ⟨.hbm, 308, rfl⟩
abbrev main_v234 : Ref sig .tc := ⟨.hbm, 309, rfl⟩
abbrev main_c_66 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_c_67 : Ref sig .tc := ⟨.hbm, 314, rfl⟩
abbrev main_v238 : Ref sig .tc := ⟨.hbm, 315, rfl⟩
abbrev main_v239 : Ref sig .tc := ⟨.hbm, 316, rfl⟩
abbrev main_c_68 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_c_69 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_c_70 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_c_71 : Ref sig .tc := ⟨.hbm, 338, rfl⟩
abbrev main_v258 : Ref sig .tc := ⟨.hbm, 339, rfl⟩
abbrev main_v259 : Ref sig .tc := ⟨.hbm, 340, rfl⟩
abbrev main_c_72 : Ref sig .tc := ⟨.hbm, 341, rfl⟩
abbrev main_v260 : Ref sig .tc := ⟨.hbm, 342, rfl⟩
abbrev main_v261 : Ref sig .tc := ⟨.hbm, 343, rfl⟩
abbrev main_c_73 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_c_74 : Ref sig .tc := ⟨.hbm, 348, rfl⟩
abbrev main_v265 : Ref sig .tc := ⟨.hbm, 349, rfl⟩
abbrev main_v266 : Ref sig .tc := ⟨.hbm, 350, rfl⟩
abbrev main_c_75 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_c_76 : Ref sig .tc := ⟨.hbm, 355, rfl⟩
abbrev main_v270 : Ref sig .tc := ⟨.hbm, 356, rfl⟩
abbrev main_v271 : Ref sig .tc := ⟨.hbm, 357, rfl⟩
abbrev main_c_77 : Ref sig .tc := ⟨.hbm, 358, rfl⟩
abbrev main_v272 : Ref sig .tc := ⟨.hbm, 359, rfl⟩
abbrev main_v273 : Ref sig .tc := ⟨.hbm, 360, rfl⟩
abbrev main_v274 : Ref sig .tc := ⟨.hbm, 361, rfl⟩
abbrev main_v275 : Ref sig .tc := ⟨.hbm, 362, rfl⟩
abbrev main_v276 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_v284 : Ref sig .tc := ⟨.hbm, 371, rfl⟩
abbrev main_v285 : Ref sig .tc := ⟨.hbm, 372, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  bcast_S_S2097152x3 : S_.BroadcastsInDim S2097152x3 (![] : Fin 0 → Fin S2097152x3.rank)
  bcast_S_S3 : S_.BroadcastsInDim S3 (![] : Fin 0 → Fin S3.rank)
  reducesTo_S2097152x3_S2097152_d1 : S2097152x3.ReducesTo [1] S2097152
  h_S_ : 0 < S_.numel
  bcast_S2097152_S2097152x1_0 : S2097152.BroadcastsInDim S2097152x1 (![0] : Fin 1 → Fin S2097152x1.rank)
  concatenates_S2097152x3_S2097152x1_S2097152x4_d1 : Shape.Concatenates [S2097152x3, S2097152x1] S2097152x4 1
  slices_S2097152x3_S2097152x1_0_0 : S2097152x3.Slices ![0, 0] S2097152x1
  shapeCasts_S2097152x1_S2097152 : S2097152x1.ShapeCasts S2097152
  bcast_S_S2097152 : S_.BroadcastsInDim S2097152 (![] : Fin 0 → Fin S2097152.rank)
  slices_S2097152x3_S2097152x1_0_1 : S2097152x3.Slices ![0, 1] S2097152x1
  slices_S2097152x3_S2097152x1_0_2 : S2097152x3.Slices ![0, 2] S2097152x1
  concatenates_S2097152x1_S2097152x1_S2097152x1_S2097152x3_d1 : Shape.Concatenates [S2097152x1, S2097152x1, S2097152x1] S2097152x3 1
  concatenates_S2097152x2_S2097152x2_S2097152x2_S2097152x2_S2097152x2_S2097152x2_S2097152x2_S2097152x2_S2097152x16_d1 : Shape.Concatenates [S2097152x2, S2097152x2, S2097152x2, S2097152x2, S2097152x2, S2097152x2, S2097152x2, S2097152x2] S2097152x16 1
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  slices_S2048x4_o0_0_S2048x1 : S2048x4.Slices ![0, 0] S2048x1
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  slices_S2048x16_o0_0_S2048x2 : S2048x16.Slices ![0, 0] S2048x2
  broadcasts_S2048x1_S2048x2 : S2048x1.Broadcasts S2048x2
  slices_S2048x16_o0_2_S2048x2 : S2048x16.Slices ![0, 2] S2048x2
  slices_S2048x16_o0_4_S2048x2 : S2048x16.Slices ![0, 4] S2048x2
  slices_S2048x16_o0_6_S2048x2 : S2048x16.Slices ![0, 6] S2048x2
  slices_S2048x16_o0_8_S2048x2 : S2048x16.Slices ![0, 8] S2048x2
  slices_S2048x16_o0_10_S2048x2 : S2048x16.Slices ![0, 10] S2048x2
  slices_S2048x16_o0_12_S2048x2 : S2048x16.Slices ![0, 12] S2048x2
  slices_S2048x16_o0_14_S2048x2 : S2048x16.Slices ![0, 14] S2048x2
  inb_S2048x2_S2048x2_0_0 : ∀ a, (![0, 0] : Fin 2 → Nat) a + S2048x2.size a ≤ S2048x2.size a
  h_S2048x2 : 0 < S2048x2.numel
  slices_S2097152x2_S2097152x1_0_0 : S2097152x2.Slices ![0, 0] S2097152x1
  slices_S2097152x2_S2097152x1_0_1 : S2097152x2.Slices ![0, 1] S2097152x1
  gather_S256x256x256x2_S2097152x3_S2097152x2_1_012_n_n_012_1_1112_wf : GatherDims.WF S256x256x256x2 S2097152x3 S2097152x2 [1] [0, 1, 2] [] [0, 1, 2] [] 1 ![1, 1, 1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S2097152x4.size a
  hwx0_0 : ∀ i : grid0.Coords, EltTy.bits .f32 = 32 ∨ (Rect.block (s := S2097152x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S2097152x16.size a
  hwx0_1 : ∀ i : grid0.Coords, EltTy.bits .f32 = 32 ∨ (Rect.block (s := S2097152x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2.size a ≤ S2097152x2.size a
  hwx0_2 : ∀ i : grid0.Coords, EltTy.bits .f32 = 32 ∨ (Rect.block (s := S2097152x2) S2048x2.size (cc0_transform_2 i) (hinb0_2 i)).WholeWords (EltTy.packing .f32)

variable [Facts₀]

def gather_S256x256x256x2_S2097152x3_S2097152x2_1_012_n_n_012_1_1112 : GatherDims S256x256x256x2 S2097152x3 S2097152x2 where
  offsetDims := [1]
  collapsedSliceDims := [0, 1, 2]
  operandBatchingDims := []
  startIndicesBatchingDims := []
  startIndexMap := [0, 1, 2]
  indexVectorDim := 1
  sliceSizes := ![1, 1, 1, 2]
  wf := gather_S256x256x256x2_S2097152x3_S2097152x2_1_012_n_n_012_1_1112_wf

abbrev win0_0 : Pipeline.Window sig grid0 :=
  Pipeline.Window.ofSpec (Memref.whole main_v23) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v280) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v281) S2048x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S256x256x256x2 : Shape := ⟨4, ![256, 256, 256, 2]⟩
abbrev S3 : Shape := ⟨1, ![3]⟩
abbrev S_ : Shape := ⟨0, ![]⟩
abbrev S1x3 : Shape := ⟨2, ![1, 3]⟩
abbrev S2097152 : Shape := ⟨1, ![2097152]⟩
abbrev S2097152x2 : Shape := ⟨2, ![2097152, 2]⟩
abbrev S2097152x1 : Shape := ⟨2, ![2097152, 1]⟩

abbrev nBuf : Space → Nat
  | .hbm => 473
  | .vmem => 0
  | .smem => 0
  | _ => 0

abbrev hbmTy0_0 (i : Nat) : BufTy := match i % 128 with
  | 0 => ⟨S2097152x3, .f32⟩
  | 1 => ⟨S256x256x256x2, .f32⟩
  | 2 => ⟨S3, .f32⟩
  | 3 => ⟨S_, .f32⟩
  | 4 => ⟨S3, .f32⟩
  | 5 => ⟨S3, .f32⟩
  | 6 => ⟨S1x3, .f32⟩
  | 7 => ⟨S2097152x3, .f32⟩
  | 8 => ⟨S2097152x3, .f32⟩
  | 9 => ⟨S2097152x3, .f32⟩
  | 10 => ⟨S2097152x3, .f32⟩
  | 11 => ⟨S_, .f32⟩
  | 12 => ⟨S2097152x3, .f32⟩
  | 13 => ⟨S2097152x3, .i1⟩
  | 14 => ⟨S_, .f32⟩
  | 15 => ⟨S3, .f32⟩
  | 16 => ⟨S3, .f32⟩
  | 17 => ⟨S1x3, .f32⟩
  | 18 => ⟨S2097152x3, .f32⟩
  | 19 => ⟨S2097152x3, .i1⟩
  | 20 => ⟨S2097152x3, .i1⟩
  | 21 => ⟨S_, .i1⟩
  | 22 => ⟨S2097152, .i1⟩
  | 23 => ⟨S2097152x3, .f32⟩
  | 24 => ⟨S_, .f32⟩
  | 25 => ⟨S3, .f32⟩
  | 26 => ⟨S3, .f32⟩
  | 27 => ⟨S_, .f32⟩
  | 28 => ⟨S_, .f32⟩
  | 29 => ⟨S2097152x3, .f32⟩
  | 30 => ⟨S2097152x3, .f32⟩
  | 31 => ⟨S1x3, .f32⟩
  | 32 => ⟨S2097152x3, .f32⟩
  | 33 => ⟨S2097152x3, .f32⟩
  | 34 => ⟨S2097152x3, .i32⟩
  | 35 => ⟨S2097152x3, .f32⟩
  | 36 => ⟨S2097152x3, .f32⟩
  | 37 => ⟨S_, .f32⟩
  | 38 => ⟨S2097152x2, .f32⟩
  | 39 => ⟨S2097152x1, .f32⟩
  | 40 => ⟨S2097152, .f32⟩
  | 41 => ⟨S_, .f32⟩
  | 42 => ⟨S2097152, .f32⟩
  | 43 => ⟨S2097152, .f32⟩
  | 44 => ⟨S2097152x1, .f32⟩
  | 45 => ⟨S2097152, .f32⟩
  | 46 => ⟨S_, .f32⟩
  | 47 => ⟨S2097152, .f32⟩
  | 48 => ⟨S2097152, .f32⟩
  | 49 => ⟨S2097152x1, .f32⟩
  | 50 => ⟨S2097152, .f32⟩
  | 51 => ⟨S_, .f32⟩
  | 52 => ⟨S2097152, .f32⟩
  | 53 => ⟨S2097152, .f32⟩
  | 54 => ⟨S2097152x1, .i32⟩
  | 55 => ⟨S2097152, .i32⟩
  | 56 => ⟨S_, .i32⟩
  | 57 => ⟨S2097152, .i32⟩
  | 58 => ⟨S2097152, .i32⟩
  | 59 => ⟨S2097152x1, .i32⟩
  | 60 => ⟨S2097152, .i32⟩
  | 61 => ⟨S_, .i32⟩
  | 62 => ⟨S2097152, .i32⟩
  | 63 => ⟨S2097152, .i32⟩
  | 64 => ⟨S2097152x1, .i32⟩
  | 65 => ⟨S2097152, .i32⟩
  | 66 => ⟨S_, .i32⟩
  | 67 => ⟨S2097152, .i32⟩
  | 68 => ⟨S2097152, .i32⟩
  | 69 => ⟨S_, .i32⟩
  | 70 => ⟨S2097152, .i32⟩
  | 71 => ⟨S2097152, .i1⟩
  | 72 => ⟨S_, .i32⟩
  | 73 => ⟨S2097152, .i32⟩
  | 74 => ⟨S2097152, .i32⟩
  | 75 => ⟨S2097152, .i32⟩
  | 76 => ⟨S_, .i32⟩
  | 77 => ⟨S2097152, .i32⟩
  | 78 => ⟨S2097152, .i1⟩
  | 79 => ⟨S_, .i32⟩
  | 80 => ⟨S2097152, .i32⟩
  | 81 => ⟨S2097152, .i32⟩
  | 82 => ⟨S2097152, .i32⟩
  | 83 => ⟨S_, .i32⟩
  | 84 => ⟨S2097152, .i32⟩
  | 85 => ⟨S2097152, .i1⟩
  | 86 => ⟨S_, .i32⟩
  | 87 => ⟨S2097152, .i32⟩
  | 88 => ⟨S2097152, .i32⟩
  | 89 => ⟨S2097152, .i32⟩
  | 90 => ⟨S2097152x1, .i32⟩
  | 91 => ⟨S2097152x1, .i32⟩
  | 92 => ⟨S2097152x1, .i32⟩
  | 93 => ⟨S2097152x3, .i32⟩
  | 94 => ⟨S2097152x2, .f32⟩
  | 95 => ⟨S2097152, .f32⟩
  | 96 => ⟨S2097152, .f32⟩
  | 97 => ⟨S2097152x1, .f32⟩
  | 98 => ⟨S2097152x2, .f32⟩
  | 99 => ⟨S2097152x2, .f32⟩
  | 100 => ⟨S2097152x2, .f32⟩
  | 101 => ⟨S2097152x1, .f32⟩
  | 102 => ⟨S2097152, .f32⟩
  | 103 => ⟨S2097152x1, .i32⟩
  | 104 => ⟨S2097152, .i32⟩
  | 105 => ⟨S_, .i32⟩
  | 106 => ⟨S2097152, .i32⟩
  | 107 => ⟨S2097152, .i32⟩
  | 108 => ⟨S2097152x1, .i32⟩
  | 109 => ⟨S2097152, .i32⟩
  | 110 => ⟨S_, .i32⟩
  | 111 => ⟨S2097152, .i32⟩
  | 112 => ⟨S2097152, .i32⟩
  | 113 => ⟨S2097152x1, .i32⟩
  | 114 => ⟨S2097152, .i32⟩
  | 115 => ⟨S_, .i32⟩
  | 116 => ⟨S2097152, .i32⟩
  | 117 => ⟨S2097152, .i32⟩
  | 118 => ⟨S_, .i32⟩
  | 119 => ⟨S2097152, .i32⟩
  | 120 => ⟨S2097152, .i1⟩
  | 121 => ⟨S_, .i32⟩
  | 122 => ⟨S2097152, .i32⟩
  | 123 => ⟨S2097152, .i32⟩
  | 124 => ⟨S2097152, .i32⟩
  | 125 => ⟨S_, .i32⟩
  | 126 => ⟨S2097152, .i32⟩
  | 127 => ⟨S2097152, .i1⟩
  | _ => ⟨S2097152x3, .f32⟩

abbrev hbmTy0_1 (i : Nat) : BufTy := match i % 128 with
  | 0 => ⟨S_, .i32⟩
  | 1 => ⟨S2097152, .i32⟩
  | 2 => ⟨S2097152, .i32⟩
  | 3 => ⟨S2097152, .i32⟩
  | 4 => ⟨S_, .i32⟩
  | 5 => ⟨S2097152, .i32⟩
  | 6 => ⟨S2097152, .i1⟩
  | 7 => ⟨S_, .i32⟩
  | 8 => ⟨S2097152, .i32⟩
  | 9 => ⟨S2097152, .i32⟩
  | 10 => ⟨S2097152, .i32⟩
  | 11 => ⟨S2097152x1, .i32⟩
  | 12 => ⟨S2097152x1, .i32⟩
  | 13 => ⟨S2097152x1, .i32⟩
  | 14 => ⟨S2097152x3, .i32⟩
  | 15 => ⟨S2097152x2, .f32⟩
  | 16 => ⟨S2097152, .f32⟩
  | 17 => ⟨S2097152, .f32⟩
  | 18 => ⟨S2097152x1, .f32⟩
  | 19 => ⟨S2097152x2, .f32⟩
  | 20 => ⟨S2097152x2, .f32⟩
  | 21 => ⟨S2097152x2, .f32⟩
  | 22 => ⟨S2097152x1, .f32⟩
  | 23 => ⟨S2097152, .f32⟩
  | 24 => ⟨S2097152x1, .f32⟩
  | 25 => ⟨S2097152, .f32⟩
  | 26 => ⟨S_, .f32⟩
  | 27 => ⟨S2097152, .f32⟩
  | 28 => ⟨S2097152, .f32⟩
  | 29 => ⟨S2097152x1, .i32⟩
  | 30 => ⟨S2097152, .i32⟩
  | 31 => ⟨S_, .i32⟩
  | 32 => ⟨S2097152, .i32⟩
  | 33 => ⟨S2097152, .i32⟩
  | 34 => ⟨S2097152x1, .i32⟩
  | 35 => ⟨S2097152, .i32⟩
  | 36 => ⟨S_, .i32⟩
  | 37 => ⟨S2097152, .i32⟩
  | 38 => ⟨S2097152, .i32⟩
  | 39 => ⟨S2097152x1, .i32⟩
  | 40 => ⟨S2097152, .i32⟩
  | 41 => ⟨S_, .i32⟩
  | 42 => ⟨S2097152, .i32⟩
  | 43 => ⟨S2097152, .i32⟩
  | 44 => ⟨S_, .i32⟩
  | 45 => ⟨S2097152, .i32⟩
  | 46 => ⟨S2097152, .i1⟩
  | 47 => ⟨S_, .i32⟩
  | 48 => ⟨S2097152, .i32⟩
  | 49 => ⟨S2097152, .i32⟩
  | 50 => ⟨S2097152, .i32⟩
  | 51 => ⟨S_, .i32⟩
  | 52 => ⟨S2097152, .i32⟩
  | 53 => ⟨S2097152, .i1⟩
  | 54 => ⟨S_, .i32⟩
  | 55 => ⟨S2097152, .i32⟩
  | 56 => ⟨S2097152, .i32⟩
  | 57 => ⟨S2097152, .i32⟩
  | 58 => ⟨S_, .i32⟩
  | 59 => ⟨S2097152, .i32⟩
  | 60 => ⟨S2097152, .i1⟩
  | 61 => ⟨S_, .i32⟩
  | 62 => ⟨S2097152, .i32⟩
  | 63 => ⟨S2097152, .i32⟩
  | 64 => ⟨S2097152, .i32⟩
  | 65 => ⟨S2097152x1, .i32⟩
  | 66 => ⟨S2097152x1, .i32⟩
  | 67 => ⟨S2097152x1, .i32⟩
  | 68 => ⟨S2097152x3, .i32⟩
  | 69 => ⟨S2097152x2, .f32⟩
  | 70 => ⟨S2097152, .f32⟩
  | 71 => ⟨S2097152, .f32⟩
  | 72 => ⟨S2097152x1, .f32⟩
  | 73 => ⟨S2097152x2, .f32⟩
  | 74 => ⟨S2097152x2, .f32⟩
  | 75 => ⟨S2097152x2, .f32⟩
  | 76 => ⟨S2097152x1, .f32⟩
  | 77 => ⟨S2097152, .f32⟩
  | 78 => ⟨S2097152x1, .i32⟩
  | 79 => ⟨S2097152, .i32⟩
  | 80 => ⟨S_, .i32⟩
  | 81 => ⟨S2097152, .i32⟩
  | 82 => ⟨S2097152, .i32⟩
  | 83 => ⟨S2097152x1, .i32⟩
  | 84 => ⟨S2097152, .i32⟩
  | 85 => ⟨S_, .i32⟩
  | 86 => ⟨S2097152, .i32⟩
  | 87 => ⟨S2097152, .i32⟩
  | 88 => ⟨S2097152x1, .i32⟩
  | 89 => ⟨S2097152, .i32⟩
  | 90 => ⟨S_, .i32⟩
  | 91 => ⟨S2097152, .i32⟩
  | 92 => ⟨S2097152, .i32⟩
  | 93 => ⟨S_, .i32⟩
  | 94 => ⟨S2097152, .i32⟩
  | 95 => ⟨S2097152, .i1⟩
  | 96 => ⟨S_, .i32⟩
  | 97 => ⟨S2097152, .i32⟩
  | 98 => ⟨S2097152, .i32⟩
  | 99 => ⟨S2097152, .i32⟩
  | 100 => ⟨S_, .i32⟩
  | 101 => ⟨S2097152, .i32⟩
  | 102 => ⟨S2097152, .i1⟩
  | 103 => ⟨S_, .i32⟩
  | 104 => ⟨S2097152, .i32⟩
  | 105 => ⟨S2097152, .i32⟩
  | 106 => ⟨S2097152, .i32⟩
  | 107 => ⟨S_, .i32⟩
  | 108 => ⟨S2097152, .i32⟩
  | 109 => ⟨S2097152, .i1⟩
  | 110 => ⟨S_, .i32⟩
  | 111 => ⟨S2097152, .i32⟩
  | 112 => ⟨S2097152, .i32⟩
  | 113 => ⟨S2097152, .i32⟩
  | 114 => ⟨S2097152x1, .i32⟩
  | 115 => ⟨S2097152x1, .i32⟩
  | 116 => ⟨S2097152x1, .i32⟩
  | 117 => ⟨S2097152x3, .i32⟩
  | 118 => ⟨S2097152x2, .f32⟩
  | 119 => ⟨S2097152, .f32⟩
  | 120 => ⟨S2097152, .f32⟩
  | 121 => ⟨S2097152x1, .f32⟩
  | 122 => ⟨S2097152x2, .f32⟩
  | 123 => ⟨S2097152x2, .f32⟩
  | 124 => ⟨S2097152x2, .f32⟩
  | 125 => ⟨S2097152x1, .f32⟩
  | 126 => ⟨S2097152, .f32⟩
  | 127 => ⟨S2097152x1, .f32⟩
  | _ => ⟨S2097152x3, .f32⟩

abbrev hbmTy0_2 (i : Nat) : BufTy := match i % 128 with
  | 0 => ⟨S2097152, .f32⟩
  | 1 => ⟨S_, .f32⟩
  | 2 => ⟨S2097152, .f32⟩
  | 3 => ⟨S2097152, .f32⟩
  | 4 => ⟨S2097152x1, .f32⟩
  | 5 => ⟨S2097152, .f32⟩
  | 6 => ⟨S_, .f32⟩
  | 7 => ⟨S2097152, .f32⟩
  | 8 => ⟨S2097152, .f32⟩
  | 9 => ⟨S2097152x1, .i32⟩
  | 10 => ⟨S2097152, .i32⟩
  | 11 => ⟨S_, .i32⟩
  | 12 => ⟨S2097152, .i32⟩
  | 13 => ⟨S2097152, .i32⟩
  | 14 => ⟨S2097152x1, .i32⟩
  | 15 => ⟨S2097152, .i32⟩
  | 16 => ⟨S_, .i32⟩
  | 17 => ⟨S2097152, .i32⟩
  | 18 => ⟨S2097152, .i32⟩
  | 19 => ⟨S2097152x1, .i32⟩
  | 20 => ⟨S2097152, .i32⟩
  | 21 => ⟨S_, .i32⟩
  | 22 => ⟨S2097152, .i32⟩
  | 23 => ⟨S2097152, .i32⟩
  | 24 => ⟨S_, .i32⟩
  | 25 => ⟨S2097152, .i32⟩
  | 26 => ⟨S2097152, .i1⟩
  | 27 => ⟨S_, .i32⟩
  | 28 => ⟨S2097152, .i32⟩
  | 29 => ⟨S2097152, .i32⟩
  | 30 => ⟨S2097152, .i32⟩
  | 31 => ⟨S_, .i32⟩
  | 32 => ⟨S2097152, .i32⟩
  | 33 => ⟨S2097152, .i1⟩
  | 34 => ⟨S_, .i32⟩
  | 35 => ⟨S2097152, .i32⟩
  | 36 => ⟨S2097152, .i32⟩
  | 37 => ⟨S2097152, .i32⟩
  | 38 => ⟨S_, .i32⟩
  | 39 => ⟨S2097152, .i32⟩
  | 40 => ⟨S2097152, .i1⟩
  | 41 => ⟨S_, .i32⟩
  | 42 => ⟨S2097152, .i32⟩
  | 43 => ⟨S2097152, .i32⟩
  | 44 => ⟨S2097152, .i32⟩
  | 45 => ⟨S2097152x1, .i32⟩
  | 46 => ⟨S2097152x1, .i32⟩
  | 47 => ⟨S2097152x1, .i32⟩
  | 48 => ⟨S2097152x3, .i32⟩
  | 49 => ⟨S2097152x2, .f32⟩
  | 50 => ⟨S2097152, .f32⟩
  | 51 => ⟨S2097152, .f32⟩
  | 52 => ⟨S2097152x1, .f32⟩
  | 53 => ⟨S2097152x2, .f32⟩
  | 54 => ⟨S2097152x2, .f32⟩
  | 55 => ⟨S2097152x2, .f32⟩
  | 56 => ⟨S2097152x1, .f32⟩
  | 57 => ⟨S2097152, .f32⟩
  | 58 => ⟨S2097152x1, .i32⟩
  | 59 => ⟨S2097152, .i32⟩
  | 60 => ⟨S_, .i32⟩
  | 61 => ⟨S2097152, .i32⟩
  | 62 => ⟨S2097152, .i32⟩
  | 63 => ⟨S2097152x1, .i32⟩
  | 64 => ⟨S2097152, .i32⟩
  | 65 => ⟨S_, .i32⟩
  | 66 => ⟨S2097152, .i32⟩
  | 67 => ⟨S2097152, .i32⟩
  | 68 => ⟨S2097152x1, .i32⟩
  | 69 => ⟨S2097152, .i32⟩
  | 70 => ⟨S_, .i32⟩
  | 71 => ⟨S2097152, .i32⟩
  | 72 => ⟨S2097152, .i32⟩
  | 73 => ⟨S_, .i32⟩
  | 74 => ⟨S2097152, .i32⟩
  | 75 => ⟨S2097152, .i1⟩
  | 76 => ⟨S_, .i32⟩
  | 77 => ⟨S2097152, .i32⟩
  | 78 => ⟨S2097152, .i32⟩
  | 79 => ⟨S2097152, .i32⟩
  | 80 => ⟨S_, .i32⟩
  | 81 => ⟨S2097152, .i32⟩
  | 82 => ⟨S2097152, .i1⟩
  | 83 => ⟨S_, .i32⟩
  | 84 => ⟨S2097152, .i32⟩
  | 85 => ⟨S2097152, .i32⟩
  | 86 => ⟨S2097152, .i32⟩
  | 87 => ⟨S_, .i32⟩
  | 88 => ⟨S2097152, .i32⟩
  | 89 => ⟨S2097152, .i1⟩
  | 90 => ⟨S_, .i32⟩
  | 91 => ⟨S2097152, .i32⟩
  | 92 => ⟨S2097152, .i32⟩
  | 93 => ⟨S2097152, .i32⟩
  | 94 => ⟨S2097152x1, .i32⟩
  | 95 => ⟨S2097152x1, .i32⟩
  | 96 => ⟨S2097152x1, .i32⟩
  | 97 => ⟨S2097152x3, .i32⟩
  | 98 => ⟨S2097152x2, .f32⟩
  | 99 => ⟨S2097152, .f32⟩
  | 100 => ⟨S2097152, .f32⟩
  | 101 => ⟨S2097152x1, .f32⟩
  | 102 => ⟨S2097152x2, .f32⟩
  | 103 => ⟨S2097152x2, .f32⟩
  | 104 => ⟨S2097152x2, .f32⟩
  | 105 => ⟨S2097152x1, .f32⟩
  | 106 => ⟨S2097152, .f32⟩
  | 107 => ⟨S2097152x1, .f32⟩
  | 108 => ⟨S2097152, .f32⟩
  | 109 => ⟨S_, .f32⟩
  | 110 => ⟨S2097152, .f32⟩
  | 111 => ⟨S2097152, .f32⟩
  | 112 => ⟨S2097152x1, .i32⟩
  | 113 => ⟨S2097152, .i32⟩
  | 114 => ⟨S_, .i32⟩
  | 115 => ⟨S2097152, .i32⟩
  | 116 => ⟨S2097152, .i32⟩
  | 117 => ⟨S2097152x1, .i32⟩
  | 118 => ⟨S2097152, .i32⟩
  | 119 => ⟨S_, .i32⟩
  | 120 => ⟨S2097152, .i32⟩
  | 121 => ⟨S2097152, .i32⟩
  | 122 => ⟨S2097152x1, .i32⟩
  | 123 => ⟨S2097152, .i32⟩
  | 124 => ⟨S_, .i32⟩
  | 125 => ⟨S2097152, .i32⟩
  | 126 => ⟨S2097152, .i32⟩
  | 127 => ⟨S_, .i32⟩
  | _ => ⟨S2097152x3, .f32⟩

abbrev hbmTy0_3 (i : Nat) : BufTy := match i % 128 with
  | 0 => ⟨S2097152, .i32⟩
  | 1 => ⟨S2097152, .i1⟩
  | 2 => ⟨S_, .i32⟩
  | 3 => ⟨S2097152, .i32⟩
  | 4 => ⟨S2097152, .i32⟩
  | 5 => ⟨S2097152, .i32⟩
  | 6 => ⟨S_, .i32⟩
  | 7 => ⟨S2097152, .i32⟩
  | 8 => ⟨S2097152, .i1⟩
  | 9 => ⟨S_, .i32⟩
  | 10 => ⟨S2097152, .i32⟩
  | 11 => ⟨S2097152, .i32⟩
  | 12 => ⟨S2097152, .i32⟩
  | 13 => ⟨S_, .i32⟩
  | 14 => ⟨S2097152, .i32⟩
  | 15 => ⟨S2097152, .i1⟩
  | 16 => ⟨S_, .i32⟩
  | 17 => ⟨S2097152, .i32⟩
  | 18 => ⟨S2097152, .i32⟩
  | 19 => ⟨S2097152, .i32⟩
  | 20 => ⟨S2097152x1, .i32⟩
  | 21 => ⟨S2097152x1, .i32⟩
  | 22 => ⟨S2097152x1, .i32⟩
  | 23 => ⟨S2097152x3, .i32⟩
  | 24 => ⟨S2097152x2, .f32⟩
  | 25 => ⟨S2097152, .f32⟩
  | 26 => ⟨S2097152, .f32⟩
  | 27 => ⟨S2097152x1, .f32⟩
  | 28 => ⟨S2097152x2, .f32⟩
  | 29 => ⟨S2097152x2, .f32⟩
  | 30 => ⟨S2097152x2, .f32⟩
  | 31 => ⟨S2097152x1, .f32⟩
  | 32 => ⟨S2097152, .f32⟩
  | 33 => ⟨S2097152x1, .i32⟩
  | 34 => ⟨S2097152, .i32⟩
  | 35 => ⟨S_, .i32⟩
  | 36 => ⟨S2097152, .i32⟩
  | 37 => ⟨S2097152, .i32⟩
  | 38 => ⟨S2097152x1, .i32⟩
  | 39 => ⟨S2097152, .i32⟩
  | 40 => ⟨S_, .i32⟩
  | 41 => ⟨S2097152, .i32⟩
  | 42 => ⟨S2097152, .i32⟩
  | 43 => ⟨S2097152x1, .i32⟩
  | 44 => ⟨S2097152, .i32⟩
  | 45 => ⟨S_, .i32⟩
  | 46 => ⟨S2097152, .i32⟩
  | 47 => ⟨S2097152, .i32⟩
  | 48 => ⟨S_, .i32⟩
  | 49 => ⟨S2097152, .i32⟩
  | 50 => ⟨S2097152, .i1⟩
  | 51 => ⟨S_, .i32⟩
  | 52 => ⟨S2097152, .i32⟩
  | 53 => ⟨S2097152, .i32⟩
  | 54 => ⟨S2097152, .i32⟩
  | 55 => ⟨S_, .i32⟩
  | 56 => ⟨S2097152, .i32⟩
  | 57 => ⟨S2097152, .i1⟩
  | 58 => ⟨S_, .i32⟩
  | 59 => ⟨S2097152, .i32⟩
  | 60 => ⟨S2097152, .i32⟩
  | 61 => ⟨S2097152, .i32⟩
  | 62 => ⟨S_, .i32⟩
  | 63 => ⟨S2097152, .i32⟩
  | 64 => ⟨S2097152, .i1⟩
  | 65 => ⟨S_, .i32⟩
  | 66 => ⟨S2097152, .i32⟩
  | 67 => ⟨S2097152, .i32⟩
  | 68 => ⟨S2097152, .i32⟩
  | 69 => ⟨S2097152x1, .i32⟩
  | 70 => ⟨S2097152x1, .i32⟩
  | 71 => ⟨S2097152x1, .i32⟩
  | 72 => ⟨S2097152x3, .i32⟩
  | 73 => ⟨S2097152x2, .f32⟩
  | 74 => ⟨S2097152, .f32⟩
  | 75 => ⟨S2097152, .f32⟩
  | 76 => ⟨S2097152x1, .f32⟩
  | 77 => ⟨S2097152x2, .f32⟩
  | 78 => ⟨S2097152x2, .f32⟩
  | 79 => ⟨S2097152x2, .f32⟩
  | 80 => ⟨S2097152x1, .i1⟩
  | 81 => ⟨S_, .f32⟩
  | 82 => ⟨S2097152x2, .i1⟩
  | 83 => ⟨S2097152x2, .f32⟩
  | 84 => ⟨S2097152x2, .f32⟩
  | 85 => ⟨S2097152x1, .f32⟩
  | 86 => ⟨S2097152, .f32⟩
  | 87 => ⟨S2097152x1, .f32⟩
  | 88 => ⟨S2097152, .f32⟩
  | _ => ⟨S2097152x3, .f32⟩

abbrev hbmTy (i : Nat) : BufTy := match i / 128 with
  | 0 => hbmTy0_0 i
  | 1 => hbmTy0_1 i
  | 2 => hbmTy0_2 i
  | 3 => hbmTy0_3 i
  | _ => ⟨S2097152x3, .f32⟩

abbrev bufTy : (tb : Table) → Fin (tcTables nBuf tb) → BufTy
  | .hbm, ⟨i, _⟩ => hbmTy i
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_3 : Ref sig .tc := ⟨.hbm, 11, rfl⟩
abbrev main_v5 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_11 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_12 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_13 : Ref sig .tc := ⟨.hbm, 66, rfl⟩
abbrev main_v44 : Ref sig .tc := ⟨.hbm, 67, rfl⟩
abbrev main_v45 : Ref sig .tc := ⟨.hbm, 68, rfl⟩
abbrev main_c_14 : Ref sig .tc := ⟨.hbm, 69, rfl⟩
abbrev main_v46 : Ref sig .tc := ⟨.hbm, 70, rfl⟩
abbrev main_v47 : Ref sig .tc := ⟨.hbm, 71, rfl⟩
abbrev main_c_15 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_16 : Ref sig .tc := ⟨.hbm, 76, rfl⟩
abbrev main_v51 : Ref sig .tc := ⟨.hbm, 77, rfl⟩
abbrev main_v52 : Ref sig .tc := ⟨.hbm, 78, rfl⟩
abbrev main_c_17 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_18 : Ref sig .tc := ⟨.hbm, 83, rfl⟩
abbrev main_v56 : Ref sig .tc := ⟨.hbm, 84, rfl⟩
abbrev main_v57 : Ref sig .tc := ⟨.hbm, 85, rfl⟩
abbrev main_c_19 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_20 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_21 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_22 : Ref sig .tc := ⟨.hbm, 115, rfl⟩
abbrev main_v84 : Ref sig .tc := ⟨.hbm, 116, rfl⟩
abbrev main_v85 : Ref sig .tc := ⟨.hbm, 117, rfl⟩
abbrev main_c_23 : Ref sig .tc := ⟨.hbm, 118, rfl⟩
abbrev main_v86 : Ref sig .tc := ⟨.hbm, 119, rfl⟩
abbrev main_v87 : Ref sig .tc := ⟨.hbm, 120, rfl⟩
abbrev main_c_24 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_25 : Ref sig .tc := ⟨.hbm, 125, rfl⟩
abbrev main_v91 : Ref sig .tc := ⟨.hbm, 126, rfl⟩
abbrev main_v92 : Ref sig .tc := ⟨.hbm, 127, rfl⟩
abbrev main_c_26 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_27 : Ref sig .tc := ⟨.hbm, 132, rfl⟩
abbrev main_v96 : Ref sig .tc := ⟨.hbm, 133, rfl⟩
abbrev main_v97 : Ref sig .tc := ⟨.hbm, 134, rfl⟩
abbrev main_c_28 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_29 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c_30 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_c_31 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_c_32 : Ref sig .tc := ⟨.hbm, 169, rfl⟩
abbrev main_v128 : Ref sig .tc := ⟨.hbm, 170, rfl⟩
abbrev main_v129 : Ref sig .tc := ⟨.hbm, 171, rfl⟩
abbrev main_c_33 : Ref sig .tc := ⟨.hbm, 172, rfl⟩
abbrev main_v130 : Ref sig .tc := ⟨.hbm, 173, rfl⟩
abbrev main_v131 : Ref sig .tc := ⟨.hbm, 174, rfl⟩
abbrev main_c_34 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_35 : Ref sig .tc := ⟨.hbm, 179, rfl⟩
abbrev main_v135 : Ref sig .tc := ⟨.hbm, 180, rfl⟩
abbrev main_v136 : Ref sig .tc := ⟨.hbm, 181, rfl⟩
abbrev main_c_36 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_c_37 : Ref sig .tc := ⟨.hbm, 186, rfl⟩
abbrev main_v140 : Ref sig .tc := ⟨.hbm, 187, rfl⟩
abbrev main_v141 : Ref sig .tc := ⟨.hbm, 188, rfl⟩
abbrev main_c_38 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_c_39 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_c_40 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_c_41 : Ref sig .tc := ⟨.hbm, 218, rfl⟩
abbrev main_v168 : Ref sig .tc := ⟨.hbm, 219, rfl⟩
abbrev main_v169 : Ref sig .tc := ⟨.hbm, 220, rfl⟩
abbrev main_c_42 : Ref sig .tc := ⟨.hbm, 221, rfl⟩
abbrev main_v170 : Ref sig .tc := ⟨.hbm, 222, rfl⟩
abbrev main_v171 : Ref sig .tc := ⟨.hbm, 223, rfl⟩
abbrev main_c_43 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_c_44 : Ref sig .tc := ⟨.hbm, 228, rfl⟩
abbrev main_v175 : Ref sig .tc := ⟨.hbm, 229, rfl⟩
abbrev main_v176 : Ref sig .tc := ⟨.hbm, 230, rfl⟩
abbrev main_c_45 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_c_46 : Ref sig .tc := ⟨.hbm, 235, rfl⟩
abbrev main_v180 : Ref sig .tc := ⟨.hbm, 236, rfl⟩
abbrev main_v181 : Ref sig .tc := ⟨.hbm, 237, rfl⟩
abbrev main_c_47 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_cst_48 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_cst_49 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_c_50 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_c_51 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_c_52 : Ref sig .tc := ⟨.hbm, 277, rfl⟩
abbrev main_v216 : Ref sig .tc := ⟨.hbm, 278, rfl⟩
abbrev main_v217 : Ref sig .tc := ⟨.hbm, 279, rfl⟩
abbrev main_c_53 : Ref sig .tc := ⟨.hbm, 280, rfl⟩
abbrev main_v218 : Ref sig .tc := ⟨.hbm, 281, rfl⟩
abbrev main_v219 : Ref sig .tc := ⟨.hbm, 282, rfl⟩
abbrev main_c_54 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_c_55 : Ref sig .tc := ⟨.hbm, 287, rfl⟩
abbrev main_v223 : Ref sig .tc := ⟨.hbm, 288, rfl⟩
abbrev main_v224 : Ref sig .tc := ⟨.hbm, 289, rfl⟩
abbrev main_c_56 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_c_57 : Ref sig .tc := ⟨.hbm, 294, rfl⟩
abbrev main_v228 : Ref sig .tc := ⟨.hbm, 295, rfl⟩
abbrev main_v229 : Ref sig .tc := ⟨.hbm, 296, rfl⟩
abbrev main_c_58 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_c_59 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_c_60 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_c_61 : Ref sig .tc := ⟨.hbm, 326, rfl⟩
abbrev main_v256 : Ref sig .tc := ⟨.hbm, 327, rfl⟩
abbrev main_v257 : Ref sig .tc := ⟨.hbm, 328, rfl⟩
abbrev main_c_62 : Ref sig .tc := ⟨.hbm, 329, rfl⟩
abbrev main_v258 : Ref sig .tc := ⟨.hbm, 330, rfl⟩
abbrev main_v259 : Ref sig .tc := ⟨.hbm, 331, rfl⟩
abbrev main_c_63 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_c_64 : Ref sig .tc := ⟨.hbm, 336, rfl⟩
abbrev main_v263 : Ref sig .tc := ⟨.hbm, 337, rfl⟩
abbrev main_v264 : Ref sig .tc := ⟨.hbm, 338, rfl⟩
abbrev main_c_65 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_c_66 : Ref sig .tc := ⟨.hbm, 343, rfl⟩
abbrev main_v268 : Ref sig .tc := ⟨.hbm, 344, rfl⟩
abbrev main_v269 : Ref sig .tc := ⟨.hbm, 345, rfl⟩
abbrev main_c_67 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_cst_68 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_c_69 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_c_70 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_c_71 : Ref sig .tc := ⟨.hbm, 380, rfl⟩
abbrev main_v300 : Ref sig .tc := ⟨.hbm, 381, rfl⟩
abbrev main_v301 : Ref sig .tc := ⟨.hbm, 382, rfl⟩
abbrev main_c_72 : Ref sig .tc := ⟨.hbm, 383, rfl⟩
abbrev main_v302 : Ref sig .tc := ⟨.hbm, 384, rfl⟩
abbrev main_v303 : Ref sig .tc := ⟨.hbm, 385, rfl⟩
abbrev main_c_73 : Ref sig .tc := ⟨.hbm, 386, rfl⟩
abbrev main_v304 : Ref sig .tc := ⟨.hbm, 387, rfl⟩
abbrev main_v305 : Ref sig .tc := ⟨.hbm, 388, rfl⟩
abbrev main_v306 : Ref sig .tc := ⟨.hbm, 389, rfl⟩
abbrev main_c_74 : Ref sig .tc := ⟨.hbm, 390, rfl⟩
abbrev main_v307 : Ref sig .tc := ⟨.hbm, 391, rfl⟩
abbrev main_v308 : Ref sig .tc := ⟨.hbm, 392, rfl⟩
abbrev main_c_75 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_c_76 : Ref sig .tc := ⟨.hbm, 397, rfl⟩
abbrev main_v312 : Ref sig .tc := ⟨.hbm, 398, rfl⟩
abbrev main_v313 : Ref sig .tc := ⟨.hbm, 399, rfl⟩
abbrev main_c_77 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_v319 : Ref sig .tc := ⟨.hbm, 406, rfl⟩
abbrev main_v320 : Ref sig .tc := ⟨.hbm, 407, rfl⟩
abbrev main_v321 : Ref sig .tc := ⟨.hbm, 408, rfl⟩
abbrev main_v322 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_v326 : Ref sig .tc := ⟨.hbm, 413, rfl⟩
abbrev main_v327 : Ref sig .tc := ⟨.hbm, 414, rfl⟩
abbrev main_v328 : Ref sig .tc := ⟨.hbm, 415, rfl⟩
abbrev main_v329 : Ref sig .tc := ⟨.hbm, 416, rfl⟩
abbrev main_v330 : Ref sig .tc := ⟨.hbm, 417, rfl⟩
abbrev main_v331 : Ref sig .tc := ⟨.hbm, 418, rfl⟩
abbrev main_c_78 : Ref sig .tc := ⟨.hbm, 419, rfl⟩
abbrev main_v332 : Ref sig .tc := ⟨.hbm, 420, rfl⟩
abbrev main_v333 : Ref sig .tc := ⟨.hbm, 421, rfl⟩
abbrev main_v334 : Ref sig .tc := ⟨.hbm, 422, rfl⟩
abbrev main_v335 : Ref sig .tc := ⟨.hbm, 423, rfl⟩
abbrev main_c_79 : Ref sig .tc := ⟨.hbm, 424, rfl⟩
abbrev main_v336 : Ref sig .tc := ⟨.hbm, 425, rfl⟩
abbrev main_v337 : Ref sig .tc := ⟨.hbm, 426, rfl⟩
abbrev main_v338 : Ref sig .tc := ⟨.hbm, 427, rfl⟩
abbrev main_v339 : Ref sig .tc := ⟨.hbm, 428, rfl⟩
abbrev main_c_80 : Ref sig .tc := ⟨.hbm, 429, rfl⟩
abbrev main_v340 : Ref sig .tc := ⟨.hbm, 430, rfl⟩
abbrev main_v341 : Ref sig .tc := ⟨.hbm, 431, rfl⟩
abbrev main_c_81 : Ref sig .tc := ⟨.hbm, 432, rfl⟩
abbrev main_v342 : Ref sig .tc := ⟨.hbm, 433, rfl⟩
abbrev main_v343 : Ref sig .tc := ⟨.hbm, 434, rfl⟩
abbrev main_c_82 : Ref sig .tc := ⟨.hbm, 435, rfl⟩
abbrev main_v344 : Ref sig .tc := ⟨.hbm, 436, rfl⟩
abbrev main_v345 : Ref sig .tc := ⟨.hbm, 437, rfl⟩
abbrev main_v346 : Ref sig .tc := ⟨.hbm, 438, rfl⟩
abbrev main_c_83 : Ref sig .tc := ⟨.hbm, 439, rfl⟩
abbrev main_v347 : Ref sig .tc := ⟨.hbm, 440, rfl⟩
abbrev main_v348 : Ref sig .tc := ⟨.hbm, 441, rfl⟩
abbrev main_c_84 : Ref sig .tc := ⟨.hbm, 442, rfl⟩
abbrev main_v349 : Ref sig .tc := ⟨.hbm, 443, rfl⟩
abbrev main_v350 : Ref sig .tc := ⟨.hbm, 444, rfl⟩
abbrev main_v351 : Ref sig .tc := ⟨.hbm, 445, rfl⟩
abbrev main_c_85 : Ref sig .tc := ⟨.hbm, 446, rfl⟩
abbrev main_v352 : Ref sig .tc := ⟨.hbm, 447, rfl⟩
abbrev main_v353 : Ref sig .tc := ⟨.hbm, 448, rfl⟩
abbrev main_c_86 : Ref sig .tc := ⟨.hbm, 449, rfl⟩
abbrev main_v354 : Ref sig .tc := ⟨.hbm, 450, rfl⟩
abbrev main_v355 : Ref sig .tc := ⟨.hbm, 451, rfl⟩
abbrev main_v356 : Ref sig .tc := ⟨.hbm, 452, rfl⟩
abbrev main_v357 : Ref sig .tc := ⟨.hbm, 453, rfl⟩
abbrev main_v358 : Ref sig .tc := ⟨.hbm, 454, rfl⟩
abbrev main_v359 : Ref sig .tc := ⟨.hbm, 455, rfl⟩
abbrev main_v360 : Ref sig .tc := ⟨.hbm, 456, rfl⟩
abbrev main_v361 : Ref sig .tc := ⟨.hbm, 457, rfl⟩
abbrev main_v362 : Ref sig .tc := ⟨.hbm, 458, rfl⟩
abbrev main_v363 : Ref sig .tc := ⟨.hbm, 459, rfl⟩
abbrev main_v364 : Ref sig .tc := ⟨.hbm, 460, rfl⟩
abbrev main_v365 : Ref sig .tc := ⟨.hbm, 461, rfl⟩
abbrev main_v366 : Ref sig .tc := ⟨.hbm, 462, rfl⟩
abbrev main_v367 : Ref sig .tc := ⟨.hbm, 463, rfl⟩
abbrev main_v368 : Ref sig .tc := ⟨.hbm, 464, rfl⟩
abbrev main_cst_87 : Ref sig .tc := ⟨.hbm, 465, rfl⟩
abbrev main_call1_v0 : Ref sig .tc := ⟨.hbm, 466, rfl⟩
abbrev main_call1_v1 : Ref sig .tc := ⟨.hbm, 467, rfl⟩
abbrev main_v369 : Ref sig .tc := ⟨.hbm, 468, rfl⟩
abbrev main_v370 : Ref sig .tc := ⟨.hbm, 469, rfl⟩
abbrev main_v371 : Ref sig .tc := ⟨.hbm, 470, rfl⟩
abbrev main_v372 : Ref sig .tc := ⟨.hbm, 471, rfl⟩
abbrev main_v373 : Ref sig .tc := ⟨.hbm, 472, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  bcast_S_S2097152x3 : S_.BroadcastsInDim S2097152x3 (![] : Fin 0 → Fin S2097152x3.rank)
  bcast_S_S3 : S_.BroadcastsInDim S3 (![] : Fin 0 → Fin S3.rank)
  reducesTo_S2097152x3_S2097152_d1 : S2097152x3.ReducesTo [1] S2097152
  h_S_ : 0 < S_.numel
  bcast_S_S2097152x2 : S_.BroadcastsInDim S2097152x2 (![] : Fin 0 → Fin S2097152x2.rank)
  slices_S2097152x3_S2097152x1_0_0 : S2097152x3.Slices ![0, 0] S2097152x1
  shapeCasts_S2097152x1_S2097152 : S2097152x1.ShapeCasts S2097152
  bcast_S_S2097152 : S_.BroadcastsInDim S2097152 (![] : Fin 0 → Fin S2097152.rank)
  slices_S2097152x3_S2097152x1_0_1 : S2097152x3.Slices ![0, 1] S2097152x1
  slices_S2097152x3_S2097152x1_0_2 : S2097152x3.Slices ![0, 2] S2097152x1
  bcast_S2097152_S2097152x1_0 : S2097152.BroadcastsInDim S2097152x1 (![0] : Fin 1 → Fin S2097152x1.rank)
  concatenates_S2097152x1_S2097152x1_S2097152x1_S2097152x3_d1 : Shape.Concatenates [S2097152x1, S2097152x1, S2097152x1] S2097152x3 1
  bcast_S2097152x1_S2097152x2_0_1 : S2097152x1.BroadcastsInDim S2097152x2 (![0, 1] : Fin 2 → Fin S2097152x2.rank)
  slices_S2097152x2_S2097152x1_0_0 : S2097152x2.Slices ![0, 0] S2097152x1
  slices_S2097152x2_S2097152x1_0_1 : S2097152x2.Slices ![0, 1] S2097152x1
  gather_S256x256x256x2_S2097152x3_S2097152x2_1_012_n_n_012_1_1112_wf : GatherDims.WF S256x256x256x2 S2097152x3 S2097152x2 [1] [0, 1, 2] [] [0, 1, 2] [] 1 ![1, 1, 1, 2]

variable [Facts₀]

def gather_S256x256x256x2_S2097152x3_S2097152x2_1_012_n_n_012_1_1112 : GatherDims S256x256x256x2 S2097152x3 S2097152x2 where
  offsetDims := [1]
  collapsedSliceDims := [0, 1, 2]
  operandBatchingDims := []
  startIndicesBatchingDims := []
  startIndexMap := [0, 1, 2]
  indexVectorDim := 1
  sliceSizes := ![1, 1, 1, 2]
  wf := gather_S256x256x256x2_S2097152x3_S2097152x2_1_012_n_n_012_1_1112_wf

class Facts : Prop extends Facts₀ where

variable [Facts]
-- ==== Proof.Kernel.Around.lean ====
/-
  The run of `Kernel`'s @main around its one pallas_call, and the frame it gives.

  @main is three stretches of host operations (the index arithmetic, the eight corner gathers, the two
  concatenations that pack the operands), the region, and four host operations that split the result into its
  two channels. The region walks 1024 grid points; at point `t` it fetches rows `2048 t … 2048 t + 2047` of the
  packed fractions-and-mask array ([N,4]) and of the packed corners array ([N,16]), runs the body, and writes the
  same rows of the [N,2] result back. The body loads both input blocks whole, combines them, and stores the
  result block whole: nothing is carried from one point to the next.

  Stated here, at any float instance: what the region finds in its arrays (`entry`), the block each window holds
  at a point (`blockAt`), what the body leaves in the result block (`combined`), the body's triple, the proof
  data of the pipeline and its body obligation, the run to the library's post (`run_main`), and the frame: both
  argument arrays end as they were launched, since no host operation writes them and the region stages neither.
-/
import proofs.«175399_j60687887892817_2_alg».proof.Proof.Gen.Kernel.Launch
import proofs.«175399_j60687887892817_2_alg».proof.Proof.Gen.Kernel.Skeleton
import proofs.«175399_j60687887892817_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the three stretches of host
    operations that precede it. -/
abbrev entry0 (c : Dev nD) : Valuation τ sig (Elt F) :=
  StableHlo.after (List.flatten [hostOps0, hostOps0_1, hostOps0_2]) (fun b => m (c, b))
/-- The same, read at a TensorCore reference. -/
abbrev entry (c : Dev nD) (b : Ref sig .tc) : Buf (Elt F) ((c : Thread nD τ).loc b) := entry0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch only the pipeline's arrays and buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array of the pipeline: each writes its own result only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes `main_arg0`: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor `main_arg1`. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes `main_arg0`, and the region stages no window on it: it ends as launched. -/
theorem end_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (entry0 m c) _ main_arg0 (by exact (by decide : ∀ w, Pipeline.arrRef spec0 w ≠ main_arg0))]
  exact entry_arg0 m c

/-- The same for `main_arg1`. -/
theorem end_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (entry0 m c) _ main_arg1 (by exact (by decide : ∀ w, Pipeline.arrRef spec0 w ≠ main_arg1))]
  exact entry_arg1 m c

end Cert.Kernel.Combine

end
-- ==== Proof.Kernel.Body.lean ====
/-
  The body of `Kernel`'s kernel on one block: it loads the [2048,4] block of fractions and mask and the
  [2048,16] block of packed corners whole, forms the eight trilinear weights, adds the eight weighted corners,
  multiplies by the mask column and stores the [2048,2] result block whole. `combined` is what the result
  block holds afterwards, as a function of the two input blocks; `sound_kernel` is the body's triple.
-/
import proofs.«175399_j60687887892817_2_alg».proof.Proof.Gen.Kernel.Launch
import proofs.«175399_j60687887892817_2_alg».proof.Proof.Gen.Kernel.Skeleton
import proofs.«175399_j60687887892817_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each block whole -/

abbrev rectA : Rect S2048x4 := Rect.unit (s := S2048x4) ![0, 0] S2048x4.size inb_S2048x4_S2048x4_0_0
abbrev rectC : Rect S2048x16 := Rect.unit (s := S2048x16) ![0, 0] S2048x16.size inb_S2048x16_S2048x16_0_0
abbrev rectO : Rect S2048x2 := Rect.unit (s := S2048x2) ![0, 0] S2048x2.size inb_S2048x2_S2048x2_0_0

/-- The result block after the body, from the two input blocks: its one store, of the weighted sum of the eight
    corners times the mask, over the blocks as loaded. -/
def combined (x0 : Vec F S2048x4 .f32) (x1 : Vec F S2048x16 .f32) : Vec F S2048x2 .f32 :=
  View.canon [⟨rectO, k0_pay1 (k0_pay3 (View.ld x1 rectC)) (k0_pay4 (View.ld x0 rectA)) (k0_pay5 (View.ld x0 rectA))
    (k0_pay6 (View.ld x0 rectA)) (k0_pay7 (View.ld x0 rectA)) (k0_pay8 (View.ld x0 rectA)) (k0_pay9 (View.ld x0 rectA) (View.ld x1 rectC))⟩]

/-- The one store covers the block. -/
theorem combined_cover (p0 : Vec F S2048x2 .f32) (y : S2048x2.Idx) :
    ∃ pc ∈ ([⟨rectO, p0⟩] : List (View.Piece (Elt F) S2048x2 .f32)), y ∈ pc.1.set :=
  View.cover_of_tiled [⟨rectO, p0⟩] S2048x2.size (by rfl) y

set_option maxHeartbeats 1000000 in
/-- The body on whole staging memrefs — the inputs' at contents `x0`, `x1`, the output's at anything — runs to the
    continuation with the inputs as they were and the output at `combined x0 x1`. -/
theorem sound_kernel (c : Dev nD) (E : Set ℕ) (i : grid0.Coords)
    (arg1 : Memref sig .tc .vmem S2048x4 .f32) (harg1 : arg1.IsWhole) (arg2 : Memref sig .tc .vmem S2048x16 .f32) (harg2 : arg2.IsWhole)
    (arg3 : Memref sig .tc .vmem S2048x2 .f32) (harg3 : arg3.IsWhole)
    (x0 : Vec F S2048x4 .f32) (x1 : Vec F S2048x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (combined x0 x1)) -∗ K ⟨⟩))
      ⊢ wp frame (wpE (defs₀ (F := F)) Variants.none c none) E (cc0__trilerp_combine_kernel i arg1 harg1 arg2 harg2 arg3 harg3) K := by
  simp only [cc0__trilerp_combine_kernel_eq_skeleton]; unfold cc0__trilerp_combine_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (combined_cover _)

end Cert.Kernel.Combine

end
-- ==== Proof.Kernel.Run.lean ====
/-
  The pipeline's proof data for `Kernel` and the run of @main: at grid point `t` each input window holds rows
  `2048 t … 2048 t + 2047` of its array as the region found it (`blockAt`), the body leaves the result window
  at `combined` of those two blocks, and nothing else changes. From the body's triple the library's launch
  theorem gives the run (`run_main`): every weakly fair execution terminates, the result array holds what the
  write-backs left, and every buffer the pipeline bypasses holds what the four host operations after the region
  make of it. The frame follows: neither argument array is staged or written.
-/
import proofs.«175399_j60687887892817_2_alg».proof.Proof.Kernel.Around
import proofs.«175399_j60687887892817_2_alg».proof.Proof.Kernel.Body

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The fractions-and-mask window's staging buffer holds its block at every point, for any proof data whose array is
    the region-entry contents and whose body leaves the block in place. -/
theorem before_aux_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the packed-corners window. -/
theorem before_corners_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The proof data -/

/-- The proof data of the pipeline on core `c`: the arrays as the region finds them; after the body at point `t` each
    input window at its block and the result window at `combined` of the two; the invariant the scoped rest and the
    generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => combined (blockAt m c 0 t) (blockAt m c 1 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after_aux (c : Dev nD) (t : Fin cfg0.N) : (dats m 0 c).after 0 t = blockAt m c 0 t := by dsimp only [dats]
theorem after_corners (c : Dev nD) (t : Fin cfg0.N) : (dats m 0 c).after 1 t = blockAt m c 1 t := by dsimp only [dats]
theorem after_out (c : Dev nD) (t : Fin cfg0.N) : (dats m 0 c).after 2 t = combined (blockAt m c 0 t) (blockAt m c 1 t) := by dsimp only [dats]

theorem before_aux (c : Dev nD) (t : Fin cfg0.N) (d) : (dats m 0 c).before 0 t d = blockAt m c 0 t :=
  before_aux_of m (dats m 0 c) (A_eq m c 0) (after_aux m c) t d
theorem before_corners (c : Dev nD) (t : Fin cfg0.N) (d) : (dats m 0 c).before 1 t d = blockAt m c 1 t :=
  before_corners_of m (dats m 0 c) (A_eq m c 1) (after_corners m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input windows hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_aux, before_corners]
  rw [show (dats m 0 c).Φ t.succ = (dats m 0 c).Φ t.castSucc from rfl,
    show (dats m 0 c).owesAt () t.succ = (dats m 0 c).owesAt () t.castSucc from rfl,
    after_aux, after_corners, after_out]
  iintro ⟨HΦ, Ho, ⟨%d0, H0⟩, ⟨%d1, H1⟩, ⟨%d2, H2⟩⟩
  iapply (sound_kernel c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; in every final state each array
    of the pipeline holds what the library computes from the proof data, and every other unscoped buffer what the four
    host operations after the region leave in it. -/
theorem run_main : θ_run defs (onTc (τ := τ) (main (F := F))) (s₀ m ρ)
    (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := hmain m Variants.none) (hA := A_eq m) (hΦ := fun _ _ => rfl)

/-- Both argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (end_arg0 m (dats m) c),
     ((h c).2 main_arg1 (Pipeline.mem_restRefs_of main_arg1 (by decide) (by decide))).trans (end_arg1 m (dats m) c)⟩) (run_main m ρ)

end Cert.Kernel.Combine

end
-- ==== Proof.KernelIdeal.Around.lean ====
/-
  The run of `KernelIdeal`'s @main around its one pallas_call, and the frame it gives.

  @main is three stretches of host operations (the index arithmetic, the eight corner gathers, the two
  concatenations that pack the operands), the region, and four host operations that split the result into its
  two channels. The region walks 1024 grid points; at point `t` it fetches rows `2048 t … 2048 t + 2047` of the
  packed fractions-and-mask array ([N,4]) and of the packed corners array ([N,16]), runs the body, and writes the
  same rows of the [N,2] result back. The body loads both input blocks whole, combines them, and stores the
  result block whole: nothing is carried from one point to the next.

  Stated here, at any float instance: what the region finds in its arrays (`entry`), the block each window holds
  at a point (`blockAt`), what the body leaves in the result block (`combined`), the body's triple, the proof
  data of the pipeline and its body obligation, the run to the library's post (`run_main`), and the frame: both
  argument arrays end as they were launched, since no host operation writes them and the region stages neither.
-/
import proofs.«175399_j60687887892817_2_alg».proof.Proof.Gen.KernelIdeal.Launch
import proofs.«175399_j60687887892817_2_alg».proof.Proof.Gen.KernelIdeal.Skeleton
import proofs.«175399_j60687887892817_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the three stretches of host
    operations that precede it. -/
abbrev entry0 (c : Dev nD) : Valuation τ sig (Elt F) :=
  StableHlo.after (List.flatten [hostOps0, hostOps0_1, hostOps0_2]) (fun b => m (c, b))
/-- The same, read at a TensorCore reference. -/
abbrev entry (c : Dev nD) (b : Ref sig .tc) : Buf (Elt F) ((c : Thread nD τ).loc b) := entry0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch only the pipeline's arrays and buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array of the pipeline: each writes its own result only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes `main_arg0`: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor `main_arg1`. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes `main_arg0`, and the region stages no window on it: it ends as launched. -/
theorem end_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (entry0 m c) _ main_arg0 (by exact (by decide : ∀ w, Pipeline.arrRef spec0 w ≠ main_arg0))]
  exact entry_arg0 m c

/-- The same for `main_arg1`. -/
theorem end_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (entry0 m c) _ main_arg1 (by exact (by decide : ∀ w, Pipeline.arrRef spec0 w ≠ main_arg1))]
  exact entry_arg1 m c

end Cert.KernelIdeal.Combine

end
-- ==== Proof.KernelIdeal.Body.lean ====
/-
  The body of `KernelIdeal`'s kernel on one block: it loads the [2048,4] block of fractions and mask and the
  [2048,16] block of packed corners whole, forms the eight trilinear weights, adds the eight weighted corners,
  multiplies by the mask column and stores the [2048,2] result block whole. `combined` is what the result
  block holds afterwards, as a function of the two input blocks; `sound_kernel` is the body's triple.
-/
import proofs.«175399_j60687887892817_2_alg».proof.Proof.Gen.KernelIdeal.Launch
import proofs.«175399_j60687887892817_2_alg».proof.Proof.Gen.KernelIdeal.Skeleton
import proofs.«175399_j60687887892817_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each block whole -/

abbrev rectA : Rect S2048x4 := Rect.unit (s := S2048x4) ![0, 0] S2048x4.size inb_S2048x4_S2048x4_0_0
abbrev rectC : Rect S2048x16 := Rect.unit (s := S2048x16) ![0, 0] S2048x16.size inb_S2048x16_S2048x16_0_0
abbrev rectO : Rect S2048x2 := Rect.unit (s := S2048x2) ![0, 0] S2048x2.size inb_S2048x2_S2048x2_0_0

/-- The result block after the body, from the two input blocks: its one store, of the weighted sum of the eight
    corners times the mask, over the blocks as loaded. -/
def combined (x0 : Vec F S2048x4 .f32) (x1 : Vec F S2048x16 .f32) : Vec F S2048x2 .f32 :=
  View.canon [⟨rectO, k0_pay1 (k0_pay3 (View.ld x1 rectC)) (k0_pay4 (View.ld x0 rectA)) (k0_pay5 (View.ld x0 rectA))
    (k0_pay6 (View.ld x0 rectA)) (k0_pay7 (View.ld x0 rectA)) (k0_pay8 (View.ld x0 rectA)) (k0_pay9 (View.ld x0 rectA) (View.ld x1 rectC))⟩]

/-- The one store covers the block. -/
theorem combined_cover (p0 : Vec F S2048x2 .f32) (y : S2048x2.Idx) :
    ∃ pc ∈ ([⟨rectO, p0⟩] : List (View.Piece (Elt F) S2048x2 .f32)), y ∈ pc.1.set :=
  View.cover_of_tiled [⟨rectO, p0⟩] S2048x2.size (by rfl) y

set_option maxHeartbeats 1000000 in
/-- The body on whole staging memrefs — the inputs' at contents `x0`, `x1`, the output's at anything — runs to the
    continuation with the inputs as they were and the output at `combined x0 x1`. -/
theorem sound_kernel (c : Dev nD) (E : Set ℕ) (i : grid0.Coords)
    (arg1 : Memref sig .tc .vmem S2048x4 .f32) (harg1 : arg1.IsWhole) (arg2 : Memref sig .tc .vmem S2048x16 .f32) (harg2 : arg2.IsWhole)
    (arg3 : Memref sig .tc .vmem S2048x2 .f32) (harg3 : arg3.IsWhole)
    (x0 : Vec F S2048x4 .f32) (x1 : Vec F S2048x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (combined x0 x1)) -∗ K ⟨⟩))
      ⊢ wp frame (wpE (defs₀ (F := F)) Variants.none c none) E (cc0__trilerp_combine_kernel i arg1 harg1 arg2 harg2 arg3 harg3) K := by
  simp only [cc0__trilerp_combine_kernel_eq_skeleton]; unfold cc0__trilerp_combine_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (combined_cover _)

end Cert.KernelIdeal.Combine

end
-- ==== Proof.KernelIdeal.Run.lean ====
/-
  The pipeline's proof data for `KernelIdeal` and the run of @main: at grid point `t` each input window holds rows
  `2048 t … 2048 t + 2047` of its array as the region found it (`blockAt`), the body leaves the result window
  at `combined` of those two blocks, and nothing else changes. From the body's triple the library's launch
  theorem gives the run (`run_main`): every weakly fair execution terminates, the result array holds what the
  write-backs left, and every buffer the pipeline bypasses holds what the four host operations after the region
  make of it. The frame follows: neither argument array is staged or written.
-/
import proofs.«175399_j60687887892817_2_alg».proof.Proof.KernelIdeal.Around
import proofs.«175399_j60687887892817_2_alg».proof.Proof.KernelIdeal.Body

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The fractions-and-mask window's staging buffer holds its block at every point, for any proof data whose array is
    the region-entry contents and whose body leaves the block in place. -/
theorem before_aux_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the packed-corners window. -/
theorem before_corners_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The proof data -/

/-- The proof data of the pipeline on core `c`: the arrays as the region finds them; after the body at point `t` each
    input window at its block and the result window at `combined` of the two; the invariant the scoped rest and the
    generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => combined (blockAt m c 0 t) (blockAt m c 1 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after_aux (c : Dev nD) (t : Fin cfg0.N) : (dats m 0 c).after 0 t = blockAt m c 0 t := by dsimp only [dats]
theorem after_corners (c : Dev nD) (t : Fin cfg0.N) : (dats m 0 c).after 1 t = blockAt m c 1 t := by dsimp only [dats]
theorem after_out (c : Dev nD) (t : Fin cfg0.N) : (dats m 0 c).after 2 t = combined (blockAt m c 0 t) (blockAt m c 1 t) := by dsimp only [dats]

theorem before_aux (c : Dev nD) (t : Fin cfg0.N) (d) : (dats m 0 c).before 0 t d = blockAt m c 0 t :=
  before_aux_of m (dats m 0 c) (A_eq m c 0) (after_aux m c) t d
theorem before_corners (c : Dev nD) (t : Fin cfg0.N) (d) : (dats m 0 c).before 1 t d = blockAt m c 1 t :=
  before_corners_of m (dats m 0 c) (A_eq m c 1) (after_corners m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input windows hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_aux, before_corners]
  rw [show (dats m 0 c).Φ t.succ = (dats m 0 c).Φ t.castSucc from rfl,
    show (dats m 0 c).owesAt () t.succ = (dats m 0 c).owesAt () t.castSucc from rfl,
    after_aux, after_corners, after_out]
  iintro ⟨HΦ, Ho, ⟨%d0, H0⟩, ⟨%d1, H1⟩, ⟨%d2, H2⟩⟩
  iapply (sound_kernel c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; in every final state each array
    of the pipeline holds what the library computes from the proof data, and every other unscoped buffer what the four
    host operations after the region leave in it. -/
theorem run_main : θ_run defs (onTc (τ := τ) (main (F := F))) (s₀ m ρ)
    (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := hmain m Variants.none) (hA := A_eq m) (hΦ := fun _ _ => rfl)

/-- Both argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (end_arg0 m (dats m) c),
     ((h c).2 main_arg1 (Pipeline.mem_restRefs_of main_arg1 (by decide) (by decide))).trans (end_arg1 m (dats m) c)⟩) (run_main m ρ)

end Cert.KernelIdeal.Combine

end
-- ==== Proof.Cell.lean ====
/-
  The body's arithmetic at one cell. For one query row the body holds the three fractions `fx fy fz`, the mask
  `v` (1 inside the grid, 0 outside) and, per channel, the eight corner values `c 0 … c 7` ordered with the z
  offset fastest; it forms the eight products of `fx` or `1 - fx`, `fy` or `1 - fy`, `fz` or `1 - fz`, adds the
  eight weighted corners from zero in that order, and multiplies by the mask. `blend` is that expression on the
  extended reals, with the kernel's association; `stored_at` says the body's stored block at row `p`, channel `q`
  is `blend` of row `p` of the fractions-and-mask block and of columns `2k + q` of the packed-corners block.
-/
import proofs.«175399_j60687887892817_2_alg».proof.Proof.Gen.KernelIdeal.Skeleton
import Idealize.ShloMosaic.PureOps.Ideal
import Idealize.ShloMosaic.Lib.ValueIdx
import Idealize.ShloMosaic.Lib.ValueLayout
import Idealize.ShloMosaic.Lib.Pipeline.Value

noncomputable section

namespace Cert.KernelIdeal.Cell

open Cert.KernelIdeal Cert.KernelIdeal.Gen
open Idealize.ShloMosaic Idealize.ShloMosaic.ValueIdx

/-- The words of 1.0 and 0.0 as the body spells them. -/
abbrev one : EReal := Ideal.ofBits .f32 0x3F800000#32
abbrev zero : EReal := Ideal.ofBits .f32 0x00000000#32

/-- The trilinear sum of eight corner values `c0 … c7` (z offset fastest), from zero, in the order and association both
    programs use. -/
def mix (fx fy fz c0 c1 c2 c3 c4 c5 c6 c7 : EReal) : EReal :=
  (((((((zero + ((one - fx) * (one - fy)) * (one - fz) * c0)
      + ((one - fx) * (one - fy)) * fz * c1)
      + ((one - fx) * fy) * (one - fz) * c2)
      + ((one - fx) * fy) * fz * c3)
      + (fx * (one - fy)) * (one - fz) * c4)
      + (fx * (one - fy)) * fz * c5)
      + (fx * fy) * (one - fz) * c6)
      + (fx * fy) * fz * c7

/-- The kernel's masked form: the sum times the mask. -/
def blend (fx fy fz v c0 c1 c2 c3 c4 c5 c6 c7 : EReal) : EReal := mix fx fy fz c0 c1 c2 c3 c4 c5 c6 c7 * v

/-- Column `j` of a [2048,4] block, cut out as a [2048,1] column, read at row `p`. -/
theorem column_at (j : Nat) (x : FVec Ideal S2048x4 .f32) (h : S2048x4.Slices ![0, j] S2048x1) (p : Fin 2048) (u : Fin 1)
    (k : Fin 4) (hk : k.val = j) :
    extractStridedSlice S2048x1 ![0, j] x h (ix2 p u) = x (ix2 p k) :=
  slice2_axis1_apply j x h p u k (by have := u.isLt; omega)

/-- Columns `o, o + 1` of a [2048,16] block, cut out as a [2048,2] pair, read at row `p`, channel `q`. -/
theorem pair_at (o : Nat) (x : FVec Ideal S2048x16 .f32) (h : S2048x16.Slices ![0, o] S2048x2) (p : Fin 2048) (q : Fin 2)
    (k : Fin 16) (hk : k.val = o + q.val) :
    extractStridedSlice S2048x2 ![0, o] x h (ix2 p q) = x (ix2 p k) :=
  slice2_axis1_apply o x h p q k hk

/-- A [2048,1] column spread over the two channels, read at row `p`, channel `q`. -/
theorem spread_at (w : FVec Ideal S2048x1 .f32) (h : S2048x1.Broadcasts S2048x2) (p : Fin 2048) (q : Fin 2) :
    broadcastTo S2048x2 w h (ix2 p q) = w (ix2 p (0 : Fin 1)) :=
  broadcastTo_apply w h (ix2 p q) (ix2 p (0 : Fin 1)) (fun a => by
    match a with
    | ⟨0, _⟩ => show p.val = if (2048 : Nat) = 1 then 0 else p.val; rw [if_neg (by decide)]
    | ⟨1, _⟩ => show (0 : Nat) = if (1 : Nat) = 1 then 0 else _; rw [if_pos rfl])

/-- Column `2 k + q` of the packed corners. -/
abbrev col (k : Fin 8) (q : Fin 2) : Fin 16 := ⟨2 * k.val + q.val, by have := k.isLt; have := q.isLt; omega⟩

/-- What the body stores, at row `p` and channel `q`, is the blend of row `p` of its two loaded blocks. -/
theorem stored_at (x0 : FVec Ideal S2048x4 .f32) (x1 : FVec Ideal S2048x16 .f32) (p : Fin 2048) (q : Fin 2) :
    k0_pay1 (F := Ideal) (k0_pay3 x1) (k0_pay4 x0) (k0_pay5 x0) (k0_pay6 x0) (k0_pay7 x0) (k0_pay8 x0) (k0_pay9 x0 x1) (ix2 p q)
      = blend (x0 (ix2 p (0 : Fin 4))) (x0 (ix2 p (1 : Fin 4))) (x0 (ix2 p (2 : Fin 4))) (x0 (ix2 p (3 : Fin 4)))
          (x1 (ix2 p (col 0 q))) (x1 (ix2 p (col 1 q))) (x1 (ix2 p (col 2 q))) (x1 (ix2 p (col 3 q)))
          (x1 (ix2 p (col 4 q))) (x1 (ix2 p (col 5 q))) (x1 (ix2 p (col 6 q))) (x1 (ix2 p (col 7 q))) := by
  unfold k0_pay1 k0_pay9 k0_pay8 k0_pay7 k0_pay6 k0_pay5 k0_pay4 k0_pay3 k0_pay2 blend mix
  simp only [mulf_apply, addf_apply, subf_apply, broadcast_apply, spread_at, shapeCast_self]
  rw [column_at 0 x0 _ p 0 0 rfl, column_at 1 x0 _ p 0 1 rfl, column_at 2 x0 _ p 0 2 rfl, column_at 3 x0 _ p 0 3 rfl,
    pair_at 0 x1 _ p q (col 0 q) (by simp), pair_at 2 x1 _ p q (col 1 q) (by simp), pair_at 4 x1 _ p q (col 2 q) (by simp),
    pair_at 6 x1 _ p q (col 3 q) (by simp), pair_at 8 x1 _ p q (col 4 q) (by simp), pair_at 10 x1 _ p q (col 5 q) (by simp),
    pair_at 12 x1 _ p q (col 6 q) (by simp), pair_at 14 x1 _ p q (col 7 q) (by simp)]
  rfl

end Cert.KernelIdeal.Cell

end
-- ==== Proof.KernelIdeal.ArrayValue.lean ====
/-
  What the kernel's program returns, at the extended reals, as functions of the two packed arrays the region finds.

  The result array of the region is `blended A C`: row `n`, channel `q` is the masked trilinear blend of row `n` of the
  fractions-and-mask array `A` and of columns `2k + q` of row `n` of the packed-corners array `C`. Point `t` of the
  grid writes rows `2048 t … 2048 t + 2047`, and those 1024 blocks tile the 2097152 rows, so the array ends at
  `blended A C` everywhere. The four host operations after the region cut out each channel's column and flatten it:
  result `q` at `n` is `blended A C` at `(n, q)`.
-/
import proofs.«175399_j60687887892817_2_alg».proof.Proof.KernelIdeal.Run
import proofs.«175399_j60687887892817_2_alg».proof.Proof.Cell
import Idealize.ShloMosaic.Lib.StableHlo.Run

set_option maxRecDepth 16384

noncomputable section

namespace Cert.KernelIdeal.Combine

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The result array as one function -/

/-- Row `n`, channel `q` of the result. -/
def blendedAt (A : S2097152x4.Idx → EReal) (C : S2097152x16.Idx → EReal) (n : Fin 2097152) (q : Fin 2) : EReal :=
  Cell.blend (A (ix2 n (0 : Fin 4))) (A (ix2 n (1 : Fin 4))) (A (ix2 n (2 : Fin 4))) (A (ix2 n (3 : Fin 4)))
    (C (ix2 n (Cell.col 0 q))) (C (ix2 n (Cell.col 1 q))) (C (ix2 n (Cell.col 2 q))) (C (ix2 n (Cell.col 3 q)))
    (C (ix2 n (Cell.col 4 q))) (C (ix2 n (Cell.col 5 q))) (C (ix2 n (Cell.col 6 q))) (C (ix2 n (Cell.col 7 q)))

/-- The whole result array. -/
def blended (A : S2097152x4.Idx → EReal) (C : S2097152x16.Idx → EReal) : S2097152x2.Idx → EReal :=
  fun i => blendedAt A C (i 0) (i 1)

/-- One stored entry is the blend of the rows its blocks hold, once each block row is known to be the array's row `n`. -/
theorem stored_eq (A : S2097152x4.Idx → EReal) (C : S2097152x16.Idx → EReal)
    (x0 : FVec Ideal S2048x4 .f32) (x1 : FVec Ideal S2048x16 .f32) (n : Fin 2097152) (p : Fin 2048) (q : Fin 2)
    (h0 : ∀ k : Fin 4, x0 (ix2 p k) = A (ix2 n k)) (h1 : ∀ k : Fin 16, x1 (ix2 p k) = C (ix2 n k)) :
    k0_pay1 (F := Ideal) (k0_pay3 x1) (k0_pay4 x0) (k0_pay5 x0) (k0_pay6 x0) (k0_pay7 x0) (k0_pay8 x0) (k0_pay9 x0 x1) (ix2 p q)
      = blendedAt A C n q := by
  rw [Cell.stored_at, h0, h0, h0, h0, h1, h1, h1, h1, h1, h1, h1, h1]
  rfl

/-! ## From blocks to the array -/

theorem offs_zero : (![0, 0] : Fin 2 → Nat) = fun _ => 0 := funext fun a => by fin_cases a <;> rfl

/-- Every window's block at point `t` is block row `t`, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

set_option maxHeartbeats 4000000 in
/-- What point `t` writes back is block `t` of `blended` of the two packed arrays as the region finds them. -/
theorem flushed_eq (c : Dev nD) (t : Fin cfg0.N) :
    (dats m 0 c).flushed 2 t
      = ((cfg0.win 2).blk t).view.read (Elt Ideal) (blended (entry m c main_v23) (entry m c main_v280)) := by
  show (cfg0.win 2).cut (grid0.coords t) ((dats m 0 c).after 2 t) = _
  rw [after_out]
  unfold combined
  rw [View.canon_unit_zero offs_zero]
  simp only [View.ld_unit_zero (S := S2048x4) offs_zero, View.ld_unit_zero (S := S2048x16) offs_zero]
  obtain ⟨e0, e1, e2, e3, e4, e5⟩ := block_index t
  have ht : t.val < 1024 := by have h1 := t.isLt; have hN : cfg0.N = 1024 := N_0; omega
  funext j
  obtain ⟨p, q, rfl⟩ : ∃ (p : Fin 2048) (q : Fin 2), j = ix2 p q := ⟨j 0, j 1, eq_ix2 j⟩
  have hn : t.val * 2048 + p.val < 2097152 := by have := p.isLt; omega
  have hout : ((cfg0.win 2).blk t).view.emb (ix2 p q) = ix2 (⟨t.val * 2048 + p.val, hn⟩ : Fin 2097152) q := by
    funext a; apply Fin.ext
    match a with
    | ⟨0, _⟩ => show win0_2.index t (0 : Fin 2) * 2048 + 1 * p.val = t.val * 2048 + p.val; omega
    | ⟨1, _⟩ => show win0_2.index t (1 : Fin 2) * 2 + 1 * q.val = q.val; omega
  show _ = blended (entry m c main_v23) (entry m c main_v280) (((cfg0.win 2).blk t).view.emb (ix2 p q))
  rw [hout]
  refine stored_eq (entry m c main_v23) (entry m c main_v280) (blockAt m c 0 t) (blockAt m c 1 t) ⟨t.val * 2048 + p.val, hn⟩ p q ?_ ?_
  · intro k
    show entry m c main_v23 (((cfg0.win 0).blk t).view.emb (ix2 p k)) = _
    refine congrArg _ ?_
    funext a; apply Fin.ext
    match a with
    | ⟨0, _⟩ => show win0_0.index t (0 : Fin 2) * 2048 + 1 * p.val = t.val * 2048 + p.val; omega
    | ⟨1, _⟩ => show win0_0.index t (1 : Fin 2) * 4 + 1 * k.val = k.val; omega
  · intro k
    show entry m c main_v280 (((cfg0.win 1).blk t).view.emb (ix2 p k)) = _
    refine congrArg _ ?_
    funext a; apply Fin.ext
    match a with
    | ⟨0, _⟩ => show win0_1.index t (0 : Fin 2) * 2048 + 1 * p.val = t.val * 2048 + p.val; omega
    | ⟨1, _⟩ => show win0_1.index t (1 : Fin 2) * 16 + 1 * k.val = k.val; omega

/-- An index of the result array is in point `t`'s block iff each coordinate is in the block's range. -/
theorem mem_block (t : Fin cfg0.N) (i : S2097152x2.Idx) :
    i ∈ ((cfg0.win 2).blk t).view.set ↔ ∀ a : Fin 2, win0_2.index t a * S2048x2.size a ≤ (i a).val ∧ (i a).val < win0_2.index t a * S2048x2.size a + S2048x2.size a := by
  show i ∈ ((View.whole main_v281).slice (win0_2.rect t)).set ↔ _
  rw [View.set_slice_whole, Rect.mem_set_unit]
  exact Iff.rfl

/-- The 1024 blocks tile the rows: row `n` lies in the block of point `n / 2048`. -/
theorem covered (i : S2097152x2.Idx) :
    ∃ t : Fin cfg0.N, (cfg0.win 2).flush t = true ∧ i ∈ ((cfg0.win 2).blk t).view.set := by
  have hi0 : (i 0).val < 2097152 := (i 0).isLt
  have hi1 : (i 1).val < 2 := (i 1).isLt
  have hN : cfg0.N = 1024 := N_0
  let t : Fin cfg0.N := ⟨(i 0).val / 2048, by rw [hN]; omega⟩
  obtain ⟨-, -, -, -, e4, e5⟩ := block_index t
  have e4' : win0_2.index t (0 : Fin 2) = (i 0).val / 2048 := e4
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2 ≤ (i 1).val ∧ (i 1).val < win0_2.index t (1 : Fin 2) * 2 + 2; omega

/-- The result array after the region. -/
theorem final_out (c : Dev nD) :
    (dats m 0 c).arrAt 2 cfg0.N = blended (entry m c main_v23) (entry m c main_v280) :=
  (dats m 0 c).arrAt_eq_of_cover 2 (blended (entry m c main_v23) (entry m c main_v280)) (fun t _ => flushed_eq m c t) covered

end Cert.KernelIdeal.Combine

end
-- ==== Proof.LibColumnBroadcast.lean ====
/-
  Column forms of `broadcast_in_dim` and of a column slice, read at coordinates. A vector `[a]` made a column `[a, 1]`
  (dims = [0]) reads, at `(i, u)`, the vector at `i`; a column `[a, 1]` spread over `b` columns (dims = [0, 1]) reads,
  at `(i, q)`, the column at `(i, 0)`; a scalar spread over any shape reads the scalar; and column `j` of an `[a, b]`
  array, cut out as `[a, 1]`, reads at `(i, u)` the array at `(i, j)`. General: nothing here mentions a program.
-/
import Idealize.ShloMosaic.Lib.Pipeline.Value
import Idealize.ShloMosaic.Lib.ValueIdx
import Idealize.ShloMosaic.Lib.ValueLayout

namespace Cert.LibColumnBroadcast

open Idealize.ShloMosaic Idealize.ShloMosaic.ValueIdx

variable {α : Type}

/-- A vector made a column: `[a] → [a, 1]` along axis 0 reads, at `(i, u)`, the vector at `i`. -/
theorem vector_as_column_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x _ _ (fun d => by
    match d with
    | ⟨0, _⟩ =>
      show i.val = if a = 1 then 0 else i.val
      split
      · have := i.isLt; omega
      · rfl)

/-- A column spread over `b` columns: `[a, 1] → [a, b]` along axes 0, 1 reads, at `(i, q)`, the column at `(i, 0)`. -/
theorem column_spread_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (q : Fin b) :
    broadcastInDim ⟨2, ![a, b]⟩ (![0, 1] : Fin 2 → Fin 2) h x (ix2 i q) = x (ix2 i (0 : Fin 1)) :=
  broadcastInDim_apply _ h x _ _ (fun d => by
    match d with
    | ⟨0, _⟩ =>
      show i.val = if a = 1 then 0 else i.val
      split
      · have := i.isLt; omega
      · rfl
    | ⟨1, _⟩ =>
      show (0 : ℕ) = if (1 : ℕ) = 1 then 0 else q.val
      rw [if_pos rfl])

/-- A scalar spread over any shape reads the scalar. -/
theorem scalar_spread_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 (fun d => d.elim0)

/-- Column `j` of an `[a, b]` array, cut out as an `[a, 1]` column, reads at `(i, u)` the array at `(i, j)`. -/
theorem column_cut_apply {a b : ℕ} (j : ℕ) (x : (⟨2, ![a, b]⟩ : Shape).Idx → α)
    (h : (⟨2, ![a, b]⟩ : Shape).Slices ![0, j] ⟨2, ![a, 1]⟩) (i : Fin a) (u : Fin 1) (k : Fin b) (hk : k.val = j) :
    extractStridedSlice ⟨2, ![a, 1]⟩ ![0, j] x h (ix2 i u) = x (ix2 i k) :=
  slice2_axis1_apply j x h i u k (by have := u.isLt; omega)

end Cert.LibColumnBroadcast
-- ==== Proof.LibSqueezeColumn.lean ====
/-
  A column read as a vector: an \`[a, 1]\` array cast to \`[a]\` reads, at \`i\`, the column at \`(i, 0)\`. (The row form,
  \`[1, a] → [a]\`, is in the library's layout file; this is its transpose, proved the same way.) General: nothing here
  mentions a program.
-/
import Idealize.ShloMosaic.Lib.Pipeline.Value
import Idealize.ShloMosaic.Lib.ValueIdx

namespace Cert.LibSqueezeColumn

open Idealize.ShloMosaic Idealize.ShloMosaic.ValueIdx

variable {α : Type}

/-- An \`[a, 1]\` array cast to \`[a]\` reads, at \`i\`, the operand at \`(i, 0)\`: the row-major positions agree,
    \`i · 1 + 0 = i\`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibSqueezeColumn
-- ==== Proof.KernelIdeal.TailValue.lean ====
/-
  The kernel program's two results, at a query row, as the blend of the packed arrays' rows.

  After the region the program cuts column `q` out of the [N,2] result array and flattens it. The run's post names
  each result buffer as those two operations applied to the buffers' contents at the region's exit, where the result
  array holds `blended` of the two packed operands; read at row `n` that is `blendedAt … n q`.
-/
import proofs.«175399_j60687887892817_2_alg».proof.Proof.KernelIdeal.ArrayValue
import proofs.«175399_j60687887892817_2_alg».proof.Proof.LibColumnBroadcast
import proofs.«175399_j60687887892817_2_alg».proof.Proof.LibSqueezeColumn

set_option maxRecDepth 16384

noncomputable section

namespace Cert.KernelIdeal.Combine

open Cert.KernelIdeal Cert.KernelIdeal.Gen
open Idealize.ShloMosaic Idealize.ShloMosaic.TcCoe Idealize.ShloMosaic.ValueIdx Idealize.ShloMosaic.StableHlo
open Idealize.SL Idealize.SL.Sem
open Cert.LibColumnBroadcast Cert.LibSqueezeColumn

variable (m : (ℓ : Loc nD τ sig) → Buf (Elt Ideal) ℓ)

/-- The first result buffer after the host operations that follow the region: column 0 of the result array, flattened. -/
theorem tail_result0 (c : Dev nD) :
    (Pipeline.afterTail₀ cfgs (dats m) 0 (entry0 m) [hostOps1] c main_v283 : S2097152.Idx → EReal)
      = shapeCast S2097152 (extractStridedSlice S2097152x1 ![0, 0] (blended (entry m c main_v23) (entry m c main_v280))
          slices_S2097152x2_S2097152x1_0_0) shapeCasts_S2097152x1_S2097152 := by
  unfold Pipeline.afterTail₀
  show StableHlo.after hostOps1 _ (Proc.devRef .tc main_v283) = _
  after_results
  have hw : Pipeline.withArrays spec0 c (entry0 m c) (fun w => (dats m 0 c).arrAt w cfg0.N) (Proc.devRef .tc main_v281)
      = blended (entry m c main_v23) (entry m c main_v280) :=
    (Pipeline.withArrays_arr spec0 launch0.win.arr_inj c _ _ 2).trans (final_out m c)
  rw [hw]
  rfl

/-- The second: column 1. -/
theorem tail_result1 (c : Dev nD) :
    (Pipeline.afterTail₀ cfgs (dats m) 0 (entry0 m) [hostOps1] c main_v285 : S2097152.Idx → EReal)
      = shapeCast S2097152 (extractStridedSlice S2097152x1 ![0, 1] (blended (entry m c main_v23) (entry m c main_v280))
          slices_S2097152x2_S2097152x1_0_1) shapeCasts_S2097152x1_S2097152 := by
  unfold Pipeline.afterTail₀
  show StableHlo.after hostOps1 _ (Proc.devRef .tc main_v285) = _
  after_results
  have hw : Pipeline.withArrays spec0 c (entry0 m c) (fun w => (dats m 0 c).arrAt w cfg0.N) (Proc.devRef .tc main_v281)
      = blended (entry m c main_v23) (entry m c main_v280) :=
    (Pipeline.withArrays_arr spec0 launch0.win.arr_inj c _ _ 2).trans (final_out m c)
  rw [hw]
  rfl

/-- Result 0 at row `n`. -/
theorem result0_at (c : Dev nD) (n : Fin 2097152) :
    (Pipeline.afterTail₀ cfgs (dats m) 0 (entry0 m) [hostOps1] c main_v283 : S2097152.Idx → EReal) (ix1 n)
      = blendedAt (entry m c main_v23) (entry m c main_v280) n 0 := by
  rw [tail_result0]
  exact (shapeCast_a1_a_apply _ _ n).trans (column_cut_apply 0 _ _ n 0 0 rfl)

/-- Result 1 at row `n`. -/
theorem result1_at (c : Dev nD) (n : Fin 2097152) :
    (Pipeline.afterTail₀ cfgs (dats m) 0 (entry0 m) [hostOps1] c main_v285 : S2097152.Idx → EReal) (ix1 n)
      = blendedAt (entry m c main_v23) (entry m c main_v280) n 1 := by
  rw [tail_result1]
  exact (shapeCast_a1_a_apply _ _ n).trans (column_cut_apply 1 _ _ n 0 1 rfl)

end Cert.KernelIdeal.Combine

end
-- ==== Proof.KernelIdeal.HostPrefix.lean ====
/-
  What the region finds in its two packed operands, in terms of what it finds in the buffers they are packed from.

  Before the region the program computes the fractions `f` ([N,3], buffer %11), the validity bits ([N], %20) and the
  eight gathered corner arrays ([N,2] each, %55, %87, …, %279). It then packs `f` beside the bits converted to
  0.0 / 1.0 as a fourth column ([N,4], %23), and the eight corner arrays side by side ([N,16], %280). Both facts
  are read off the host operations' composed terms: each side of each equation is the same composition of the
  same operations of the two argument arrays.
-/
import proofs.«175399_j60687887892817_2_alg».proof.Proof.KernelIdeal.Around
import Idealize.ShloMosaic.Lib.StableHlo.Run
import Idealize.ShloMosaic.PureOps.Ideal

set_option maxRecDepth 16384

noncomputable section

namespace Cert.KernelIdeal.Combine

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ)

/-- The fractions and the mask column, packed. -/
def packAux (f : S2097152x3.Idx → EReal) (v : S2097152.Idx → BitVec 1) : S2097152x4.Idx → EReal :=
  concatenate S2097152x4 1 [⟨S2097152x3, f⟩,
    ⟨S2097152x1, broadcastInDim S2097152x1 ![0] bcast_S2097152_S2097152x1_0 (uitofp (F := Ideal) .f32 v)⟩]
    concatenates_S2097152x3_S2097152x1_S2097152x4_d1

/-- The eight corner arrays, packed side by side. -/
def packCorners (c : Fin 8 → S2097152x2.Idx → EReal) : S2097152x16.Idx → EReal :=
  concatenate S2097152x16 1 [⟨S2097152x2, c 0⟩, ⟨S2097152x2, c 1⟩, ⟨S2097152x2, c 2⟩, ⟨S2097152x2, c 3⟩,
    ⟨S2097152x2, c 4⟩, ⟨S2097152x2, c 5⟩, ⟨S2097152x2, c 6⟩, ⟨S2097152x2, c 7⟩]
    concatenates_S2097152x2_S2097152x2_S2097152x2_S2097152x2_S2097152x2_S2097152x2_S2097152x2_S2097152x2_S2097152x16_d1

/-- The eight corner arrays as the region finds them, z offset fastest. -/
def cornersAtEntry (c : Dev nD) : Fin 8 → S2097152x2.Idx → EReal
  | 0 => entry m c main_v55 | 1 => entry m c main_v87 | 2 => entry m c main_v119 | 3 => entry m c main_v151
  | 4 => entry m c main_v183 | 5 => entry m c main_v215 | 6 => entry m c main_v247 | 7 => entry m c main_v279

set_option maxHeartbeats 200000000 in
/-- The first operand as the region finds it: the fractions beside the validity bits as numbers. -/
theorem entry_aux (c : Dev nD) :
    entry m c main_v23 = packAux (entry m c main_v11) (entry m c main_v20) := by
  unfold packAux
  dsimp only [entry, entry0]
  simp only [hostOps0, hostOps0_1, hostOps0_2, List.flatten_cons, List.flatten_nil, List.append_nil, List.cons_append, List.nil_append]
  after_results_simp <;> rfl

set_option maxHeartbeats 400000000 in
/-- The second operand as the region finds it: the eight corner arrays side by side. -/
theorem entry_corners (c : Dev nD) :
    entry m c main_v280 = packCorners (cornersAtEntry m c) := by
  unfold packCorners cornersAtEntry
  dsimp only [entry, entry0]
  simp only [hostOps0, hostOps0_1, hostOps0_2, List.flatten_cons, List.flatten_nil, List.append_nil, List.cons_append, List.nil_append]
  after_results_simp <;> rfl

end Cert.KernelIdeal.Combine

end
-- ==== Proof.RefOps.lean ====
/-
  The reference program's @main as lists of host operations, one list per printed window of @main (65, 60, 60, 60, 60, 60,
  60 and 46 operations, a called function's operations standing in its call's place), their concatenation `ops`, and for each
  window the fact that every operation touches TensorCore references only. A table: no argument is made here.
-/
import proofs.«175399_j60687887892817_2_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Operations 1 … 65 of @main (`main_part0`), in order. -/
abbrev ops0 : List (HloOp τ sig (Elt F)) :=
  [ nullary main_cst (constant S3 .f32 0xBF800000#32),
    nullary main_cst_0 (constant S_ .f32 0x42FF0000#32),
    nullary main_cst_1 (constant S3 .f32 0x43800000#32),
    nullary main_cst_2 (constant S3 .f32 0x43800000#32),
    unary main_cst main_v0 (broadcastInDim S1x3 ![1] bcast_S3_S1x3_1 : (⟨S3, .f32⟩ : BufTy).Contents (Elt F) → (⟨S1x3, .f32⟩ : BufTy).Contents (Elt F)),
    unary main_v0 main_v1 (broadcastInDim S2097152x3 ![0, 1] bcast_S1x3_S2097152x3_0_1 : (⟨S1x3, .f32⟩ : BufTy).Contents (Elt F) → (⟨S2097152x3, .f32⟩ : BufTy).Contents (Elt F)),
    binary main_arg0 main_v1 main_v2 (subf : (⟨S2097152x3, .f32⟩ : BufTy).Contents (Elt F) → (⟨S2097152x3, .f32⟩ : BufTy).Contents (Elt F) → (⟨S2097152x3, .f32⟩ : BufTy).Contents (Elt F)),
    unary main_cst_0 main_v3 (broadcastInDim S2097152x3 ![] bcast_S_S2097152x3 : (⟨S_, .f32⟩ : BufTy).Contents (Elt F) → (⟨S2097152x3, .f32⟩ : BufTy).Contents (Elt F)),
    binary main_v2 main_v3 main_v4 (mulf : (⟨S2097152x3, .f32⟩ : BufTy).Contents (Elt F) → (⟨S2097152x3, .f32⟩ : BufTy).Contents (Elt F) → (⟨S2097152x3, .f32⟩ : BufTy).Contents (Elt F)),
    nullary main_cst_3 (constant S_ .f32 0x00000000#32),
    unary main_cst_3 main_v5 (broadcastInDim S2097152x3 ![] bcast_S_S2097152x3 : (⟨S_, .f32⟩ : BufTy).Contents (Elt F) → (⟨S2097152x3, .f32⟩ : BufTy).Contents (Elt F)),
    binary main_v4 main_v5 main_v6 (cmpf .oge : (⟨S2097152x3, .f32⟩ : BufTy).Contents (Elt F) → (⟨S2097152x3, .f32⟩ : BufTy).Contents (Elt F) → (⟨S2097152x3, .i1⟩ : BufTy).Contents (Elt F)),
    nullary main_cst_4 (constant S_ .f32 0x3F800000#32),
    unary main_cst_4 main_v7 (broadcastInDim S3 ![] bcast_S_S3 : (⟨S_, .f32⟩ : BufTy).Contents (Elt F) → (⟨S3, .f32⟩ : BufTy).Contents (Elt F)),
    binary main_cst_1 main_v7 main_v8 (subf : (⟨S3, .f32⟩ : BufTy).Contents (Elt F) → (⟨S3, .f32⟩ : BufTy).Contents (Elt F) → (⟨S3, .f32⟩ : BufTy).Contents (Elt F)),
    unary main_v8 main_v9 (broadcastInDim S1x3 ![1] bcast_S3_S1x3_1 : (⟨S3, .f32⟩ : BufTy).Contents (Elt F) → (⟨S1x3, .f32⟩ : BufTy).Contents (Elt F)),
    unary main_v9 main_v10 (broadcastInDim S2097152x3 ![0, 1] bcast_S1x3_S2097152x3_0_1 : (⟨S1x3, .f32⟩ : BufTy).Contents (Elt F) → (⟨S2097152x3, .f32⟩ : BufTy).Contents (Elt F)),
    binary main_v4 main_v10 main_v11 (cmpf .ole : (⟨S2097152x3, .f32⟩ : BufTy).Contents (Elt F) → (⟨S2097152x3, .f32⟩ : BufTy).Contents (Elt F) → (⟨S2097152x3, .i1⟩ : BufTy).Contents (Elt F)),
    binary main_v6 main_v11 main_v12 (andi : (⟨S2097152x3, .i1⟩ : BufTy).Contents (Elt F) → (⟨S2097152x3, .i1⟩ : BufTy).Contents (Elt F) → (⟨S2097152x3, .i1⟩ : BufTy).Contents (Elt F)),
    nullary main_c (constantI S_ 1 1#1),
    binary main_v12 main_c main_v13 ((fun x v => Host.reduce IntOp.andi x v reducesTo_S2097152x3_S2097152_d1 h_S_) : (⟨S2097152x3, .i1⟩ : BufTy).Contents (Elt F) → (⟨S_, .i1⟩ : BufTy).Contents (Elt F) → (⟨S2097152, .i1⟩ : BufTy).Contents (Elt F)),
    unary main_v4 main_v14 (Host.floor : (⟨S2097152x3, .f32⟩ : BufTy).Contents (Elt F) → (⟨S2097152x3, .f32⟩ : BufTy).Contents (Elt F)),
    nullary main_cst_5 (constant S_ .f32 0x40000000#32),
    unary main_cst_5 main_v15 (broadcastInDim S3 ![] bcast_S_S3 : (⟨S_, .f32⟩ : BufTy).Contents (Elt F) → (⟨S3, .f32⟩ : BufTy).Contents (Elt F)),
    binary main_cst_2 main_v15 main_v16 (subf : (⟨S3, .f32⟩ : BufTy).Contents (Elt F) → (⟨S3, .f32⟩ : BufTy).Contents (Elt F) → (⟨S3, .f32⟩ : BufTy).Contents (Elt F)),
    nullary main_cst_6 (constant S_ .f32 0x00000000#32),
    TRef.unary (TRef.of (T := ⟨S_, .f32⟩) main_cst_6) (TRef.of (T := ⟨S_, .f32⟩) main_call0_v0) id,
    TRef.unary (TRef.of (T := ⟨S_, .f32⟩) main_call0_v0) (TRef.of (T := ⟨S2097152x3, .f32⟩) main_call0_v1) (broadcastInDim S2097152x3 ![] bcast_S_S2097152x3),
    TRef.binary (TRef.of (T := ⟨S2097152x3, .f32⟩) main_call0_v1) (TRef.of (T := ⟨S2097152x3, .f32⟩) main_v14) (TRef.of (T := ⟨S2097152x3, .f32⟩) main_call0_v2) maximumf,
    TRef.unary (TRef.of (T := ⟨S3, .f32⟩) main_v16) (TRef.of (T := ⟨S1x3, .f32⟩) main_call0_v3) (broadcastInDim S1x3 ![1] bcast_S3_S1x3_1),
    TRef.unary (TRef.of (T := ⟨S1x3, .f32⟩) main_call0_v3) (TRef.of (T := ⟨S2097152x3, .f32⟩) main_call0_v4) (broadcastInDim S2097152x3 ![0, 1] bcast_S1x3_S2097152x3_0_1),
    TRef.binary (TRef.of (T := ⟨S2097152x3, .f32⟩) main_call0_v4) (TRef.of (T := ⟨S2097152x3, .f32⟩) main_call0_v2) (TRef.of (T := ⟨S2097152x3, .f32⟩) main_v17) minimumf,
    unary main_v17 main_v18 (fptosi 32 : (⟨S2097152x3, .f32⟩ : BufTy).Contents (Elt F) → (⟨S2097152x3, .i32⟩ : BufTy).Contents (Elt F)),
    unary main_v18 main_v19 (sitofp .f32 : (⟨S2097152x3, .i32⟩ : BufTy).Contents (Elt F) → (⟨S2097152x3, .f32⟩ : BufTy).Contents (Elt F)),
    binary main_v4 main_v19 main_v20 (subf : (⟨S2097152x3, .f32⟩ : BufTy).Contents (Elt F) → (⟨S2097152x3, .f32⟩ : BufTy).Contents (Elt F) → (⟨S2097152x3, .f32⟩ : BufTy).Contents (Elt F)),
    nullary main_cst_7 (constant S_ .f32 0x00000000#32),
    unary main_cst_7 main_v21 (broadcastInDim S2097152x2 ![] bcast_S_S2097152x2 : (⟨S_, .f32⟩ : BufTy).Contents (Elt F) → (⟨S2097152x2, .f32⟩ : BufTy).Contents (Elt F)),
    unary main_v20 main_v22 ((extractStridedSlice S2097152x1 ![0, 0] · slices_S2097152x3_S2097152x1_0_0) : (⟨S2097152x3, .f32⟩ : BufTy).Contents (Elt F) → (⟨S2097152x1, .f32⟩ : BufTy).Contents (Elt F)),
    reshape main_v22 main_v23 rfl shapeCasts_S2097152x1_S2097152,
    nullary main_cst_8 (constant S_ .f32 0x3F800000#32),
    unary main_cst_8 main_v24 (broadcastInDim S2097152 ![] bcast_S_S2097152 : (⟨S_, .f32⟩ : BufTy).Contents (Elt F) → (⟨S2097152, .f32⟩ : BufTy).Contents (Elt F)),
    binary main_v24 main_v23 main_v25 (subf : (⟨S2097152, .f32⟩ : BufTy).Contents (Elt F) → (⟨S2097152, .f32⟩ : BufTy).Contents (Elt F) → (⟨S2097152, .f32⟩ : BufTy).Contents (Elt F)),
    unary main_v20 main_v26 ((extractStridedSlice S2097152x1 ![0, 1] · slices_S2097152x3_S2097152x1_0_1) : (⟨S2097152x3, .f32⟩ : BufTy).Contents (Elt F) → (⟨S2097152x1, .f32⟩ : BufTy).Contents (Elt F)),
    reshape main_v26 main_v27 rfl shapeCasts_S2097152x1_S2097152,
    nullary main_cst_9 (constant S_ .f32 0x3F800000#32),
    unary main_cst_9 main_v28 (broadcastInDim S2097152 ![] bcast_S_S2097152 : (⟨S_, .f32⟩ : BufTy).Contents (Elt F) → (⟨S2097152, .f32⟩ : BufTy).Contents (Elt F)),
    binary main_v28 main_v27 main_v29 (subf : (⟨S2097152, .f32⟩ : BufTy).Contents (Elt F) → (⟨S2097152, .f32⟩ : BufTy).Contents (Elt F) → (⟨S2097152, .f32⟩ : BufTy).Contents (Elt F)),
    unary main_v20 main_v30 ((extractStridedSlice S2097152x1 ![0, 2] · slices_S2097152x3_S2097152x1_0_2) : (⟨S2097152x3, .f32⟩ : BufTy).Contents (Elt F) → (⟨S2097152x1, .f32⟩ : BufTy).Contents (Elt F)),
    reshape main_v30 main_v31 rfl shapeCasts_S2097152x1_S2097152,
    nullary main_cst_10 (constant S_ .f32 0x3F800000#32),
    unary main_cst_10 main_v32 (broadcastInDim S2097152 ![] bcast_S_S2097152 : (⟨S_, .f32⟩ : BufTy).Contents (Elt F) → (⟨S2097152, .f32⟩ : BufTy).Contents (Elt F)),
    binary main_v32 main_v31 main_v33 (subf : (⟨S2097152, .f32⟩ : BufTy).Contents (Elt F) → (⟨S2097152, .f32⟩ : BufTy).Contents (Elt F) → (⟨S2097152, .f32⟩ : BufTy).Contents (Elt F)),
    unary main_v18 main_v34 ((extractStridedSlice S2097152x1 ![0, 0] · slices_S2097152x3_S2097152x1_0_0) : (⟨S2097152x3, .i32⟩ : BufTy).Contents (Elt F) → (⟨S2097152x1, .i32⟩ : BufTy).Contents (Elt F)),
    reshape main_v34 main_v35 rfl shapeCasts_S2097152x1_S2097152,
    nullary main_c_11 (constantI S_ 32 0#32),
    unary main_c_11 main_v36 (broadcastInDim S2097152 ![] bcast_S_S2097152 : (⟨S_, .i32⟩ : BufTy).Contents (Elt F) → (⟨S2097152, .i32⟩ : BufTy).Contents (Elt F)),
    binary main_v35 main_v36 main_v37 (addi : (⟨S2097152, .i32⟩ : BufTy).Contents (Elt F) → (⟨S2097152, .i32⟩ : BufTy).Contents (Elt F) → (⟨S2097152, .i32⟩ : BufTy).Contents (Elt F)),
    unary main_v18 main_v38 ((extractStridedSlice S2097152x1 ![0, 1] · slices_S2097152x3_S2097152x1_0_1) : (⟨S2097152x3, .i32⟩ : BufTy).Contents (Elt F) → (⟨S2097152x1, .i32⟩ : BufTy).Contents (Elt F)),
    reshape main_v38 main_v39 rfl shapeCasts_S2097152x1_S2097152,
    nullary main_c_12 (constantI S_ 32 0#32),
    unary main_c_12 main_v40 (broadcastInDim S2097152 ![] bcast_S_S2097152 : (⟨S_, .i32⟩ : BufTy).Contents (Elt F) → (⟨S2097152, .i32⟩ : BufTy).Contents (Elt F)),
    binary main_v39 main_v40 main_v41 (addi : (⟨S2097152, .i32⟩ : BufTy).Contents (Elt F) → (⟨S2097152, .i32⟩ : BufTy).Contents (Elt F) → (⟨S2097152, .i32⟩ : BufTy).Contents (Elt F)),
    unary main_v18 main_v42 ((extractStridedSlice S2097152x1 ![0, 2] · slices_S2097152x3_S2097152x1_0_2) : (⟨S2097152x3, .i32⟩ : BufTy).Contents (Elt F) → (⟨S2097152x1, .i32⟩ : BufTy).Contents (Elt F)),
    reshape main_v42 main_v43 rfl shapeCasts_S2097152x1_S2097152,
    nullary main_c_13 (constantI S_ 32 0#32) ]

/-- Operations 66 … 125 of @main (`main_part1`), in order. -/
abbrev ops1 : List (HloOp τ sig (Elt F)) :=
  [ unary main_c_13 main_v44 (broadcastInDim S2097152 ![] bcast_S_S2097152 : (⟨S_, .i32⟩ : BufTy).Contents (Elt F) → (⟨S2097152, .i32⟩ : BufTy).Contents (Elt F)),
    binary main_v43 main_v44 main_v45 (addi : (⟨S2097152, .i32⟩ : BufTy).Contents (Elt F) → (⟨S2097152, .i32⟩ : BufTy).Contents (Elt F) → (⟨S2097152, .i32⟩ : BufTy).Contents (Elt F)),
    nullary main_c_14 (constantI S_ 32 0#32),
    unary main_c_14 main_v46 (broadcastInDim S2097152 ![] bcast_S_S2097152 : (⟨S_, .i32⟩ : BufTy).Contents (Elt F) → (⟨S2097152, .i32⟩ : BufTy).Contents (Elt F)),
    binary main_v37 main_v46 main_v47 (cmpi .slt : (⟨S2097152, .i32⟩ : BufTy).Contents (Elt F) → (⟨S2097152, .i32⟩ : BufTy).Contents (Elt F) → (⟨S2097152, .i1⟩ : BufTy).Contents (Elt F)),
    nullary main_c_15 (constantI S_ 32 256#32),
    unary main_c_15 main_v48 (broadcastInDim S2097152 ![] bcast_S_S2097152 : (⟨S_, .i32⟩ : BufTy).Contents (Elt F) → (⟨S2097152, .i32⟩ : BufTy).Contents (Elt F)),
    binary main_v37 main_v48 main_v49 (addi : (⟨S2097152, .i32⟩ : BufTy).Contents (Elt F) → (⟨S2097152, .i32⟩ : BufTy).Contents (Elt F) → (⟨S2097152, .i32⟩ : BufTy).Contents (Elt F)),
    ternary main_v47 main_v49 main_v37 main_v50 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_16 (constantI S_ 32 0#32),
    unary main_c_16 main_v51 (broadcastInDim S2097152 ![] bcast_S_S2097152 : (⟨S_, .i32⟩ : BufTy).Contents (Elt F) → (⟨S2097152, .i32⟩ : BufTy).Contents (Elt F)),
    binary main_v41 main_v51 main_v52 (cmpi .slt : (⟨S2097152, .i32⟩ : BufTy).Contents (Elt F) → (⟨S2097152, .i32⟩ : BufTy).Contents (Elt F) → (⟨S2097152, .i1⟩ : BufTy).Contents (Elt F)),
    nullary main_c_17 (constantI S_ 32 256#32),
    unary main_c_17 main_v53 (broadcastInDim S2097152 ![] bcast_S_S2097152 : (⟨S_, .i32⟩ : BufTy).Contents (Elt F) → (⟨S2097152, .i32⟩ : BufTy).Contents (Elt F)),
    binary main_v41 main_v53 main_v54 (addi : (⟨S2097152, .i32⟩ : BufTy).Contents (Elt F) → (⟨S2097152, .i32⟩ : BufTy).Contents (Elt F) → (⟨S2097152, .i32⟩ : BufTy).Contents (Elt F)),
    ternary main_v52 main_v54 main_v41 main_v55 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_18 (constantI S_ 32 0#32),
    unary main_c_18 main_v56 (broadcastInDim S2097152 ![] bcast_S_S2097152 : (⟨S_, .i32⟩ : BufTy).Contents (Elt F) → (⟨S2097152, .i32⟩ : BufTy).Contents (Elt F)),
    binary main_v45 main_v56 main_v57 (cmpi .slt : (⟨S2097152, .i32⟩ : BufTy).Contents (Elt F) → (⟨S2097152, .i32⟩ : BufTy).Contents (Elt F) → (⟨S2097152, .i1⟩ : BufTy).Contents (Elt F)),
    nullary main_c_19 (constantI S_ 32 256#32),
    unary main_c_19 main_v58 (broadcastInDim S2097152 ![] bcast_S_S2097152 : (⟨S_, .i32⟩ : BufTy).Contents (Elt F) → (⟨S2097152, .i32⟩ : BufTy).Contents (Elt F)),
    binary main_v45 main_v58 main_v59 (addi : (⟨S2097152, .i32⟩ : BufTy).Contents (Elt F) → (⟨S2097152, .i32⟩ : BufTy).Contents (Elt F) → (⟨S2097152, .i32⟩ : BufTy).Contents (Elt F)),
    ternary main_v57 main_v59 main_v45 main_v60 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v50 main_v61 (broadcastInDim S2097152x1 ![0] bcast_S2097152_S2097152x1_0 : (⟨S2097152, .i32⟩ : BufTy).Contents (Elt F) → (⟨S2097152x1, .i32⟩ : BufTy).Contents (Elt F)),
    unary main_v55 main_v62 (broadcastInDim S2097152x1 ![0] bcast_S2097152_S2097152x1_0 : (⟨S2097152, .i32⟩ : BufTy).Contents (Elt F) → (⟨S2097152x1, .i32⟩ : BufTy).Contents (Elt F)),
    unary main_v60 main_v63 (broadcastInDim S2097152x1 ![0] bcast_S2097152_S2097152x1_0 : (⟨S2097152, .i32⟩ : BufTy).Contents (Elt F) → (⟨S2097152x1, .i32⟩ : BufTy).Contents (Elt F)),
    nary ![main_v61, main_v62, main_v63] main_v64 (fun u => concatenate S2097152x3 1 [⟨S2097152x1, u 0⟩, ⟨S2097152x1, u 1⟩, ⟨S2097152x1, u 2⟩] concatenates_S2097152x1_S2097152x1_S2097152x1_S2097152x3_d1),
    binary main_arg1 main_v64 main_v65 ((fun x i => Host.gather gather_S256x256x256x2_S2097152x3_S2097152x2_1_012_n_n_012_1_1112 x i) : (⟨S256x256x256x2, .f32⟩ : BufTy).Contents (Elt F) → (⟨S2097152x3, .i32⟩ : BufTy).Contents (Elt F) → (⟨S2097152x2, .f32⟩ : BufTy).Contents (Elt F)),
    binary main_v25 main_v29 main_v66 (mulf : (⟨S2097152, .f32⟩ : BufTy).Contents (Elt F) → (⟨S2097152, .f32⟩ : BufTy).Contents (Elt F) → (⟨S2097152, .f32⟩ : BufTy).Contents (Elt F)),
    binary main_v66 main_v33 main_v67 (mulf : (⟨S2097152, .f32⟩ : BufTy).Contents (Elt F) → (⟨S2097152, .f32⟩ : BufTy).Contents (Elt F) → (⟨S2097152, .f32⟩ : BufTy).Contents (Elt F)),
    unary main_v67 main_v68 (broadcastInDim S2097152x1 ![0] bcast_S2097152_S2097152x1_0 : (⟨S2097152, .f32⟩ : BufTy).Contents (Elt F) → (⟨S2097152x1, .f32⟩ : BufTy).Contents (Elt F)),
    unary main_v68 main_v69 (broadcastInDim S2097152x2 ![0, 1] bcast_S2097152x1_S2097152x2_0_1 : (⟨S2097152x1, .f32⟩ : BufTy).Contents (Elt F) → (⟨S2097152x2, .f32⟩ : BufTy).Contents (Elt F)),
    binary main_v69 main_v65 main_v70 (mulf : (⟨S2097152x2, .f32⟩ : BufTy).Contents (Elt F) → (⟨S2097152x2, .f32⟩ : BufTy).Contents (Elt F) → (⟨S2097152x2, .f32⟩ : BufTy).Contents (Elt F)),
    binary main_v21 main_v70 main_v71 (addf : (⟨S2097152x2, .f32⟩ : BufTy).Contents (Elt F) → (⟨S2097152x2, .f32⟩ : BufTy).Contents (Elt F) → (⟨S2097152x2, .f32⟩ : BufTy).Contents (Elt F)),
    unary main_v20 main_v72 ((extractStridedSlice S2097152x1 ![0, 2] · slices_S2097152x3_S2097152x1_0_2) : (⟨S2097152x3, .f32⟩ : BufTy).Contents (Elt F) → (⟨S2097152x1, .f32⟩ : BufTy).Contents (Elt F)),
    reshape main_v72 main_v73 rfl shapeCasts_S2097152x1_S2097152,
    unary main_v18 main_v74 ((extractStridedSlice S2097152x1 ![0, 0] · slices_S2097152x3_S2097152x1_0_0) : (⟨S2097152x3, .i32⟩ : BufTy).Contents (Elt F) → (⟨S2097152x1, .i32⟩ : BufTy).Contents (Elt F)),
    reshape main_v74 main_v75 rfl shapeCasts_S2097152x1_S2097152,
    nullary main_c_20 (constantI S_ 32 0#32),
    unary main_c_20 main_v76 (broadcastInDim S2097152 ![] bcast_S_S2097152 : (⟨S_, .i32⟩ : BufTy).Contents (Elt F) → (⟨S2097152, .i32⟩ : BufTy).Contents (Elt F)),
    binary main_v75 main_v76 main_v77 (addi : (⟨S2097152, .i32⟩ : BufTy).Contents (Elt F) → (⟨S2097152, .i32⟩ : BufTy).Contents (Elt F) → (⟨S2097152, .i32⟩ : BufTy).Contents (Elt F)),
    unary main_v18 main_v78 ((extractStridedSlice S2097152x1 ![0, 1] · slices_S2097152x3_S2097152x1_0_1) : (⟨S2097152x3, .i32⟩ : BufTy).Contents (Elt F) → (⟨S2097152x1, .i32⟩ : BufTy).Contents (Elt F)),
    reshape main_v78 main_v79 rfl shapeCasts_S2097152x1_S2097152,
    nullary main_c_21 (constantI S_ 32 0#32),
    unary main_c_21 main_v80 (broadcastInDim S2097152 ![] bcast_S_S2097152 : (⟨S_, .i32⟩ : BufTy).Contents (Elt F) → (⟨S2097152, .i32⟩ : BufTy).Contents (Elt F)),
    binary main_v79 main_v80 main_v81 (addi : (⟨S2097152, .i32⟩ : BufTy).Contents (Elt F) → (⟨S2097152, .i32⟩ : BufTy).Contents (Elt F) → (⟨S2097152, .i32⟩ : BufTy).Contents (Elt F)),
    unary main_v18 main_v82 ((extractStridedSlice S2097152x1 ![0, 2] · slices_S2097152x3_S2097152x1_0_2) : (⟨S2097152x3, .i32⟩ : BufTy).Contents (Elt F) → (⟨S2097152x1, .i32⟩ : BufTy).Contents (Elt F)),
    reshape main_v82 main_v83 rfl shapeCasts_S2097152x1_S2097152,
    nullary main_c_22 (constantI S_ 32 1#32),
    unary main_c_22 main_v84 (broadcastInDim S2097152 ![] bcast_S_S2097152 : (⟨S_, .i32⟩ : BufTy).Contents (Elt F) → (⟨S2097152, .i32⟩ : BufTy).Contents (Elt F)),
    binary main_v83 main_v84 main_v85 (addi : (⟨S2097152, .i32⟩ : BufTy).Contents (Elt F) → (⟨S2097152, .i32⟩ : BufTy).Contents (Elt F) → (⟨S2097152, .i32⟩ : BufTy).Contents (Elt F)),
    nullary main_c_23 (constantI S_ 32 0#32),
    unary main_c_23 main_v86 (broadcastInDim S2097152 ![] bcast_S_S2097152 : (⟨S_, .i32⟩ : BufTy).Contents (Elt F) → (⟨S2097152, .i32⟩ : BufTy).Contents (Elt F)),
    binary main_v77 main_v86 main_v87 (cmpi .slt : (⟨S2097152, .i32⟩ : BufTy).Contents (Elt F) → (⟨S2097152, .i32⟩ : BufTy).Contents (Elt F) → (⟨S2097152, .i1⟩ : BufTy).Contents (Elt F)),
    nullary main_c_24 (constantI S_ 32 256#32),
    unary main_c_24 main_v88 (broadcastInDim S2097152 ![] bcast_S_S2097152 : (⟨S_, .i32⟩ : BufTy).Contents (Elt F) → (⟨S2097152, .i32⟩ : BufTy).Contents (Elt F)),
    binary main_v77 main_v88 main_v89 (addi : (⟨S2097152, .i32⟩ : BufTy).Contents (Elt F) → (⟨S2097152, .i32⟩ : BufTy).Contents (Elt F) → (⟨S2097152, .i32⟩ : BufTy).Contents (Elt F)),
    ternary main_v87 main_v89 main_v77 main_v90 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_25 (constantI S_ 32 0#32),
    unary main_c_25 main_v91 (broadcastInDim S2097152 ![] bcast_S_S2097152 : (⟨S_, .i32⟩ : BufTy).Contents (Elt F) → (⟨S2097152, .i32⟩ : BufTy).Contents (Elt F)) ]

/-- Operations 126 … 185 of @main (`main_part2`), in order. -/
abbrev ops2 : List (HloOp τ sig (Elt F)) :=
  [ binary main_v81 main_v91 main_v92 (cmpi .slt : (⟨S2097152, .i32⟩ : BufTy).Contents (Elt F) → (⟨S2097152, .i32⟩ : BufTy).Contents (Elt F) → (⟨S2097152, .i1⟩ : BufTy).Contents (Elt F)),
    nullary main_c_26 (constantI S_ 32 256#32),
    unary main_c_26 main_v93 (broadcastInDim S2097152 ![] bcast_S_S2097152 : (⟨S_, .i32⟩ : BufTy).Contents (Elt F) → (⟨S2097152, .i32⟩ : BufTy).Contents (Elt F)),
    binary main_v81 main_v93 main_v94 (addi : (⟨S2097152, .i32⟩ : BufTy).Contents (Elt F) → (⟨S2097152, .i32⟩ : BufTy).Contents (Elt F) → (⟨S2097152, .i32⟩ : BufTy).Contents (Elt F)),
    ternary main_v92 main_v94 main_v81 main_v95 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_27 (constantI S_ 32 0#32),
    unary main_c_27 main_v96 (broadcastInDim S2097152 ![] bcast_S_S2097152 : (⟨S_, .i32⟩ : BufTy).Contents (Elt F) → (⟨S2097152, .i32⟩ : BufTy).Contents (Elt F)),
    binary main_v85 main_v96 main_v97 (cmpi .slt : (⟨S2097152, .i32⟩ : BufTy).Contents (Elt F) → (⟨S2097152, .i32⟩ : BufTy).Contents (Elt F) → (⟨S2097152, .i1⟩ : BufTy).Contents (Elt F)),
    nullary main_c_28 (constantI S_ 32 256#32),
    unary main_c_28 main_v98 (broadcastInDim S2097152 ![] bcast_S_S2097152 : (⟨S_, .i32⟩ : BufTy).Contents (Elt F) → (⟨S2097152, .i32⟩ : BufTy).Contents (Elt F)),
    binary main_v85 main_v98 main_v99 (addi : (⟨S2097152, .i32⟩ : BufTy).Contents (Elt F) → (⟨S2097152, .i32⟩ : BufTy).Contents (Elt F) → (⟨S2097152, .i32⟩ : BufTy).Contents (Elt F)),
    ternary main_v97 main_v99 main_v85 main_v100 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v90 main_v101 (broadcastInDim S2097152x1 ![0] bcast_S2097152_S2097152x1_0 : (⟨S2097152, .i32⟩ : BufTy).Contents (Elt F) → (⟨S2097152x1, .i32⟩ : BufTy).Contents (Elt F)),
    unary main_v95 main_v102 (broadcastInDim S2097152x1 ![0] bcast_S2097152_S2097152x1_0 : (⟨S2097152, .i32⟩ : BufTy).Contents (Elt F) → (⟨S2097152x1, .i32⟩ : BufTy).Contents (Elt F)),
    unary main_v100 main_v103 (broadcastInDim S2097152x1 ![0] bcast_S2097152_S2097152x1_0 : (⟨S2097152, .i32⟩ : BufTy).Contents (Elt F) → (⟨S2097152x1, .i32⟩ : BufTy).Contents (Elt F)),
    nary ![main_v101, main_v102, main_v103] main_v104 (fun u => concatenate S2097152x3 1 [⟨S2097152x1, u 0⟩, ⟨S2097152x1, u 1⟩, ⟨S2097152x1, u 2⟩] concatenates_S2097152x1_S2097152x1_S2097152x1_S2097152x3_d1),
    binary main_arg1 main_v104 main_v105 ((fun x i => Host.gather gather_S256x256x256x2_S2097152x3_S2097152x2_1_012_n_n_012_1_1112 x i) : (⟨S256x256x256x2, .f32⟩ : BufTy).Contents (Elt F) → (⟨S2097152x3, .i32⟩ : BufTy).Contents (Elt F) → (⟨S2097152x2, .f32⟩ : BufTy).Contents (Elt F)),
    binary main_v25 main_v29 main_v106 (mulf : (⟨S2097152, .f32⟩ : BufTy).Contents (Elt F) → (⟨S2097152, .f32⟩ : BufTy).Contents (Elt F) → (⟨S2097152, .f32⟩ : BufTy).Contents (Elt F)),
    binary main_v106 main_v73 main_v107 (mulf : (⟨S2097152, .f32⟩ : BufTy).Contents (Elt F) → (⟨S2097152, .f32⟩ : BufTy).Contents (Elt F) → (⟨S2097152, .f32⟩ : BufTy).Contents (Elt F)),
    unary main_v107 main_v108 (broadcastInDim S2097152x1 ![0] bcast_S2097152_S2097152x1_0 : (⟨S2097152, .f32⟩ : BufTy).Contents (Elt F) → (⟨S2097152x1, .f32⟩ : BufTy).Contents (Elt F)),
    unary main_v108 main_v109 (broadcastInDim S2097152x2 ![0, 1] bcast_S2097152x1_S2097152x2_0_1 : (⟨S2097152x1, .f32⟩ : BufTy).Contents (Elt F) → (⟨S2097152x2, .f32⟩ : BufTy).Contents (Elt F)),
    binary main_v109 main_v105 main_v110 (mulf : (⟨S2097152x2, .f32⟩ : BufTy).Contents (Elt F) → (⟨S2097152x2, .f32⟩ : BufTy).Contents (Elt F) → (⟨S2097152x2, .f32⟩ : BufTy).Contents (Elt F)),
    binary main_v71 main_v110 main_v111 (addf : (⟨S2097152x2, .f32⟩ : BufTy).Contents (Elt F) → (⟨S2097152x2, .f32⟩ : BufTy).Contents (Elt F) → (⟨S2097152x2, .f32⟩ : BufTy).Contents (Elt F)),
    unary main_v20 main_v112 ((extractStridedSlice S2097152x1 ![0, 1] · slices_S2097152x3_S2097152x1_0_1) : (⟨S2097152x3, .f32⟩ : BufTy).Contents (Elt F) → (⟨S2097152x1, .f32⟩ : BufTy).Contents (Elt F)),
    reshape main_v112 main_v113 rfl shapeCasts_S2097152x1_S2097152,
    unary main_v20 main_v114 ((extractStridedSlice S2097152x1 ![0, 2] · slices_S2097152x3_S2097152x1_0_2) : (⟨S2097152x3, .f32⟩ : BufTy).Contents (Elt F) → (⟨S2097152x1, .f32⟩ : BufTy).Contents (Elt F)),
    reshape main_v114 main_v115 rfl shapeCasts_S2097152x1_S2097152,
    nullary main_cst_29 (constant S_ .f32 0x3F800000#32),
    unary main_cst_29 main_v116 (broadcastInDim S2097152 ![] bcast_S_S2097152 : (⟨S_, .f32⟩ : BufTy).Contents (Elt F) → (⟨S2097152, .f32⟩ : BufTy).Contents (Elt F)),
    binary main_v116 main_v115 main_v117 (subf : (⟨S2097152, .f32⟩ : BufTy).Contents (Elt F) → (⟨S2097152, .f32⟩ : BufTy).Contents (Elt F) → (⟨S2097152, .f32⟩ : BufTy).Contents (Elt F)),
    unary main_v18 main_v118 ((extractStridedSlice S2097152x1 ![0, 0] · slices_S2097152x3_S2097152x1_0_0) : (⟨S2097152x3, .i32⟩ : BufTy).Contents (Elt F) → (⟨S2097152x1, .i32⟩ : BufTy).Contents (Elt F)),
    reshape main_v118 main_v119 rfl shapeCasts_S2097152x1_S2097152,
    nullary main_c_30 (constantI S_ 32 0#32),
    unary main_c_30 main_v120 (broadcastInDim S2097152 ![] bcast_S_S2097152 : (⟨S_, .i32⟩ : BufTy).Contents (Elt F) → (⟨S2097152, .i32⟩ : BufTy).Contents (Elt F)),
    binary main_v119 main_v120 main_v121 (addi : (⟨S2097152, .i32⟩ : BufTy).Contents (Elt F) → (⟨S2097152, .i32⟩ : BufTy).Contents (Elt F) → (⟨S2097152, .i32⟩ : BufTy).Contents (Elt F)),
    unary main_v18 main_v122 ((extractStridedSlice S2097152x1 ![0, 1] · slices_S2097152x3_S2097152x1_0_1) : (⟨S2097152x3, .i32⟩ : BufTy).Contents (Elt F) → (⟨S2097152x1, .i32⟩ : BufTy).Contents (Elt F)),
    reshape main_v122 main_v123 rfl shapeCasts_S2097152x1_S2097152,
    nullary main_c_31 (constantI S_ 32 1#32),
    unary main_c_31 main_v124 (broadcastInDim S2097152 ![] bcast_S_S2097152 : (⟨S_, .i32⟩ : BufTy).Contents (Elt F) → (⟨S2097152, .i32⟩ : BufTy).Contents (Elt F)),
    binary main_v123 main_v124 main_v125 (addi : (⟨S2097152, .i32⟩ : BufTy).Contents (Elt F) → (⟨S2097152, .i32⟩ : BufTy).Contents (Elt F) → (⟨S2097152, .i32⟩ : BufTy).Contents (Elt F)),
    unary main_v18 main_v126 ((extractStridedSlice S2097152x1 ![0, 2] · slices_S2097152x3_S2097152x1_0_2) : (⟨S2097152x3, .i32⟩ : BufTy).Contents (Elt F) → (⟨S2097152x1, .i32⟩ : BufTy).Contents (Elt F)),
    reshape main_v126 main_v127 rfl shapeCasts_S2097152x1_S2097152,
    nullary main_c_32 (constantI S_ 32 0#32),
    unary main_c_32 main_v128 (broadcastInDim S2097152 ![] bcast_S_S2097152 : (⟨S_, .i32⟩ : BufTy).Contents (Elt F) → (⟨S2097152, .i32⟩ : BufTy).Contents (Elt F)),
    binary main_v127 main_v128 main_v129 (addi : (⟨S2097152, .i32⟩ : BufTy).Contents (Elt F) → (⟨S2097152, .i32⟩ : BufTy).Contents (Elt F) → (⟨S2097152, .i32⟩ : BufTy).Contents (Elt F)),
    nullary main_c_33 (constantI S_ 32 0#32),
    unary main_c_33 main_v130 (broadcastInDim S2097152 ![] bcast_S_S2097152 : (⟨S_, .i32⟩ : BufTy).Contents (Elt F) → (⟨S2097152, .i32⟩ : BufTy).Contents (Elt F)),
    binary main_v121 main_v130 main_v131 (cmpi .slt : (⟨S2097152, .i32⟩ : BufTy).Contents (Elt F) → (⟨S2097152, .i32⟩ : BufTy).Contents (Elt F) → (⟨S2097152, .i1⟩ : BufTy).Contents (Elt F)),
    nullary main_c_34 (constantI S_ 32 256#32),
    unary main_c_34 main_v132 (broadcastInDim S2097152 ![] bcast_S_S2097152 : (⟨S_, .i32⟩ : BufTy).Contents (Elt F) → (⟨S2097152, .i32⟩ : BufTy).Contents (Elt F)),
    binary main_v121 main_v132 main_v133 (addi : (⟨S2097152, .i32⟩ : BufTy).Contents (Elt F) → (⟨S2097152, .i32⟩ : BufTy).Contents (Elt F) → (⟨S2097152, .i32⟩ : BufTy).Contents (Elt F)),
    ternary main_v131 main_v133 main_v121 main_v134 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_35 (constantI S_ 32 0#32),
    unary main_c_35 main_v135 (broadcastInDim S2097152 ![] bcast_S_S2097152 : (⟨S_, .i32⟩ : BufTy).Contents (Elt F) → (⟨S2097152, .i32⟩ : BufTy).Contents (Elt F)),
    binary main_v125 main_v135 main_v136 (cmpi .slt : (⟨S2097152, .i32⟩ : BufTy).Contents (Elt F) → (⟨S2097152, .i32⟩ : BufTy).Contents (Elt F) → (⟨S2097152, .i1⟩ : BufTy).Contents (Elt F)),
    nullary main_c_36 (constantI S_ 32 256#32),
    unary main_c_36 main_v137 (broadcastInDim S2097152 ![] bcast_S_S2097152 : (⟨S_, .i32⟩ : BufTy).Contents (Elt F) → (⟨S2097152, .i32⟩ : BufTy).Contents (Elt F)),
    binary main_v125 main_v137 main_v138 (addi : (⟨S2097152, .i32⟩ : BufTy).Contents (Elt F) → (⟨S2097152, .i32⟩ : BufTy).Contents (Elt F) → (⟨S2097152, .i32⟩ : BufTy).Contents (Elt F)),
    ternary main_v136 main_v138 main_v125 main_v139 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_37 (constantI S_ 32 0#32) ]

/-- Operations 186 … 245 of @main (`main_part3`), in order. -/
abbrev ops3 : List (HloOp τ sig (Elt F)) :=
  [ unary main_c_37 main_v140 (broadcastInDim S2097152 ![] bcast_S_S2097152 : (⟨S_, .i32⟩ : BufTy).Contents (Elt F) → (⟨S2097152, .i32⟩ : BufTy).Contents (Elt F)),
    binary main_v129 main_v140 main_v141 (cmpi .slt : (⟨S2097152, .i32⟩ : BufTy).Contents (Elt F) → (⟨S2097152, .i32⟩ : BufTy).Contents (Elt F) → (⟨S2097152, .i1⟩ : BufTy).Contents (Elt F)),
    nullary main_c_38 (constantI S_ 32 256#32),
    unary main_c_38 main_v142 (broadcastInDim S2097152 ![] bcast_S_S2097152 : (⟨S_, .i32⟩ : BufTy).Contents (Elt F) → (⟨S2097152, .i32⟩ : BufTy).Contents (Elt F)),
    binary main_v129 main_v142 main_v143 (addi : (⟨S2097152, .i32⟩ : BufTy).Contents (Elt F) → (⟨S2097152, .i32⟩ : BufTy).Contents (Elt F) → (⟨S2097152, .i32⟩ : BufTy).Contents (Elt F)),
    ternary main_v141 main_v143 main_v129 main_v144 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v134 main_v145 (broadcastInDim S2097152x1 ![0] bcast_S2097152_S2097152x1_0 : (⟨S2097152, .i32⟩ : BufTy).Contents (Elt F) → (⟨S2097152x1, .i32⟩ : BufTy).Contents (Elt F)),
    unary main_v139 main_v146 (broadcastInDim S2097152x1 ![0] bcast_S2097152_S2097152x1_0 : (⟨S2097152, .i32⟩ : BufTy).Contents (Elt F) → (⟨S2097152x1, .i32⟩ : BufTy).Contents (Elt F)),
    unary main_v144 main_v147 (broadcastInDim S2097152x1 ![0] bcast_S2097152_S2097152x1_0 : (⟨S2097152, .i32⟩ : BufTy).Contents (Elt F) → (⟨S2097152x1, .i32⟩ : BufTy).Contents (Elt F)),
    nary ![main_v145, main_v146, main_v147] main_v148 (fun u => concatenate S2097152x3 1 [⟨S2097152x1, u 0⟩, ⟨S2097152x1, u 1⟩, ⟨S2097152x1, u 2⟩] concatenates_S2097152x1_S2097152x1_S2097152x1_S2097152x3_d1),
    binary main_arg1 main_v148 main_v149 ((fun x i => Host.gather gather_S256x256x256x2_S2097152x3_S2097152x2_1_012_n_n_012_1_1112 x i) : (⟨S256x256x256x2, .f32⟩ : BufTy).Contents (Elt F) → (⟨S2097152x3, .i32⟩ : BufTy).Contents (Elt F) → (⟨S2097152x2, .f32⟩ : BufTy).Contents (Elt F)),
    binary main_v25 main_v113 main_v150 (mulf : (⟨S2097152, .f32⟩ : BufTy).Contents (Elt F) → (⟨S2097152, .f32⟩ : BufTy).Contents (Elt F) → (⟨S2097152, .f32⟩ : BufTy).Contents (Elt F)),
    binary main_v150 main_v117 main_v151 (mulf : (⟨S2097152, .f32⟩ : BufTy).Contents (Elt F) → (⟨S2097152, .f32⟩ : BufTy).Contents (Elt F) → (⟨S2097152, .f32⟩ : BufTy).Contents (Elt F)),
    unary main_v151 main_v152 (broadcastInDim S2097152x1 ![0] bcast_S2097152_S2097152x1_0 : (⟨S2097152, .f32⟩ : BufTy).Contents (Elt F) → (⟨S2097152x1, .f32⟩ : BufTy).Contents (Elt F)),
    unary main_v152 main_v153 (broadcastInDim S2097152x2 ![0, 1] bcast_S2097152x1_S2097152x2_0_1 : (⟨S2097152x1, .f32⟩ : BufTy).Contents (Elt F) → (⟨S2097152x2, .f32⟩ : BufTy).Contents (Elt F)),
    binary main_v153 main_v149 main_v154 (mulf : (⟨S2097152x2, .f32⟩ : BufTy).Contents (Elt F) → (⟨S2097152x2, .f32⟩ : BufTy).Contents (Elt F) → (⟨S2097152x2, .f32⟩ : BufTy).Contents (Elt F)),
    binary main_v111 main_v154 main_v155 (addf : (⟨S2097152x2, .f32⟩ : BufTy).Contents (Elt F) → (⟨S2097152x2, .f32⟩ : BufTy).Contents (Elt F) → (⟨S2097152x2, .f32⟩ : BufTy).Contents (Elt F)),
    unary main_v20 main_v156 ((extractStridedSlice S2097152x1 ![0, 2] · slices_S2097152x3_S2097152x1_0_2) : (⟨S2097152x3, .f32⟩ : BufTy).Contents (Elt F) → (⟨S2097152x1, .f32⟩ : BufTy).Contents (Elt F)),
    reshape main_v156 main_v157 rfl shapeCasts_S2097152x1_S2097152,
    unary main_v18 main_v158 ((extractStridedSlice S2097152x1 ![0, 0] · slices_S2097152x3_S2097152x1_0_0) : (⟨S2097152x3, .i32⟩ : BufTy).Contents (Elt F) → (⟨S2097152x1, .i32⟩ : BufTy).Contents (Elt F)),
    reshape main_v158 main_v159 rfl shapeCasts_S2097152x1_S2097152,
    nullary main_c_39 (constantI S_ 32 0#32),
    unary main_c_39 main_v160 (broadcastInDim S2097152 ![] bcast_S_S2097152 : (⟨S_, .i32⟩ : BufTy).Contents (Elt F) → (⟨S2097152, .i32⟩ : BufTy).Contents (Elt F)),
    binary main_v159 main_v160 main_v161 (addi : (⟨S2097152, .i32⟩ : BufTy).Contents (Elt F) → (⟨S2097152, .i32⟩ : BufTy).Contents (Elt F) → (⟨S2097152, .i32⟩ : BufTy).Contents (Elt F)),
    unary main_v18 main_v162 ((extractStridedSlice S2097152x1 ![0, 1] · slices_S2097152x3_S2097152x1_0_1) : (⟨S2097152x3, .i32⟩ : BufTy).Contents (Elt F) → (⟨S2097152x1, .i32⟩ : BufTy).Contents (Elt F)),
    reshape main_v162 main_v163 rfl shapeCasts_S2097152x1_S2097152,
    nullary main_c_40 (constantI S_ 32 1#32),
    unary main_c_40 main_v164 (broadcastInDim S2097152 ![] bcast_S_S2097152 : (⟨S_, .i32⟩ : BufTy).Contents (Elt F) → (⟨S2097152, .i32⟩ : BufTy).Contents (Elt F)),
    binary main_v163 main_v164 main_v165 (addi : (⟨S2097152, .i32⟩ : BufTy).Contents (Elt F) → (⟨S2097152, .i32⟩ : BufTy).Contents (Elt F) → (⟨S2097152, .i32⟩ : BufTy).Contents (Elt F)),
    unary main_v18 main_v166 ((extractStridedSlice S2097152x1 ![0, 2] · slices_S2097152x3_S2097152x1_0_2) : (⟨S2097152x3, .i32⟩ : BufTy).Contents (Elt F) → (⟨S2097152x1, .i32⟩ : BufTy).Contents (Elt F)),
    reshape main_v166 main_v167 rfl shapeCasts_S2097152x1_S2097152,
    nullary main_c_41 (constantI S_ 32 1#32),
    unary main_c_41 main_v168 (broadcastInDim S2097152 ![] bcast_S_S2097152 : (⟨S_, .i32⟩ : BufTy).Contents (Elt F) → (⟨S2097152, .i32⟩ : BufTy).Contents (Elt F)),
    binary main_v167 main_v168 main_v169 (addi : (⟨S2097152, .i32⟩ : BufTy).Contents (Elt F) → (⟨S2097152, .i32⟩ : BufTy).Contents (Elt F) → (⟨S2097152, .i32⟩ : BufTy).Contents (Elt F)),
    nullary main_c_42 (constantI S_ 32 0#32),
    unary main_c_42 main_v170 (broadcastInDim S2097152 ![] bcast_S_S2097152 : (⟨S_, .i32⟩ : BufTy).Contents (Elt F) → (⟨S2097152, .i32⟩ : BufTy).Contents (Elt F)),
    binary main_v161 main_v170 main_v171 (cmpi .slt : (⟨S2097152, .i32⟩ : BufTy).Contents (Elt F) → (⟨S2097152, .i32⟩ : BufTy).Contents (Elt F) → (⟨S2097152, .i1⟩ : BufTy).Contents (Elt F)),
    nullary main_c_43 (constantI S_ 32 256#32),
    unary main_c_43 main_v172 (broadcastInDim S2097152 ![] bcast_S_S2097152 : (⟨S_, .i32⟩ : BufTy).Contents (Elt F) → (⟨S2097152, .i32⟩ : BufTy).Contents (Elt F)),
    binary main_v161 main_v172 main_v173 (addi : (⟨S2097152, .i32⟩ : BufTy).Contents (Elt F) → (⟨S2097152, .i32⟩ : BufTy).Contents (Elt F) → (⟨S2097152, .i32⟩ : BufTy).Contents (Elt F)),
    ternary main_v171 main_v173 main_v161 main_v174 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_44 (constantI S_ 32 0#32),
    unary main_c_44 main_v175 (broadcastInDim S2097152 ![] bcast_S_S2097152 : (⟨S_, .i32⟩ : BufTy).Contents (Elt F) → (⟨S2097152, .i32⟩ : BufTy).Contents (Elt F)),
    binary main_v165 main_v175 main_v176 (cmpi .slt : (⟨S2097152, .i32⟩ : BufTy).Contents (Elt F) → (⟨S2097152, .i32⟩ : BufTy).Contents (Elt F) → (⟨S2097152, .i1⟩ : BufTy).Contents (Elt F)),
    nullary main_c_45 (constantI S_ 32 256#32),
    unary main_c_45 main_v177 (broadcastInDim S2097152 ![] bcast_S_S2097152 : (⟨S_, .i32⟩ : BufTy).Contents (Elt F) → (⟨S2097152, .i32⟩ : BufTy).Contents (Elt F)),
    binary main_v165 main_v177 main_v178 (addi : (⟨S2097152, .i32⟩ : BufTy).Contents (Elt F) → (⟨S2097152, .i32⟩ : BufTy).Contents (Elt F) → (⟨S2097152, .i32⟩ : BufTy).Contents (Elt F)),
    ternary main_v176 main_v178 main_v165 main_v179 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_46 (constantI S_ 32 0#32),
    unary main_c_46 main_v180 (broadcastInDim S2097152 ![] bcast_S_S2097152 : (⟨S_, .i32⟩ : BufTy).Contents (Elt F) → (⟨S2097152, .i32⟩ : BufTy).Contents (Elt F)),
    binary main_v169 main_v180 main_v181 (cmpi .slt : (⟨S2097152, .i32⟩ : BufTy).Contents (Elt F) → (⟨S2097152, .i32⟩ : BufTy).Contents (Elt F) → (⟨S2097152, .i1⟩ : BufTy).Contents (Elt F)),
    nullary main_c_47 (constantI S_ 32 256#32),
    unary main_c_47 main_v182 (broadcastInDim S2097152 ![] bcast_S_S2097152 : (⟨S_, .i32⟩ : BufTy).Contents (Elt F) → (⟨S2097152, .i32⟩ : BufTy).Contents (Elt F)),
    binary main_v169 main_v182 main_v183 (addi : (⟨S2097152, .i32⟩ : BufTy).Contents (Elt F) → (⟨S2097152, .i32⟩ : BufTy).Contents (Elt F) → (⟨S2097152, .i32⟩ : BufTy).Contents (Elt F)),
    ternary main_v181 main_v183 main_v169 main_v184 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v174 main_v185 (broadcastInDim S2097152x1 ![0] bcast_S2097152_S2097152x1_0 : (⟨S2097152, .i32⟩ : BufTy).Contents (Elt F) → (⟨S2097152x1, .i32⟩ : BufTy).Contents (Elt F)),
    unary main_v179 main_v186 (broadcastInDim S2097152x1 ![0] bcast_S2097152_S2097152x1_0 : (⟨S2097152, .i32⟩ : BufTy).Contents (Elt F) → (⟨S2097152x1, .i32⟩ : BufTy).Contents (Elt F)),
    unary main_v184 main_v187 (broadcastInDim S2097152x1 ![0] bcast_S2097152_S2097152x1_0 : (⟨S2097152, .i32⟩ : BufTy).Contents (Elt F) → (⟨S2097152x1, .i32⟩ : BufTy).Contents (Elt F)),
    nary ![main_v185, main_v186, main_v187] main_v188 (fun u => concatenate S2097152x3 1 [⟨S2097152x1, u 0⟩, ⟨S2097152x1, u 1⟩, ⟨S2097152x1, u 2⟩] concatenates_S2097152x1_S2097152x1_S2097152x1_S2097152x3_d1),
    binary main_arg1 main_v188 main_v189 ((fun x i => Host.gather gather_S256x256x256x2_S2097152x3_S2097152x2_1_012_n_n_012_1_1112 x i) : (⟨S256x256x256x2, .f32⟩ : BufTy).Contents (Elt F) → (⟨S2097152x3, .i32⟩ : BufTy).Contents (Elt F) → (⟨S2097152x2, .f32⟩ : BufTy).Contents (Elt F)) ]

/-- Operations 246 … 305 of @main (`main_part4`), in order. -/
abbrev ops4 : List (HloOp τ sig (Elt F)) :=
  [ binary main_v25 main_v113 main_v190 (mulf : (⟨S2097152, .f32⟩ : BufTy).Contents (Elt F) → (⟨S2097152, .f32⟩ : BufTy).Contents (Elt F) → (⟨S2097152, .f32⟩ : BufTy).Contents (Elt F)),
    binary main_v190 main_v157 main_v191 (mulf : (⟨S2097152, .f32⟩ : BufTy).Contents (Elt F) → (⟨S2097152, .f32⟩ : BufTy).Contents (Elt F) → (⟨S2097152, .f32⟩ : BufTy).Contents (Elt F)),
    unary main_v191 main_v192 (broadcastInDim S2097152x1 ![0] bcast_S2097152_S2097152x1_0 : (⟨S2097152, .f32⟩ : BufTy).Contents (Elt F) → (⟨S2097152x1, .f32⟩ : BufTy).Contents (Elt F)),
    unary main_v192 main_v193 (broadcastInDim S2097152x2 ![0, 1] bcast_S2097152x1_S2097152x2_0_1 : (⟨S2097152x1, .f32⟩ : BufTy).Contents (Elt F) → (⟨S2097152x2, .f32⟩ : BufTy).Contents (Elt F)),
    binary main_v193 main_v189 main_v194 (mulf : (⟨S2097152x2, .f32⟩ : BufTy).Contents (Elt F) → (⟨S2097152x2, .f32⟩ : BufTy).Contents (Elt F) → (⟨S2097152x2, .f32⟩ : BufTy).Contents (Elt F)),
    binary main_v155 main_v194 main_v195 (addf : (⟨S2097152x2, .f32⟩ : BufTy).Contents (Elt F) → (⟨S2097152x2, .f32⟩ : BufTy).Contents (Elt F) → (⟨S2097152x2, .f32⟩ : BufTy).Contents (Elt F)),
    unary main_v20 main_v196 ((extractStridedSlice S2097152x1 ![0, 0] · slices_S2097152x3_S2097152x1_0_0) : (⟨S2097152x3, .f32⟩ : BufTy).Contents (Elt F) → (⟨S2097152x1, .f32⟩ : BufTy).Contents (Elt F)),
    reshape main_v196 main_v197 rfl shapeCasts_S2097152x1_S2097152,
    unary main_v20 main_v198 ((extractStridedSlice S2097152x1 ![0, 1] · slices_S2097152x3_S2097152x1_0_1) : (⟨S2097152x3, .f32⟩ : BufTy).Contents (Elt F) → (⟨S2097152x1, .f32⟩ : BufTy).Contents (Elt F)),
    reshape main_v198 main_v199 rfl shapeCasts_S2097152x1_S2097152,
    nullary main_cst_48 (constant S_ .f32 0x3F800000#32),
    unary main_cst_48 main_v200 (broadcastInDim S2097152 ![] bcast_S_S2097152 : (⟨S_, .f32⟩ : BufTy).Contents (Elt F) → (⟨S2097152, .f32⟩ : BufTy).Contents (Elt F)),
    binary main_v200 main_v199 main_v201 (subf : (⟨S2097152, .f32⟩ : BufTy).Contents (Elt F) → (⟨S2097152, .f32⟩ : BufTy).Contents (Elt F) → (⟨S2097152, .f32⟩ : BufTy).Contents (Elt F)),
    unary main_v20 main_v202 ((extractStridedSlice S2097152x1 ![0, 2] · slices_S2097152x3_S2097152x1_0_2) : (⟨S2097152x3, .f32⟩ : BufTy).Contents (Elt F) → (⟨S2097152x1, .f32⟩ : BufTy).Contents (Elt F)),
    reshape main_v202 main_v203 rfl shapeCasts_S2097152x1_S2097152,
    nullary main_cst_49 (constant S_ .f32 0x3F800000#32),
    unary main_cst_49 main_v204 (broadcastInDim S2097152 ![] bcast_S_S2097152 : (⟨S_, .f32⟩ : BufTy).Contents (Elt F) → (⟨S2097152, .f32⟩ : BufTy).Contents (Elt F)),
    binary main_v204 main_v203 main_v205 (subf : (⟨S2097152, .f32⟩ : BufTy).Contents (Elt F) → (⟨S2097152, .f32⟩ : BufTy).Contents (Elt F) → (⟨S2097152, .f32⟩ : BufTy).Contents (Elt F)),
    unary main_v18 main_v206 ((extractStridedSlice S2097152x1 ![0, 0] · slices_S2097152x3_S2097152x1_0_0) : (⟨S2097152x3, .i32⟩ : BufTy).Contents (Elt F) → (⟨S2097152x1, .i32⟩ : BufTy).Contents (Elt F)),
    reshape main_v206 main_v207 rfl shapeCasts_S2097152x1_S2097152,
    nullary main_c_50 (constantI S_ 32 1#32),
    unary main_c_50 main_v208 (broadcastInDim S2097152 ![] bcast_S_S2097152 : (⟨S_, .i32⟩ : BufTy).Contents (Elt F) → (⟨S2097152, .i32⟩ : BufTy).Contents (Elt F)),
    binary main_v207 main_v208 main_v209 (addi : (⟨S2097152, .i32⟩ : BufTy).Contents (Elt F) → (⟨S2097152, .i32⟩ : BufTy).Contents (Elt F) → (⟨S2097152, .i32⟩ : BufTy).Contents (Elt F)),
    unary main_v18 main_v210 ((extractStridedSlice S2097152x1 ![0, 1] · slices_S2097152x3_S2097152x1_0_1) : (⟨S2097152x3, .i32⟩ : BufTy).Contents (Elt F) → (⟨S2097152x1, .i32⟩ : BufTy).Contents (Elt F)),
    reshape main_v210 main_v211 rfl shapeCasts_S2097152x1_S2097152,
    nullary main_c_51 (constantI S_ 32 0#32),
    unary main_c_51 main_v212 (broadcastInDim S2097152 ![] bcast_S_S2097152 : (⟨S_, .i32⟩ : BufTy).Contents (Elt F) → (⟨S2097152, .i32⟩ : BufTy).Contents (Elt F)),
    binary main_v211 main_v212 main_v213 (addi : (⟨S2097152, .i32⟩ : BufTy).Contents (Elt F) → (⟨S2097152, .i32⟩ : BufTy).Contents (Elt F) → (⟨S2097152, .i32⟩ : BufTy).Contents (Elt F)),
    unary main_v18 main_v214 ((extractStridedSlice S2097152x1 ![0, 2] · slices_S2097152x3_S2097152x1_0_2) : (⟨S2097152x3, .i32⟩ : BufTy).Contents (Elt F) → (⟨S2097152x1, .i32⟩ : BufTy).Contents (Elt F)),
    reshape main_v214 main_v215 rfl shapeCasts_S2097152x1_S2097152,
    nullary main_c_52 (constantI S_ 32 0#32),
    unary main_c_52 main_v216 (broadcastInDim S2097152 ![] bcast_S_S2097152 : (⟨S_, .i32⟩ : BufTy).Contents (Elt F) → (⟨S2097152, .i32⟩ : BufTy).Contents (Elt F)),
    binary main_v215 main_v216 main_v217 (addi : (⟨S2097152, .i32⟩ : BufTy).Contents (Elt F) → (⟨S2097152, .i32⟩ : BufTy).Contents (Elt F) → (⟨S2097152, .i32⟩ : BufTy).Contents (Elt F)),
    nullary main_c_53 (constantI S_ 32 0#32),
    unary main_c_53 main_v218 (broadcastInDim S2097152 ![] bcast_S_S2097152 : (⟨S_, .i32⟩ : BufTy).Contents (Elt F) → (⟨S2097152, .i32⟩ : BufTy).Contents (Elt F)),
    binary main_v209 main_v218 main_v219 (cmpi .slt : (⟨S2097152, .i32⟩ : BufTy).Contents (Elt F) → (⟨S2097152, .i32⟩ : BufTy).Contents (Elt F) → (⟨S2097152, .i1⟩ : BufTy).Contents (Elt F)),
    nullary main_c_54 (constantI S_ 32 256#32),
    unary main_c_54 main_v220 (broadcastInDim S2097152 ![] bcast_S_S2097152 : (⟨S_, .i32⟩ : BufTy).Contents (Elt F) → (⟨S2097152, .i32⟩ : BufTy).Contents (Elt F)),
    binary main_v209 main_v220 main_v221 (addi : (⟨S2097152, .i32⟩ : BufTy).Contents (Elt F) → (⟨S2097152, .i32⟩ : BufTy).Contents (Elt F) → (⟨S2097152, .i32⟩ : BufTy).Contents (Elt F)),
    ternary main_v219 main_v221 main_v209 main_v222 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_55 (constantI S_ 32 0#32),
    unary main_c_55 main_v223 (broadcastInDim S2097152 ![] bcast_S_S2097152 : (⟨S_, .i32⟩ : BufTy).Contents (Elt F) → (⟨S2097152, .i32⟩ : BufTy).Contents (Elt F)),
    binary main_v213 main_v223 main_v224 (cmpi .slt : (⟨S2097152, .i32⟩ : BufTy).Contents (Elt F) → (⟨S2097152, .i32⟩ : BufTy).Contents (Elt F) → (⟨S2097152, .i1⟩ : BufTy).Contents (Elt F)),
    nullary main_c_56 (constantI S_ 32 256#32),
    unary main_c_56 main_v225 (broadcastInDim S2097152 ![] bcast_S_S2097152 : (⟨S_, .i32⟩ : BufTy).Contents (Elt F) → (⟨S2097152, .i32⟩ : BufTy).Contents (Elt F)),
    binary main_v213 main_v225 main_v226 (addi : (⟨S2097152, .i32⟩ : BufTy).Contents (Elt F) → (⟨S2097152, .i32⟩ : BufTy).Contents (Elt F) → (⟨S2097152, .i32⟩ : BufTy).Contents (Elt F)),
    ternary main_v224 main_v226 main_v213 main_v227 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_57 (constantI S_ 32 0#32),
    unary main_c_57 main_v228 (broadcastInDim S2097152 ![] bcast_S_S2097152 : (⟨S_, .i32⟩ : BufTy).Contents (Elt F) → (⟨S2097152, .i32⟩ : BufTy).Contents (Elt F)),
    binary main_v217 main_v228 main_v229 (cmpi .slt : (⟨S2097152, .i32⟩ : BufTy).Contents (Elt F) → (⟨S2097152, .i32⟩ : BufTy).Contents (Elt F) → (⟨S2097152, .i1⟩ : BufTy).Contents (Elt F)),
    nullary main_c_58 (constantI S_ 32 256#32),
    unary main_c_58 main_v230 (broadcastInDim S2097152 ![] bcast_S_S2097152 : (⟨S_, .i32⟩ : BufTy).Contents (Elt F) → (⟨S2097152, .i32⟩ : BufTy).Contents (Elt F)),
    binary main_v217 main_v230 main_v231 (addi : (⟨S2097152, .i32⟩ : BufTy).Contents (Elt F) → (⟨S2097152, .i32⟩ : BufTy).Contents (Elt F) → (⟨S2097152, .i32⟩ : BufTy).Contents (Elt F)),
    ternary main_v229 main_v231 main_v217 main_v232 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v222 main_v233 (broadcastInDim S2097152x1 ![0] bcast_S2097152_S2097152x1_0 : (⟨S2097152, .i32⟩ : BufTy).Contents (Elt F) → (⟨S2097152x1, .i32⟩ : BufTy).Contents (Elt F)),
    unary main_v227 main_v234 (broadcastInDim S2097152x1 ![0] bcast_S2097152_S2097152x1_0 : (⟨S2097152, .i32⟩ : BufTy).Contents (Elt F) → (⟨S2097152x1, .i32⟩ : BufTy).Contents (Elt F)),
    unary main_v232 main_v235 (broadcastInDim S2097152x1 ![0] bcast_S2097152_S2097152x1_0 : (⟨S2097152, .i32⟩ : BufTy).Contents (Elt F) → (⟨S2097152x1, .i32⟩ : BufTy).Contents (Elt F)),
    nary ![main_v233, main_v234, main_v235] main_v236 (fun u => concatenate S2097152x3 1 [⟨S2097152x1, u 0⟩, ⟨S2097152x1, u 1⟩, ⟨S2097152x1, u 2⟩] concatenates_S2097152x1_S2097152x1_S2097152x1_S2097152x3_d1),
    binary main_arg1 main_v236 main_v237 ((fun x i => Host.gather gather_S256x256x256x2_S2097152x3_S2097152x2_1_012_n_n_012_1_1112 x i) : (⟨S256x256x256x2, .f32⟩ : BufTy).Contents (Elt F) → (⟨S2097152x3, .i32⟩ : BufTy).Contents (Elt F) → (⟨S2097152x2, .f32⟩ : BufTy).Contents (Elt F)),
    binary main_v197 main_v201 main_v238 (mulf : (⟨S2097152, .f32⟩ : BufTy).Contents (Elt F) → (⟨S2097152, .f32⟩ : BufTy).Contents (Elt F) → (⟨S2097152, .f32⟩ : BufTy).Contents (Elt F)) ]

/-- Operations 306 … 365 of @main (`main_part5`), in order. -/
abbrev ops5 : List (HloOp τ sig (Elt F)) :=
  [ binary main_v238 main_v205 main_v239 (mulf : (⟨S2097152, .f32⟩ : BufTy).Contents (Elt F) → (⟨S2097152, .f32⟩ : BufTy).Contents (Elt F) → (⟨S2097152, .f32⟩ : BufTy).Contents (Elt F)),
    unary main_v239 main_v240 (broadcastInDim S2097152x1 ![0] bcast_S2097152_S2097152x1_0 : (⟨S2097152, .f32⟩ : BufTy).Contents (Elt F) → (⟨S2097152x1, .f32⟩ : BufTy).Contents (Elt F)),
    unary main_v240 main_v241 (broadcastInDim S2097152x2 ![0, 1] bcast_S2097152x1_S2097152x2_0_1 : (⟨S2097152x1, .f32⟩ : BufTy).Contents (Elt F) → (⟨S2097152x2, .f32⟩ : BufTy).Contents (Elt F)),
    binary main_v241 main_v237 main_v242 (mulf : (⟨S2097152x2, .f32⟩ : BufTy).Contents (Elt F) → (⟨S2097152x2, .f32⟩ : BufTy).Contents (Elt F) → (⟨S2097152x2, .f32⟩ : BufTy).Contents (Elt F)),
    binary main_v195 main_v242 main_v243 (addf : (⟨S2097152x2, .f32⟩ : BufTy).Contents (Elt F) → (⟨S2097152x2, .f32⟩ : BufTy).Contents (Elt F) → (⟨S2097152x2, .f32⟩ : BufTy).Contents (Elt F)),
    unary main_v20 main_v244 ((extractStridedSlice S2097152x1 ![0, 2] · slices_S2097152x3_S2097152x1_0_2) : (⟨S2097152x3, .f32⟩ : BufTy).Contents (Elt F) → (⟨S2097152x1, .f32⟩ : BufTy).Contents (Elt F)),
    reshape main_v244 main_v245 rfl shapeCasts_S2097152x1_S2097152,
    unary main_v18 main_v246 ((extractStridedSlice S2097152x1 ![0, 0] · slices_S2097152x3_S2097152x1_0_0) : (⟨S2097152x3, .i32⟩ : BufTy).Contents (Elt F) → (⟨S2097152x1, .i32⟩ : BufTy).Contents (Elt F)),
    reshape main_v246 main_v247 rfl shapeCasts_S2097152x1_S2097152,
    nullary main_c_59 (constantI S_ 32 1#32),
    unary main_c_59 main_v248 (broadcastInDim S2097152 ![] bcast_S_S2097152 : (⟨S_, .i32⟩ : BufTy).Contents (Elt F) → (⟨S2097152, .i32⟩ : BufTy).Contents (Elt F)),
    binary main_v247 main_v248 main_v249 (addi : (⟨S2097152, .i32⟩ : BufTy).Contents (Elt F) → (⟨S2097152, .i32⟩ : BufTy).Contents (Elt F) → (⟨S2097152, .i32⟩ : BufTy).Contents (Elt F)),
    unary main_v18 main_v250 ((extractStridedSlice S2097152x1 ![0, 1] · slices_S2097152x3_S2097152x1_0_1) : (⟨S2097152x3, .i32⟩ : BufTy).Contents (Elt F) → (⟨S2097152x1, .i32⟩ : BufTy).Contents (Elt F)),
    reshape main_v250 main_v251 rfl shapeCasts_S2097152x1_S2097152,
    nullary main_c_60 (constantI S_ 32 0#32),
    unary main_c_60 main_v252 (broadcastInDim S2097152 ![] bcast_S_S2097152 : (⟨S_, .i32⟩ : BufTy).Contents (Elt F) → (⟨S2097152, .i32⟩ : BufTy).Contents (Elt F)),
    binary main_v251 main_v252 main_v253 (addi : (⟨S2097152, .i32⟩ : BufTy).Contents (Elt F) → (⟨S2097152, .i32⟩ : BufTy).Contents (Elt F) → (⟨S2097152, .i32⟩ : BufTy).Contents (Elt F)),
    unary main_v18 main_v254 ((extractStridedSlice S2097152x1 ![0, 2] · slices_S2097152x3_S2097152x1_0_2) : (⟨S2097152x3, .i32⟩ : BufTy).Contents (Elt F) → (⟨S2097152x1, .i32⟩ : BufTy).Contents (Elt F)),
    reshape main_v254 main_v255 rfl shapeCasts_S2097152x1_S2097152,
    nullary main_c_61 (constantI S_ 32 1#32),
    unary main_c_61 main_v256 (broadcastInDim S2097152 ![] bcast_S_S2097152 : (⟨S_, .i32⟩ : BufTy).Contents (Elt F) → (⟨S2097152, .i32⟩ : BufTy).Contents (Elt F)),
    binary main_v255 main_v256 main_v257 (addi : (⟨S2097152, .i32⟩ : BufTy).Contents (Elt F) → (⟨S2097152, .i32⟩ : BufTy).Contents (Elt F) → (⟨S2097152, .i32⟩ : BufTy).Contents (Elt F)),
    nullary main_c_62 (constantI S_ 32 0#32),
    unary main_c_62 main_v258 (broadcastInDim S2097152 ![] bcast_S_S2097152 : (⟨S_, .i32⟩ : BufTy).Contents (Elt F) → (⟨S2097152, .i32⟩ : BufTy).Contents (Elt F)),
    binary main_v249 main_v258 main_v259 (cmpi .slt : (⟨S2097152, .i32⟩ : BufTy).Contents (Elt F) → (⟨S2097152, .i32⟩ : BufTy).Contents (Elt F) → (⟨S2097152, .i1⟩ : BufTy).Contents (Elt F)),
    nullary main_c_63 (constantI S_ 32 256#32),
    unary main_c_63 main_v260 (broadcastInDim S2097152 ![] bcast_S_S2097152 : (⟨S_, .i32⟩ : BufTy).Contents (Elt F) → (⟨S2097152, .i32⟩ : BufTy).Contents (Elt F)),
    binary main_v249 main_v260 main_v261 (addi : (⟨S2097152, .i32⟩ : BufTy).Contents (Elt F) → (⟨S2097152, .i32⟩ : BufTy).Contents (Elt F) → (⟨S2097152, .i32⟩ : BufTy).Contents (Elt F)),
    ternary main_v259 main_v261 main_v249 main_v262 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_64 (constantI S_ 32 0#32),
    unary main_c_64 main_v263 (broadcastInDim S2097152 ![] bcast_S_S2097152 : (⟨S_, .i32⟩ : BufTy).Contents (Elt F) → (⟨S2097152, .i32⟩ : BufTy).Contents (Elt F)),
    binary main_v253 main_v263 main_v264 (cmpi .slt : (⟨S2097152, .i32⟩ : BufTy).Contents (Elt F) → (⟨S2097152, .i32⟩ : BufTy).Contents (Elt F) → (⟨S2097152, .i1⟩ : BufTy).Contents (Elt F)),
    nullary main_c_65 (constantI S_ 32 256#32),
    unary main_c_65 main_v265 (broadcastInDim S2097152 ![] bcast_S_S2097152 : (⟨S_, .i32⟩ : BufTy).Contents (Elt F) → (⟨S2097152, .i32⟩ : BufTy).Contents (Elt F)),
    binary main_v253 main_v265 main_v266 (addi : (⟨S2097152, .i32⟩ : BufTy).Contents (Elt F) → (⟨S2097152, .i32⟩ : BufTy).Contents (Elt F) → (⟨S2097152, .i32⟩ : BufTy).Contents (Elt F)),
    ternary main_v264 main_v266 main_v253 main_v267 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_66 (constantI S_ 32 0#32),
    unary main_c_66 main_v268 (broadcastInDim S2097152 ![] bcast_S_S2097152 : (⟨S_, .i32⟩ : BufTy).Contents (Elt F) → (⟨S2097152, .i32⟩ : BufTy).Contents (Elt F)),
    binary main_v257 main_v268 main_v269 (cmpi .slt : (⟨S2097152, .i32⟩ : BufTy).Contents (Elt F) → (⟨S2097152, .i32⟩ : BufTy).Contents (Elt F) → (⟨S2097152, .i1⟩ : BufTy).Contents (Elt F)),
    nullary main_c_67 (constantI S_ 32 256#32),
    unary main_c_67 main_v270 (broadcastInDim S2097152 ![] bcast_S_S2097152 : (⟨S_, .i32⟩ : BufTy).Contents (Elt F) → (⟨S2097152, .i32⟩ : BufTy).Contents (Elt F)),
    binary main_v257 main_v270 main_v271 (addi : (⟨S2097152, .i32⟩ : BufTy).Contents (Elt F) → (⟨S2097152, .i32⟩ : BufTy).Contents (Elt F) → (⟨S2097152, .i32⟩ : BufTy).Contents (Elt F)),
    ternary main_v269 main_v271 main_v257 main_v272 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v262 main_v273 (broadcastInDim S2097152x1 ![0] bcast_S2097152_S2097152x1_0 : (⟨S2097152, .i32⟩ : BufTy).Contents (Elt F) → (⟨S2097152x1, .i32⟩ : BufTy).Contents (Elt F)),
    unary main_v267 main_v274 (broadcastInDim S2097152x1 ![0] bcast_S2097152_S2097152x1_0 : (⟨S2097152, .i32⟩ : BufTy).Contents (Elt F) → (⟨S2097152x1, .i32⟩ : BufTy).Contents (Elt F)),
    unary main_v272 main_v275 (broadcastInDim S2097152x1 ![0] bcast_S2097152_S2097152x1_0 : (⟨S2097152, .i32⟩ : BufTy).Contents (Elt F) → (⟨S2097152x1, .i32⟩ : BufTy).Contents (Elt F)),
    nary ![main_v273, main_v274, main_v275] main_v276 (fun u => concatenate S2097152x3 1 [⟨S2097152x1, u 0⟩, ⟨S2097152x1, u 1⟩, ⟨S2097152x1, u 2⟩] concatenates_S2097152x1_S2097152x1_S2097152x1_S2097152x3_d1),
    binary main_arg1 main_v276 main_v277 ((fun x i => Host.gather gather_S256x256x256x2_S2097152x3_S2097152x2_1_012_n_n_012_1_1112 x i) : (⟨S256x256x256x2, .f32⟩ : BufTy).Contents (Elt F) → (⟨S2097152x3, .i32⟩ : BufTy).Contents (Elt F) → (⟨S2097152x2, .f32⟩ : BufTy).Contents (Elt F)),
    binary main_v197 main_v201 main_v278 (mulf : (⟨S2097152, .f32⟩ : BufTy).Contents (Elt F) → (⟨S2097152, .f32⟩ : BufTy).Contents (Elt F) → (⟨S2097152, .f32⟩ : BufTy).Contents (Elt F)),
    binary main_v278 main_v245 main_v279 (mulf : (⟨S2097152, .f32⟩ : BufTy).Contents (Elt F) → (⟨S2097152, .f32⟩ : BufTy).Contents (Elt F) → (⟨S2097152, .f32⟩ : BufTy).Contents (Elt F)),
    unary main_v279 main_v280 (broadcastInDim S2097152x1 ![0] bcast_S2097152_S2097152x1_0 : (⟨S2097152, .f32⟩ : BufTy).Contents (Elt F) → (⟨S2097152x1, .f32⟩ : BufTy).Contents (Elt F)),
    unary main_v280 main_v281 (broadcastInDim S2097152x2 ![0, 1] bcast_S2097152x1_S2097152x2_0_1 : (⟨S2097152x1, .f32⟩ : BufTy).Contents (Elt F) → (⟨S2097152x2, .f32⟩ : BufTy).Contents (Elt F)),
    binary main_v281 main_v277 main_v282 (mulf : (⟨S2097152x2, .f32⟩ : BufTy).Contents (Elt F) → (⟨S2097152x2, .f32⟩ : BufTy).Contents (Elt F) → (⟨S2097152x2, .f32⟩ : BufTy).Contents (Elt F)),
    binary main_v243 main_v282 main_v283 (addf : (⟨S2097152x2, .f32⟩ : BufTy).Contents (Elt F) → (⟨S2097152x2, .f32⟩ : BufTy).Contents (Elt F) → (⟨S2097152x2, .f32⟩ : BufTy).Contents (Elt F)),
    unary main_v20 main_v284 ((extractStridedSlice S2097152x1 ![0, 1] · slices_S2097152x3_S2097152x1_0_1) : (⟨S2097152x3, .f32⟩ : BufTy).Contents (Elt F) → (⟨S2097152x1, .f32⟩ : BufTy).Contents (Elt F)),
    reshape main_v284 main_v285 rfl shapeCasts_S2097152x1_S2097152,
    unary main_v20 main_v286 ((extractStridedSlice S2097152x1 ![0, 2] · slices_S2097152x3_S2097152x1_0_2) : (⟨S2097152x3, .f32⟩ : BufTy).Contents (Elt F) → (⟨S2097152x1, .f32⟩ : BufTy).Contents (Elt F)),
    reshape main_v286 main_v287 rfl shapeCasts_S2097152x1_S2097152,
    nullary main_cst_68 (constant S_ .f32 0x3F800000#32),
    unary main_cst_68 main_v288 (broadcastInDim S2097152 ![] bcast_S_S2097152 : (⟨S_, .f32⟩ : BufTy).Contents (Elt F) → (⟨S2097152, .f32⟩ : BufTy).Contents (Elt F)) ]

/-- Operations 366 … 425 of @main (`main_part6`), in order. -/
abbrev ops6 : List (HloOp τ sig (Elt F)) :=
  [ binary main_v288 main_v287 main_v289 (subf : (⟨S2097152, .f32⟩ : BufTy).Contents (Elt F) → (⟨S2097152, .f32⟩ : BufTy).Contents (Elt F) → (⟨S2097152, .f32⟩ : BufTy).Contents (Elt F)),
    unary main_v18 main_v290 ((extractStridedSlice S2097152x1 ![0, 0] · slices_S2097152x3_S2097152x1_0_0) : (⟨S2097152x3, .i32⟩ : BufTy).Contents (Elt F) → (⟨S2097152x1, .i32⟩ : BufTy).Contents (Elt F)),
    reshape main_v290 main_v291 rfl shapeCasts_S2097152x1_S2097152,
    nullary main_c_69 (constantI S_ 32 1#32),
    unary main_c_69 main_v292 (broadcastInDim S2097152 ![] bcast_S_S2097152 : (⟨S_, .i32⟩ : BufTy).Contents (Elt F) → (⟨S2097152, .i32⟩ : BufTy).Contents (Elt F)),
    binary main_v291 main_v292 main_v293 (addi : (⟨S2097152, .i32⟩ : BufTy).Contents (Elt F) → (⟨S2097152, .i32⟩ : BufTy).Contents (Elt F) → (⟨S2097152, .i32⟩ : BufTy).Contents (Elt F)),
    unary main_v18 main_v294 ((extractStridedSlice S2097152x1 ![0, 1] · slices_S2097152x3_S2097152x1_0_1) : (⟨S2097152x3, .i32⟩ : BufTy).Contents (Elt F) → (⟨S2097152x1, .i32⟩ : BufTy).Contents (Elt F)),
    reshape main_v294 main_v295 rfl shapeCasts_S2097152x1_S2097152,
    nullary main_c_70 (constantI S_ 32 1#32),
    unary main_c_70 main_v296 (broadcastInDim S2097152 ![] bcast_S_S2097152 : (⟨S_, .i32⟩ : BufTy).Contents (Elt F) → (⟨S2097152, .i32⟩ : BufTy).Contents (Elt F)),
    binary main_v295 main_v296 main_v297 (addi : (⟨S2097152, .i32⟩ : BufTy).Contents (Elt F) → (⟨S2097152, .i32⟩ : BufTy).Contents (Elt F) → (⟨S2097152, .i32⟩ : BufTy).Contents (Elt F)),
    unary main_v18 main_v298 ((extractStridedSlice S2097152x1 ![0, 2] · slices_S2097152x3_S2097152x1_0_2) : (⟨S2097152x3, .i32⟩ : BufTy).Contents (Elt F) → (⟨S2097152x1, .i32⟩ : BufTy).Contents (Elt F)),
    reshape main_v298 main_v299 rfl shapeCasts_S2097152x1_S2097152,
    nullary main_c_71 (constantI S_ 32 0#32),
    unary main_c_71 main_v300 (broadcastInDim S2097152 ![] bcast_S_S2097152 : (⟨S_, .i32⟩ : BufTy).Contents (Elt F) → (⟨S2097152, .i32⟩ : BufTy).Contents (Elt F)),
    binary main_v299 main_v300 main_v301 (addi : (⟨S2097152, .i32⟩ : BufTy).Contents (Elt F) → (⟨S2097152, .i32⟩ : BufTy).Contents (Elt F) → (⟨S2097152, .i32⟩ : BufTy).Contents (Elt F)),
    nullary main_c_72 (constantI S_ 32 0#32),
    unary main_c_72 main_v302 (broadcastInDim S2097152 ![] bcast_S_S2097152 : (⟨S_, .i32⟩ : BufTy).Contents (Elt F) → (⟨S2097152, .i32⟩ : BufTy).Contents (Elt F)),
    binary main_v293 main_v302 main_v303 (cmpi .slt : (⟨S2097152, .i32⟩ : BufTy).Contents (Elt F) → (⟨S2097152, .i32⟩ : BufTy).Contents (Elt F) → (⟨S2097152, .i1⟩ : BufTy).Contents (Elt F)),
    nullary main_c_73 (constantI S_ 32 256#32),
    unary main_c_73 main_v304 (broadcastInDim S2097152 ![] bcast_S_S2097152 : (⟨S_, .i32⟩ : BufTy).Contents (Elt F) → (⟨S2097152, .i32⟩ : BufTy).Contents (Elt F)),
    binary main_v293 main_v304 main_v305 (addi : (⟨S2097152, .i32⟩ : BufTy).Contents (Elt F) → (⟨S2097152, .i32⟩ : BufTy).Contents (Elt F) → (⟨S2097152, .i32⟩ : BufTy).Contents (Elt F)),
    ternary main_v303 main_v305 main_v293 main_v306 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_74 (constantI S_ 32 0#32),
    unary main_c_74 main_v307 (broadcastInDim S2097152 ![] bcast_S_S2097152 : (⟨S_, .i32⟩ : BufTy).Contents (Elt F) → (⟨S2097152, .i32⟩ : BufTy).Contents (Elt F)),
    binary main_v297 main_v307 main_v308 (cmpi .slt : (⟨S2097152, .i32⟩ : BufTy).Contents (Elt F) → (⟨S2097152, .i32⟩ : BufTy).Contents (Elt F) → (⟨S2097152, .i1⟩ : BufTy).Contents (Elt F)),
    nullary main_c_75 (constantI S_ 32 256#32),
    unary main_c_75 main_v309 (broadcastInDim S2097152 ![] bcast_S_S2097152 : (⟨S_, .i32⟩ : BufTy).Contents (Elt F) → (⟨S2097152, .i32⟩ : BufTy).Contents (Elt F)),
    binary main_v297 main_v309 main_v310 (addi : (⟨S2097152, .i32⟩ : BufTy).Contents (Elt F) → (⟨S2097152, .i32⟩ : BufTy).Contents (Elt F) → (⟨S2097152, .i32⟩ : BufTy).Contents (Elt F)),
    ternary main_v308 main_v310 main_v297 main_v311 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_76 (constantI S_ 32 0#32),
    unary main_c_76 main_v312 (broadcastInDim S2097152 ![] bcast_S_S2097152 : (⟨S_, .i32⟩ : BufTy).Contents (Elt F) → (⟨S2097152, .i32⟩ : BufTy).Contents (Elt F)),
    binary main_v301 main_v312 main_v313 (cmpi .slt : (⟨S2097152, .i32⟩ : BufTy).Contents (Elt F) → (⟨S2097152, .i32⟩ : BufTy).Contents (Elt F) → (⟨S2097152, .i1⟩ : BufTy).Contents (Elt F)),
    nullary main_c_77 (constantI S_ 32 256#32),
    unary main_c_77 main_v314 (broadcastInDim S2097152 ![] bcast_S_S2097152 : (⟨S_, .i32⟩ : BufTy).Contents (Elt F) → (⟨S2097152, .i32⟩ : BufTy).Contents (Elt F)),
    binary main_v301 main_v314 main_v315 (addi : (⟨S2097152, .i32⟩ : BufTy).Contents (Elt F) → (⟨S2097152, .i32⟩ : BufTy).Contents (Elt F) → (⟨S2097152, .i32⟩ : BufTy).Contents (Elt F)),
    ternary main_v313 main_v315 main_v301 main_v316 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v306 main_v317 (broadcastInDim S2097152x1 ![0] bcast_S2097152_S2097152x1_0 : (⟨S2097152, .i32⟩ : BufTy).Contents (Elt F) → (⟨S2097152x1, .i32⟩ : BufTy).Contents (Elt F)),
    unary main_v311 main_v318 (broadcastInDim S2097152x1 ![0] bcast_S2097152_S2097152x1_0 : (⟨S2097152, .i32⟩ : BufTy).Contents (Elt F) → (⟨S2097152x1, .i32⟩ : BufTy).Contents (Elt F)),
    unary main_v316 main_v319 (broadcastInDim S2097152x1 ![0] bcast_S2097152_S2097152x1_0 : (⟨S2097152, .i32⟩ : BufTy).Contents (Elt F) → (⟨S2097152x1, .i32⟩ : BufTy).Contents (Elt F)),
    nary ![main_v317, main_v318, main_v319] main_v320 (fun u => concatenate S2097152x3 1 [⟨S2097152x1, u 0⟩, ⟨S2097152x1, u 1⟩, ⟨S2097152x1, u 2⟩] concatenates_S2097152x1_S2097152x1_S2097152x1_S2097152x3_d1),
    binary main_arg1 main_v320 main_v321 ((fun x i => Host.gather gather_S256x256x256x2_S2097152x3_S2097152x2_1_012_n_n_012_1_1112 x i) : (⟨S256x256x256x2, .f32⟩ : BufTy).Contents (Elt F) → (⟨S2097152x3, .i32⟩ : BufTy).Contents (Elt F) → (⟨S2097152x2, .f32⟩ : BufTy).Contents (Elt F)),
    binary main_v197 main_v285 main_v322 (mulf : (⟨S2097152, .f32⟩ : BufTy).Contents (Elt F) → (⟨S2097152, .f32⟩ : BufTy).Contents (Elt F) → (⟨S2097152, .f32⟩ : BufTy).Contents (Elt F)),
    binary main_v322 main_v289 main_v323 (mulf : (⟨S2097152, .f32⟩ : BufTy).Contents (Elt F) → (⟨S2097152, .f32⟩ : BufTy).Contents (Elt F) → (⟨S2097152, .f32⟩ : BufTy).Contents (Elt F)),
    unary main_v323 main_v324 (broadcastInDim S2097152x1 ![0] bcast_S2097152_S2097152x1_0 : (⟨S2097152, .f32⟩ : BufTy).Contents (Elt F) → (⟨S2097152x1, .f32⟩ : BufTy).Contents (Elt F)),
    unary main_v324 main_v325 (broadcastInDim S2097152x2 ![0, 1] bcast_S2097152x1_S2097152x2_0_1 : (⟨S2097152x1, .f32⟩ : BufTy).Contents (Elt F) → (⟨S2097152x2, .f32⟩ : BufTy).Contents (Elt F)),
    binary main_v325 main_v321 main_v326 (mulf : (⟨S2097152x2, .f32⟩ : BufTy).Contents (Elt F) → (⟨S2097152x2, .f32⟩ : BufTy).Contents (Elt F) → (⟨S2097152x2, .f32⟩ : BufTy).Contents (Elt F)),
    binary main_v283 main_v326 main_v327 (addf : (⟨S2097152x2, .f32⟩ : BufTy).Contents (Elt F) → (⟨S2097152x2, .f32⟩ : BufTy).Contents (Elt F) → (⟨S2097152x2, .f32⟩ : BufTy).Contents (Elt F)),
    unary main_v20 main_v328 ((extractStridedSlice S2097152x1 ![0, 2] · slices_S2097152x3_S2097152x1_0_2) : (⟨S2097152x3, .f32⟩ : BufTy).Contents (Elt F) → (⟨S2097152x1, .f32⟩ : BufTy).Contents (Elt F)),
    reshape main_v328 main_v329 rfl shapeCasts_S2097152x1_S2097152,
    unary main_v18 main_v330 ((extractStridedSlice S2097152x1 ![0, 0] · slices_S2097152x3_S2097152x1_0_0) : (⟨S2097152x3, .i32⟩ : BufTy).Contents (Elt F) → (⟨S2097152x1, .i32⟩ : BufTy).Contents (Elt F)),
    reshape main_v330 main_v331 rfl shapeCasts_S2097152x1_S2097152,
    nullary main_c_78 (constantI S_ 32 1#32),
    unary main_c_78 main_v332 (broadcastInDim S2097152 ![] bcast_S_S2097152 : (⟨S_, .i32⟩ : BufTy).Contents (Elt F) → (⟨S2097152, .i32⟩ : BufTy).Contents (Elt F)),
    binary main_v331 main_v332 main_v333 (addi : (⟨S2097152, .i32⟩ : BufTy).Contents (Elt F) → (⟨S2097152, .i32⟩ : BufTy).Contents (Elt F) → (⟨S2097152, .i32⟩ : BufTy).Contents (Elt F)),
    unary main_v18 main_v334 ((extractStridedSlice S2097152x1 ![0, 1] · slices_S2097152x3_S2097152x1_0_1) : (⟨S2097152x3, .i32⟩ : BufTy).Contents (Elt F) → (⟨S2097152x1, .i32⟩ : BufTy).Contents (Elt F)),
    reshape main_v334 main_v335 rfl shapeCasts_S2097152x1_S2097152,
    nullary main_c_79 (constantI S_ 32 1#32),
    unary main_c_79 main_v336 (broadcastInDim S2097152 ![] bcast_S_S2097152 : (⟨S_, .i32⟩ : BufTy).Contents (Elt F) → (⟨S2097152, .i32⟩ : BufTy).Contents (Elt F)),
    binary main_v335 main_v336 main_v337 (addi : (⟨S2097152, .i32⟩ : BufTy).Contents (Elt F) → (⟨S2097152, .i32⟩ : BufTy).Contents (Elt F) → (⟨S2097152, .i32⟩ : BufTy).Contents (Elt F)) ]

/-- Operations 426 … 471 of @main (`main_part7`), in order. -/
abbrev ops7 : List (HloOp τ sig (Elt F)) :=
  [ unary main_v18 main_v338 ((extractStridedSlice S2097152x1 ![0, 2] · slices_S2097152x3_S2097152x1_0_2) : (⟨S2097152x3, .i32⟩ : BufTy).Contents (Elt F) → (⟨S2097152x1, .i32⟩ : BufTy).Contents (Elt F)),
    reshape main_v338 main_v339 rfl shapeCasts_S2097152x1_S2097152,
    nullary main_c_80 (constantI S_ 32 1#32),
    unary main_c_80 main_v340 (broadcastInDim S2097152 ![] bcast_S_S2097152 : (⟨S_, .i32⟩ : BufTy).Contents (Elt F) → (⟨S2097152, .i32⟩ : BufTy).Contents (Elt F)),
    binary main_v339 main_v340 main_v341 (addi : (⟨S2097152, .i32⟩ : BufTy).Contents (Elt F) → (⟨S2097152, .i32⟩ : BufTy).Contents (Elt F) → (⟨S2097152, .i32⟩ : BufTy).Contents (Elt F)),
    nullary main_c_81 (constantI S_ 32 0#32),
    unary main_c_81 main_v342 (broadcastInDim S2097152 ![] bcast_S_S2097152 : (⟨S_, .i32⟩ : BufTy).Contents (Elt F) → (⟨S2097152, .i32⟩ : BufTy).Contents (Elt F)),
    binary main_v333 main_v342 main_v343 (cmpi .slt : (⟨S2097152, .i32⟩ : BufTy).Contents (Elt F) → (⟨S2097152, .i32⟩ : BufTy).Contents (Elt F) → (⟨S2097152, .i1⟩ : BufTy).Contents (Elt F)),
    nullary main_c_82 (constantI S_ 32 256#32),
    unary main_c_82 main_v344 (broadcastInDim S2097152 ![] bcast_S_S2097152 : (⟨S_, .i32⟩ : BufTy).Contents (Elt F) → (⟨S2097152, .i32⟩ : BufTy).Contents (Elt F)),
    binary main_v333 main_v344 main_v345 (addi : (⟨S2097152, .i32⟩ : BufTy).Contents (Elt F) → (⟨S2097152, .i32⟩ : BufTy).Contents (Elt F) → (⟨S2097152, .i32⟩ : BufTy).Contents (Elt F)),
    ternary main_v343 main_v345 main_v333 main_v346 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_83 (constantI S_ 32 0#32),
    unary main_c_83 main_v347 (broadcastInDim S2097152 ![] bcast_S_S2097152 : (⟨S_, .i32⟩ : BufTy).Contents (Elt F) → (⟨S2097152, .i32⟩ : BufTy).Contents (Elt F)),
    binary main_v337 main_v347 main_v348 (cmpi .slt : (⟨S2097152, .i32⟩ : BufTy).Contents (Elt F) → (⟨S2097152, .i32⟩ : BufTy).Contents (Elt F) → (⟨S2097152, .i1⟩ : BufTy).Contents (Elt F)),
    nullary main_c_84 (constantI S_ 32 256#32),
    unary main_c_84 main_v349 (broadcastInDim S2097152 ![] bcast_S_S2097152 : (⟨S_, .i32⟩ : BufTy).Contents (Elt F) → (⟨S2097152, .i32⟩ : BufTy).Contents (Elt F)),
    binary main_v337 main_v349 main_v350 (addi : (⟨S2097152, .i32⟩ : BufTy).Contents (Elt F) → (⟨S2097152, .i32⟩ : BufTy).Contents (Elt F) → (⟨S2097152, .i32⟩ : BufTy).Contents (Elt F)),
    ternary main_v348 main_v350 main_v337 main_v351 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_85 (constantI S_ 32 0#32),
    unary main_c_85 main_v352 (broadcastInDim S2097152 ![] bcast_S_S2097152 : (⟨S_, .i32⟩ : BufTy).Contents (Elt F) → (⟨S2097152, .i32⟩ : BufTy).Contents (Elt F)),
    binary main_v341 main_v352 main_v353 (cmpi .slt : (⟨S2097152, .i32⟩ : BufTy).Contents (Elt F) → (⟨S2097152, .i32⟩ : BufTy).Contents (Elt F) → (⟨S2097152, .i1⟩ : BufTy).Contents (Elt F)),
    nullary main_c_86 (constantI S_ 32 256#32),
    unary main_c_86 main_v354 (broadcastInDim S2097152 ![] bcast_S_S2097152 : (⟨S_, .i32⟩ : BufTy).Contents (Elt F) → (⟨S2097152, .i32⟩ : BufTy).Contents (Elt F)),
    binary main_v341 main_v354 main_v355 (addi : (⟨S2097152, .i32⟩ : BufTy).Contents (Elt F) → (⟨S2097152, .i32⟩ : BufTy).Contents (Elt F) → (⟨S2097152, .i32⟩ : BufTy).Contents (Elt F)),
    ternary main_v353 main_v355 main_v341 main_v356 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v346 main_v357 (broadcastInDim S2097152x1 ![0] bcast_S2097152_S2097152x1_0 : (⟨S2097152, .i32⟩ : BufTy).Contents (Elt F) → (⟨S2097152x1, .i32⟩ : BufTy).Contents (Elt F)),
    unary main_v351 main_v358 (broadcastInDim S2097152x1 ![0] bcast_S2097152_S2097152x1_0 : (⟨S2097152, .i32⟩ : BufTy).Contents (Elt F) → (⟨S2097152x1, .i32⟩ : BufTy).Contents (Elt F)),
    unary main_v356 main_v359 (broadcastInDim S2097152x1 ![0] bcast_S2097152_S2097152x1_0 : (⟨S2097152, .i32⟩ : BufTy).Contents (Elt F) → (⟨S2097152x1, .i32⟩ : BufTy).Contents (Elt F)),
    nary ![main_v357, main_v358, main_v359] main_v360 (fun u => concatenate S2097152x3 1 [⟨S2097152x1, u 0⟩, ⟨S2097152x1, u 1⟩, ⟨S2097152x1, u 2⟩] concatenates_S2097152x1_S2097152x1_S2097152x1_S2097152x3_d1),
    binary main_arg1 main_v360 main_v361 ((fun x i => Host.gather gather_S256x256x256x2_S2097152x3_S2097152x2_1_012_n_n_012_1_1112 x i) : (⟨S256x256x256x2, .f32⟩ : BufTy).Contents (Elt F) → (⟨S2097152x3, .i32⟩ : BufTy).Contents (Elt F) → (⟨S2097152x2, .f32⟩ : BufTy).Contents (Elt F)),
    binary main_v197 main_v285 main_v362 (mulf : (⟨S2097152, .f32⟩ : BufTy).Contents (Elt F) → (⟨S2097152, .f32⟩ : BufTy).Contents (Elt F) → (⟨S2097152, .f32⟩ : BufTy).Contents (Elt F)),
    binary main_v362 main_v329 main_v363 (mulf : (⟨S2097152, .f32⟩ : BufTy).Contents (Elt F) → (⟨S2097152, .f32⟩ : BufTy).Contents (Elt F) → (⟨S2097152, .f32⟩ : BufTy).Contents (Elt F)),
    unary main_v363 main_v364 (broadcastInDim S2097152x1 ![0] bcast_S2097152_S2097152x1_0 : (⟨S2097152, .f32⟩ : BufTy).Contents (Elt F) → (⟨S2097152x1, .f32⟩ : BufTy).Contents (Elt F)),
    unary main_v364 main_v365 (broadcastInDim S2097152x2 ![0, 1] bcast_S2097152x1_S2097152x2_0_1 : (⟨S2097152x1, .f32⟩ : BufTy).Contents (Elt F) → (⟨S2097152x2, .f32⟩ : BufTy).Contents (Elt F)),
    binary main_v365 main_v361 main_v366 (mulf : (⟨S2097152x2, .f32⟩ : BufTy).Contents (Elt F) → (⟨S2097152x2, .f32⟩ : BufTy).Contents (Elt F) → (⟨S2097152x2, .f32⟩ : BufTy).Contents (Elt F)),
    binary main_v327 main_v366 main_v367 (addf : (⟨S2097152x2, .f32⟩ : BufTy).Contents (Elt F) → (⟨S2097152x2, .f32⟩ : BufTy).Contents (Elt F) → (⟨S2097152x2, .f32⟩ : BufTy).Contents (Elt F)),
    unary main_v13 main_v368 (broadcastInDim S2097152x1 ![0] bcast_S2097152_S2097152x1_0 : (⟨S2097152, .i1⟩ : BufTy).Contents (Elt F) → (⟨S2097152x1, .i1⟩ : BufTy).Contents (Elt F)),
    nullary main_cst_87 (constant S_ .f32 0x00000000#32),
    TRef.unary (TRef.of (T := ⟨S2097152x1, .i1⟩) main_v368) (TRef.of (T := ⟨S2097152x2, .i1⟩) main_call1_v0) (broadcastInDim S2097152x2 ![0, 1] bcast_S2097152x1_S2097152x2_0_1),
    TRef.unary (TRef.of (T := ⟨S_, .f32⟩) main_cst_87) (TRef.of (T := ⟨S2097152x2, .f32⟩) main_call1_v1) (broadcastInDim S2097152x2 ![] bcast_S_S2097152x2),
    TRef.ternary (TRef.of (T := ⟨S2097152x2, .i1⟩) main_call1_v0) (TRef.of (T := ⟨S2097152x2, .f32⟩) main_v367) (TRef.of (T := ⟨S2097152x2, .f32⟩) main_call1_v1) (TRef.of (T := ⟨S2097152x2, .f32⟩) main_v369) select,
    unary main_v369 main_v370 ((extractStridedSlice S2097152x1 ![0, 0] · slices_S2097152x2_S2097152x1_0_0) : (⟨S2097152x2, .f32⟩ : BufTy).Contents (Elt F) → (⟨S2097152x1, .f32⟩ : BufTy).Contents (Elt F)),
    reshape main_v370 main_v371 rfl shapeCasts_S2097152x1_S2097152,
    unary main_v369 main_v372 ((extractStridedSlice S2097152x1 ![0, 1] · slices_S2097152x2_S2097152x1_0_1) : (⟨S2097152x2, .f32⟩ : BufTy).Contents (Elt F) → (⟨S2097152x1, .f32⟩ : BufTy).Contents (Elt F)),
    reshape main_v372 main_v373 rfl shapeCasts_S2097152x1_S2097152 ]

/-- @main's 471 operations, in order. -/
abbrev ops : List (HloOp τ sig (Elt F)) := ops0 ++ (ops1 ++ (ops2 ++ (ops3 ++ (ops4 ++ (ops5 ++ (ops6 ++ ops7))))))

set_option maxRecDepth 8192 in
theorem ops0_sub : (ops0 : List (HloOp τ sig (Elt F))).Forall fun op => op.bufs ⊆ tcRefs τ sig :=
  ⟨nullary_bufs_sub .., nullary_bufs_sub .., nullary_bufs_sub .., nullary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub ..⟩
set_option maxRecDepth 8192 in
theorem ops1_sub : (ops1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub ..⟩
set_option maxRecDepth 8192 in
theorem ops2_sub : (ops2 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub ..⟩
set_option maxRecDepth 8192 in
theorem ops3_sub : (ops3 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub ..⟩
set_option maxRecDepth 8192 in
theorem ops4_sub : (ops4 : List (HloOp τ sig (Elt F))).Forall fun op => op.bufs ⊆ tcRefs τ sig :=
  ⟨binary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub ..⟩
set_option maxRecDepth 8192 in
theorem ops5_sub : (ops5 : List (HloOp τ sig (Elt F))).Forall fun op => op.bufs ⊆ tcRefs τ sig :=
  ⟨binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub ..⟩
set_option maxRecDepth 8192 in
theorem ops6_sub : (ops6 : List (HloOp τ sig (Elt F))).Forall fun op => op.bufs ⊆ tcRefs τ sig :=
  ⟨binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub ..⟩
set_option maxRecDepth 8192 in
theorem ops7_sub : (ops7 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., unary_bufs_sub .., nullary_bufs_sub .., unary_bufs_sub .., unary_bufs_sub .., ternary_bufs_sub .., unary_bufs_sub .., reshape_bufs_sub .., unary_bufs_sub .., reshape_bufs_sub ..⟩

end Cert.ReferenceIdeal.Ops

end
-- ==== Proof.RefRun.lean ====
/-
  The reference program runs: @main is its 471 host operations in order, so every weakly fair execution terminates
  and leaves each buffer at the fold of the operations' results over the launch contents. @main is printed as eight
  consecutive windows; each window is the sequence of its own operations, and sequencing the windows is sequencing
  the concatenated list. No operation writes either argument array, so both end as launched.
-/
import proofs.«175399_j60687887892817_2_alg».proof.Proof.RefOps
import Idealize.ShloMosaic.Lib.Pipeline.Frame

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-! ## @main is the sequence of its operations -/

set_option maxRecDepth 8192 in
set_option maxHeartbeats 4000000 in
theorem part0_eq (c : Dev nD) : main_part0 (F := F) c = seq ops0 := rfl
set_option maxRecDepth 8192 in
set_option maxHeartbeats 4000000 in
theorem part1_eq (c : Dev nD) : main_part1 (F := F) c = seq ops1 := rfl
set_option maxRecDepth 8192 in
set_option maxHeartbeats 4000000 in
theorem part2_eq (c : Dev nD) : main_part2 (F := F) c = seq ops2 := rfl
set_option maxRecDepth 8192 in
set_option maxHeartbeats 4000000 in
theorem part3_eq (c : Dev nD) : main_part3 (F := F) c = seq ops3 := rfl
set_option maxRecDepth 8192 in
set_option maxHeartbeats 4000000 in
theorem part4_eq (c : Dev nD) : main_part4 (F := F) c = seq ops4 := rfl
set_option maxRecDepth 8192 in
set_option maxHeartbeats 4000000 in
theorem part5_eq (c : Dev nD) : main_part5 (F := F) c = seq ops5 := rfl
set_option maxRecDepth 8192 in
set_option maxHeartbeats 4000000 in
theorem part6_eq (c : Dev nD) : main_part6 (F := F) c = seq ops6 := rfl
set_option maxRecDepth 8192 in
set_option maxHeartbeats 4000000 in
theorem part7_eq (c : Dev nD) : main_part7 (F := F) c = seq ops7 := rfl

/-- @main runs its windows in order, and a sequence of sequences is the sequence of the joined list. -/
theorem main_eq (c : Dev nD) : main (F := F) c = seq ops := by
  show (main_part0 (F := F) c >>= fun _ => main_part1 (F := F) c >>= fun _ => main_part2 (F := F) c >>= fun _ => main_part3 (F := F) c >>= fun _ =>
    main_part4 (F := F) c >>= fun _ => main_part5 (F := F) c >>= fun _ => main_part6 (F := F) c >>= fun _ => main_part7 (F := F) c) = _
  rw [part0_eq, part1_eq, part2_eq, part3_eq, part4_eq, part5_eq, part6_eq, part7_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub,
    List.forall_append.2 ⟨ops4_sub, List.forall_append.2 ⟨ops5_sub, List.forall_append.2 ⟨ops6_sub, ops7_sub⟩⟩⟩⟩⟩⟩⟩

/-! ## Every operation determines its results -/

theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h
theorem ops5_fresh : ∀ op ∈ (ops5 : List (HloOp τ sig (Elt F))), op.fresh = ∅ := by
  intro _ h; (repeat (cases h with | head => rfl | tail _ h => ?_)); exact nomatch h
theorem ops6_fresh : ∀ op ∈ (ops6 : List (HloOp τ sig (Elt F))), op.fresh = ∅ := by
  intro _ h; (repeat (cases h with | head => rfl | tail _ h => ?_)); exact nomatch h
theorem ops7_fresh : ∀ op ∈ (ops7 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h | h | h
  · exact ops0_fresh op h
  · exact ops1_fresh op h
  · exact ops2_fresh op h
  · exact ops3_fresh op h
  · exact ops4_fresh op h
  · exact ops5_fresh op h
  · exact ops6_fresh op h
  · exact ops7_fresh op h

/-! ## The run -/

/-- From any memory with zero counters every weakly fair execution of @main terminates with every TensorCore buffer at the
    fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Ops

end
-- ==== Proof.AtomsA.lean ====
/-
  The two programs compute the same intermediate arrays. Each of the fractions, the validity bits and the integer
  cell index is, in each program, a composition of host operations of the two argument arrays, and the two compositions are
  the same operation for operation (both programs come from the same index arithmetic and the same eight gathers). So each of
  the reference's buffers after its run holds what the kernel program's buffer holds at the region's entry, from arguments
  that agree. Here: the fractions, the bits and the integer cell index.
-/
import proofs.«175399_j60687887892817_2_alg».proof.Proof.KernelIdeal.HostPrefix
import proofs.«175399_j60687887892817_2_alg».proof.Proof.RefRun

set_option maxRecDepth 16384
-- one buffer at a time: each equation composes a few hundred host operations on both sides
set_option Elab.async false

noncomputable section

namespace Cert.Shared

open Idealize.ShloMosaic Idealize.ShloMosaic.TcCoe Idealize.SL.Sem Idealize.ShloMosaic.StableHlo
open Cert.KernelIdeal.Combine

variable (m : (ℓ : Loc Cert.KernelIdeal.nD Cert.KernelIdeal.τ Cert.KernelIdeal.sig) → Buf (Elt Ideal) ℓ) (c : Dev Cert.KernelIdeal.nD)
  (V' : Valuation Cert.ReferenceIdeal.τ Cert.ReferenceIdeal.sig (Elt Ideal))

set_option maxHeartbeats 1000000000 in
/-- The reference's %20 is the kernel program's %11. -/
theorem atom_v20
    (h0 : (V' (Proc.devRef .tc Cert.ReferenceIdeal.main_arg0) : FVec Ideal Cert.ReferenceIdeal.S2097152x3 .f32)
      = m ((c : Thread Cert.KernelIdeal.nD Cert.KernelIdeal.τ).loc Cert.KernelIdeal.main_arg0))
    (h1 : (V' (Proc.devRef .tc Cert.ReferenceIdeal.main_arg1) : FVec Ideal Cert.ReferenceIdeal.S256x256x256x2 .f32)
      = m ((c : Thread Cert.KernelIdeal.nD Cert.KernelIdeal.τ).loc Cert.KernelIdeal.main_arg1)) :
    (after (Cert.ReferenceIdeal.Ops.ops (F := Ideal)) V' (Proc.devRef .tc Cert.ReferenceIdeal.main_v20) : FVec Ideal Cert.ReferenceIdeal.S2097152x3 .f32)
      = entry m c Cert.KernelIdeal.main_v11 := by
  dsimp only [entry, entry0]
  simp only [Cert.ReferenceIdeal.Ops.ops, List.flatten_cons, List.flatten_nil, List.append_nil, StableHlo.after_append]
  simp only [Cert.ReferenceIdeal.Ops.ops0, Cert.ReferenceIdeal.Ops.ops1, Cert.ReferenceIdeal.Ops.ops2, Cert.ReferenceIdeal.Ops.ops3,
    Cert.ReferenceIdeal.Ops.ops4, Cert.ReferenceIdeal.Ops.ops5, Cert.ReferenceIdeal.Ops.ops6, Cert.ReferenceIdeal.Ops.ops7,
    Cert.KernelIdeal.Gen.hostOps0, Cert.KernelIdeal.Gen.hostOps0_1, Cert.KernelIdeal.Gen.hostOps0_2]
  after_results_simp
  simp only [h0, h1] <;> rfl

set_option maxHeartbeats 1000000000 in
/-- The reference's %13 is the kernel program's %20. -/
theorem atom_v13
    (h0 : (V' (Proc.devRef .tc Cert.ReferenceIdeal.main_arg0) : FVec Ideal Cert.ReferenceIdeal.S2097152x3 .f32)
      = m ((c : Thread Cert.KernelIdeal.nD Cert.KernelIdeal.τ).loc Cert.KernelIdeal.main_arg0))
    (h1 : (V' (Proc.devRef .tc Cert.ReferenceIdeal.main_arg1) : FVec Ideal Cert.ReferenceIdeal.S256x256x256x2 .f32)
      = m ((c : Thread Cert.KernelIdeal.nD Cert.KernelIdeal.τ).loc Cert.KernelIdeal.main_arg1)) :
    (after (Cert.ReferenceIdeal.Ops.ops (F := Ideal)) V' (Proc.devRef .tc Cert.ReferenceIdeal.main_v13) : IVec Cert.ReferenceIdeal.S2097152 1)
      = entry m c Cert.KernelIdeal.main_v20 := by
  dsimp only [entry, entry0]
  simp only [Cert.ReferenceIdeal.Ops.ops, List.flatten_cons, List.flatten_nil, List.append_nil, StableHlo.after_append]
  simp only [Cert.ReferenceIdeal.Ops.ops0, Cert.ReferenceIdeal.Ops.ops1, Cert.ReferenceIdeal.Ops.ops2, Cert.ReferenceIdeal.Ops.ops3,
    Cert.ReferenceIdeal.Ops.ops4, Cert.ReferenceIdeal.Ops.ops5, Cert.ReferenceIdeal.Ops.ops6, Cert.ReferenceIdeal.Ops.ops7,
    Cert.KernelIdeal.Gen.hostOps0, Cert.KernelIdeal.Gen.hostOps0_1, Cert.KernelIdeal.Gen.hostOps0_2]
  after_results_simp
  simp only [h0, h1] <;> rfl

set_option maxHeartbeats 1000000000 in
/-- The reference's %18 is the kernel program's %9. -/
theorem atom_v18
    (h0 : (V' (Proc.devRef .tc Cert.ReferenceIdeal.main_arg0) : FVec Ideal Cert.ReferenceIdeal.S2097152x3 .f32)
      = m ((c : Thread Cert.KernelIdeal.nD Cert.KernelIdeal.τ).loc Cert.KernelIdeal.main_arg0))
    (h1 : (V' (Proc.devRef .tc Cert.ReferenceIdeal.main_arg1) : FVec Ideal Cert.ReferenceIdeal.S256x256x256x2 .f32)
      = m ((c : Thread Cert.KernelIdeal.nD Cert.KernelIdeal.τ).loc Cert.KernelIdeal.main_arg1)) :
    (after (Cert.ReferenceIdeal.Ops.ops (F := Ideal)) V' (Proc.devRef .tc Cert.ReferenceIdeal.main_v18) : IVec Cert.ReferenceIdeal.S2097152x3 32)
      = entry m c Cert.KernelIdeal.main_v9 := by
  dsimp only [entry, entry0]
  simp only [Cert.ReferenceIdeal.Ops.ops, List.flatten_cons, List.flatten_nil, List.append_nil, StableHlo.after_append]
  simp only [Cert.ReferenceIdeal.Ops.ops0, Cert.ReferenceIdeal.Ops.ops1, Cert.ReferenceIdeal.Ops.ops2, Cert.ReferenceIdeal.Ops.ops3,
    Cert.ReferenceIdeal.Ops.ops4, Cert.ReferenceIdeal.Ops.ops5, Cert.ReferenceIdeal.Ops.ops6, Cert.ReferenceIdeal.Ops.ops7,
    Cert.KernelIdeal.Gen.hostOps0, Cert.KernelIdeal.Gen.hostOps0_1, Cert.KernelIdeal.Gen.hostOps0_2]
  after_results_simp
  simp only [h0, h1] <;> rfl

end Cert.Shared

end
-- ==== Proof.RefCuts.lean ====
/-
  The reference's operations cut at its printed windows: the fold over all 471 operations is the fold of the windows
  from `k` on over the contents when window `k` starts. A buffer's fold is then read with everything before the cut
  left as it is found.
-/
import proofs.«175399_j60687887892817_2_alg».proof.Proof.RefRun

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-! ## The operations from each window on, and the contents when each window starts -/

abbrev rest7 : List (HloOp τ sig (Elt F)) := ops7
abbrev rest6 : List (HloOp τ sig (Elt F)) := ops6 ++ rest7
abbrev rest5 : List (HloOp τ sig (Elt F)) := ops5 ++ rest6
abbrev rest4 : List (HloOp τ sig (Elt F)) := ops4 ++ rest5
abbrev rest3 : List (HloOp τ sig (Elt F)) := ops3 ++ rest4
abbrev rest2 : List (HloOp τ sig (Elt F)) := ops2 ++ rest3
abbrev rest1 : List (HloOp τ sig (Elt F)) := ops1 ++ rest2

/-- The contents when window `k` starts, from launch contents `V`. -/
def at1 (V : Valuation τ sig (Elt F)) : Valuation τ sig (Elt F) := after ops0 V
def at2 (V : Valuation τ sig (Elt F)) : Valuation τ sig (Elt F) := after ops1 (at1 V)
def at3 (V : Valuation τ sig (Elt F)) : Valuation τ sig (Elt F) := after ops2 (at2 V)
def at4 (V : Valuation τ sig (Elt F)) : Valuation τ sig (Elt F) := after ops3 (at3 V)
def at5 (V : Valuation τ sig (Elt F)) : Valuation τ sig (Elt F) := after ops4 (at4 V)
def at6 (V : Valuation τ sig (Elt F)) : Valuation τ sig (Elt F) := after ops5 (at5 V)
def at7 (V : Valuation τ sig (Elt F)) : Valuation τ sig (Elt F) := after ops6 (at6 V)

/-- The whole fold is the fold of the remaining windows over the contents when they start. -/
theorem full_eq1 (V : Valuation τ sig (Elt F)) : after ops V = after rest1 (at1 V) := StableHlo.after_append ops0 rest1 V
theorem full_eq2 (V : Valuation τ sig (Elt F)) : after ops V = after rest2 (at2 V) := (full_eq1 V).trans (StableHlo.after_append ops1 rest2 (at1 V))
theorem full_eq3 (V : Valuation τ sig (Elt F)) : after ops V = after rest3 (at3 V) := (full_eq2 V).trans (StableHlo.after_append ops2 rest3 (at2 V))
theorem full_eq4 (V : Valuation τ sig (Elt F)) : after ops V = after rest4 (at4 V) := (full_eq3 V).trans (StableHlo.after_append ops3 rest4 (at3 V))
theorem full_eq5 (V : Valuation τ sig (Elt F)) : after ops V = after rest5 (at5 V) := (full_eq4 V).trans (StableHlo.after_append ops4 rest5 (at4 V))
theorem full_eq6 (V : Valuation τ sig (Elt F)) : after ops V = after rest6 (at6 V) := (full_eq5 V).trans (StableHlo.after_append ops5 rest6 (at5 V))
theorem full_eq7 (V : Valuation τ sig (Elt F)) : after ops V = after rest7 (at7 V) := (full_eq6 V).trans (StableHlo.after_append ops6 rest7 (at6 V))

end Cert.ReferenceIdeal.Ops

end
-- ==== Proof.RefGatherA.lean ====
/-
  The reference's eight corner gathers. Corner `(dx, dy, dz)` takes the three columns of the integer cell index, adds the
  corner's offset, wraps a negative index by the axis extent, and gathers the grid's two channels at that cell. Each gather is
  read with the operations before its window left as they are found: it is `cornerOf dx dy dz` of the cell index and the grid.
-/
import proofs.«175399_j60687887892817_2_alg».proof.Proof.RefCuts
import Idealize.ShloMosaic.PureOps.Ideal

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo

/-- Column `j` of the integer cell index, shifted by the corner's offset `d` along that axis. -/
def shifted (j : ℕ) (hs : S2097152x3.Slices ![0, j] S2097152x1) (d : BitVec 32) (i0 : IVec S2097152x3 32) : IVec S2097152 32 :=
  addi (shapeCast S2097152 (extractStridedSlice S2097152x1 ![0, j] i0 hs) shapeCasts_S2097152x1_S2097152)
    (broadcastInDim S2097152 ![] bcast_S_S2097152 (constantI S_ 32 d))

/-- A negative index wrapped by the axis extent 256 (jnp's indexing rule), as a column. -/
def wrapped (a : IVec S2097152 32) : IVec S2097152x1 32 :=
  broadcastInDim S2097152x1 ![0] bcast_S2097152_S2097152x1_0
    (select (cmpi .slt a (broadcastInDim S2097152 ![] bcast_S_S2097152 (constantI S_ 32 0#32)))
      (addi a (broadcastInDim S2097152 ![] bcast_S_S2097152 (constantI S_ 32 256#32))) a)

/-- The corner `(dx, dy, dz)` of every query point's cell, gathered from the grid: `grid[i0x + dx, i0y + dy, i0z + dz]`. -/
def cornerOf (dx dy dz : BitVec 32) (i0 : IVec S2097152x3 32) (g : FVec Ideal S256x256x256x2 .f32) : FVec Ideal S2097152x2 .f32 :=
  Host.gather gather_S256x256x256x2_S2097152x3_S2097152x2_1_012_n_n_012_1_1112 g
    (concatenate S2097152x3 1 [⟨S2097152x1, wrapped (shifted 0 slices_S2097152x3_S2097152x1_0_0 dx i0)⟩,
      ⟨S2097152x1, wrapped (shifted 1 slices_S2097152x3_S2097152x1_0_1 dy i0)⟩,
      ⟨S2097152x1, wrapped (shifted 2 slices_S2097152x3_S2097152x1_0_2 dz i0)⟩]
      concatenates_S2097152x1_S2097152x1_S2097152x1_S2097152x3_d1)

set_option maxHeartbeats 400000000 in
theorem g0_cut (W : Valuation τ sig (Elt Ideal)) :
    (after (ops (F := Ideal)) W (Proc.devRef .tc main_v65) : FVec Ideal S2097152x2 .f32)
      = cornerOf 0#32 0#32 0#32 (after (ops (F := Ideal)) W (Proc.devRef .tc main_v18)) (after (ops (F := Ideal)) W (Proc.devRef .tc main_arg1)) := by
  unfold cornerOf wrapped shifted
  simp only [ops, rest1, rest2, rest3, rest4, rest5, rest6, rest7, ops0, ops1, ops2, ops3, ops4, ops5, ops6, ops7, List.cons_append, List.nil_append, List.append_nil]
  after_results_simp <;> rfl

set_option maxHeartbeats 400000000 in
theorem g1_cut (W : Valuation τ sig (Elt Ideal)) :
    (after (rest1 (F := Ideal)) W (Proc.devRef .tc main_v105) : FVec Ideal S2097152x2 .f32)
      = cornerOf 0#32 0#32 1#32 (after (rest1 (F := Ideal)) W (Proc.devRef .tc main_v18)) (after (rest1 (F := Ideal)) W (Proc.devRef .tc main_arg1)) := by
  unfold cornerOf wrapped shifted
  simp only [rest1, rest2, rest3, rest4, rest5, rest6, rest7, ops1, ops2, ops3, ops4, ops5, ops6, ops7, List.cons_append, List.nil_append, List.append_nil]
  after_results_simp <;> rfl

set_option maxHeartbeats 400000000 in
theorem g2_cut (W : Valuation τ sig (Elt Ideal)) :
    (after (rest2 (F := Ideal)) W (Proc.devRef .tc main_v149) : FVec Ideal S2097152x2 .f32)
      = cornerOf 0#32 1#32 0#32 (after (rest2 (F := Ideal)) W (Proc.devRef .tc main_v18)) (after (rest2 (F := Ideal)) W (Proc.devRef .tc main_arg1)) := by
  unfold cornerOf wrapped shifted
  simp only [rest2, rest3, rest4, rest5, rest6, rest7, ops2, ops3, ops4, ops5, ops6, ops7, List.cons_append, List.nil_append, List.append_nil]
  after_results_simp <;> rfl

set_option maxHeartbeats 400000000 in
theorem g3_cut (W : Valuation τ sig (Elt Ideal)) :
    (after (rest3 (F := Ideal)) W (Proc.devRef .tc main_v189) : FVec Ideal S2097152x2 .f32)
      = cornerOf 0#32 1#32 1#32 (after (rest3 (F := Ideal)) W (Proc.devRef .tc main_v18)) (after (rest3 (F := Ideal)) W (Proc.devRef .tc main_arg1)) := by
  unfold cornerOf wrapped shifted
  simp only [rest3, rest4, rest5, rest6, rest7, ops3, ops4, ops5, ops6, ops7, List.cons_append, List.nil_append, List.append_nil]
  after_results_simp <;> rfl

end Cert.ReferenceIdeal.Ops

end
-- ==== Proof.RefGatherB.lean ====
/-
  The reference's eight corner gathers. Corner `(dx, dy, dz)` takes the three columns of the integer cell index, adds the
  corner's offset, wraps a negative index by the axis extent, and gathers the grid's two channels at that cell. Each gather is
  read with the operations before its window left as they are found: it is `cornerOf dx dy dz` of the cell index and the grid.
-/
import proofs.«175399_j60687887892817_2_alg».proof.Proof.RefGatherA

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo

set_option maxHeartbeats 400000000 in
theorem g4_cut (W : Valuation τ sig (Elt Ideal)) :
    (after (rest4 (F := Ideal)) W (Proc.devRef .tc main_v237) : FVec Ideal S2097152x2 .f32)
      = cornerOf 1#32 0#32 0#32 (after (rest4 (F := Ideal)) W (Proc.devRef .tc main_v18)) (after (rest4 (F := Ideal)) W (Proc.devRef .tc main_arg1)) := by
  unfold cornerOf wrapped shifted
  simp only [rest4, rest5, rest6, rest7, ops4, ops5, ops6, ops7, List.cons_append, List.nil_append, List.append_nil]
  after_results_simp <;> rfl

set_option maxHeartbeats 400000000 in
theorem g5_cut (W : Valuation τ sig (Elt Ideal)) :
    (after (rest5 (F := Ideal)) W (Proc.devRef .tc main_v277) : FVec Ideal S2097152x2 .f32)
      = cornerOf 1#32 0#32 1#32 (after (rest5 (F := Ideal)) W (Proc.devRef .tc main_v18)) (after (rest5 (F := Ideal)) W (Proc.devRef .tc main_arg1)) := by
  unfold cornerOf wrapped shifted
  simp only [rest5, rest6, rest7, ops5, ops6, ops7, List.cons_append, List.nil_append, List.append_nil]
  after_results_simp <;> rfl

set_option maxHeartbeats 400000000 in
theorem g6_cut (W : Valuation τ sig (Elt Ideal)) :
    (after (rest6 (F := Ideal)) W (Proc.devRef .tc main_v321) : FVec Ideal S2097152x2 .f32)
      = cornerOf 1#32 1#32 0#32 (after (rest6 (F := Ideal)) W (Proc.devRef .tc main_v18)) (after (rest6 (F := Ideal)) W (Proc.devRef .tc main_arg1)) := by
  unfold cornerOf wrapped shifted
  simp only [rest6, rest7, ops6, ops7, List.cons_append, List.nil_append, List.append_nil]
  after_results_simp <;> rfl

set_option maxHeartbeats 400000000 in
theorem g7_cut (W : Valuation τ sig (Elt Ideal)) :
    (after (rest6 (F := Ideal)) W (Proc.devRef .tc main_v361) : FVec Ideal S2097152x2 .f32)
      = cornerOf 1#32 1#32 1#32 (after (rest6 (F := Ideal)) W (Proc.devRef .tc main_v18)) (after (rest6 (F := Ideal)) W (Proc.devRef .tc main_arg1)) := by
  unfold cornerOf wrapped shifted
  simp only [rest6, rest7, ops6, ops7, List.cons_append, List.nil_append, List.append_nil]
  after_results_simp <;> rfl

end Cert.ReferenceIdeal.Ops

end
-- ==== Proof.KCornersA.lean ====
/-
  The kernel program's eight corner gathers are the same function `cornerOf dx dy dz` of its own integer cell index and
  the grid as the reference's: the same columns, offsets, wrap and gather, operation for operation.
-/
import proofs.«175399_j60687887892817_2_alg».proof.Proof.KernelIdeal.HostPrefix
import proofs.«175399_j60687887892817_2_alg».proof.Proof.RefGatherA

set_option maxRecDepth 16384
set_option Elab.async false

noncomputable section

namespace Cert.Shared

open Idealize.ShloMosaic Idealize.ShloMosaic.TcCoe Idealize.SL.Sem Idealize.ShloMosaic.StableHlo
open Cert.KernelIdeal.Combine

variable (m : (ℓ : Loc Cert.KernelIdeal.nD Cert.KernelIdeal.τ Cert.KernelIdeal.sig) → Buf (Elt Ideal) ℓ) (c : Dev Cert.KernelIdeal.nD)

set_option maxHeartbeats 400000000 in
/-- The kernel program's corner 0 is the same gather of its own cell index and the grid. -/
theorem kcorner0 :
    entry m c Cert.KernelIdeal.main_v55
      = Cert.ReferenceIdeal.Ops.cornerOf 0#32 0#32 0#32 (entry m c Cert.KernelIdeal.main_v9)
          (m ((c : Thread Cert.KernelIdeal.nD Cert.KernelIdeal.τ).loc Cert.KernelIdeal.main_arg1)) := by
  unfold Cert.ReferenceIdeal.Ops.cornerOf Cert.ReferenceIdeal.Ops.wrapped Cert.ReferenceIdeal.Ops.shifted
  dsimp only [entry, entry0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp <;> rfl

set_option maxHeartbeats 400000000 in
/-- The kernel program's corner 1 is the same gather of its own cell index and the grid. -/
theorem kcorner1 :
    entry m c Cert.KernelIdeal.main_v87
      = Cert.ReferenceIdeal.Ops.cornerOf 0#32 0#32 1#32 (entry m c Cert.KernelIdeal.main_v9)
          (m ((c : Thread Cert.KernelIdeal.nD Cert.KernelIdeal.τ).loc Cert.KernelIdeal.main_arg1)) := by
  unfold Cert.ReferenceIdeal.Ops.cornerOf Cert.ReferenceIdeal.Ops.wrapped Cert.ReferenceIdeal.Ops.shifted
  dsimp only [entry, entry0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp <;> rfl

set_option maxHeartbeats 400000000 in
/-- The kernel program's corner 2 is the same gather of its own cell index and the grid. -/
theorem kcorner2 :
    entry m c Cert.KernelIdeal.main_v119
      = Cert.ReferenceIdeal.Ops.cornerOf 0#32 1#32 0#32 (entry m c Cert.KernelIdeal.main_v9)
          (m ((c : Thread Cert.KernelIdeal.nD Cert.KernelIdeal.τ).loc Cert.KernelIdeal.main_arg1)) := by
  unfold Cert.ReferenceIdeal.Ops.cornerOf Cert.ReferenceIdeal.Ops.wrapped Cert.ReferenceIdeal.Ops.shifted
  dsimp only [entry, entry0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp <;> rfl

set_option maxHeartbeats 400000000 in
/-- The kernel program's corner 3 is the same gather of its own cell index and the grid. -/
theorem kcorner3 :
    entry m c Cert.KernelIdeal.main_v151
      = Cert.ReferenceIdeal.Ops.cornerOf 0#32 1#32 1#32 (entry m c Cert.KernelIdeal.main_v9)
          (m ((c : Thread Cert.KernelIdeal.nD Cert.KernelIdeal.τ).loc Cert.KernelIdeal.main_arg1)) := by
  unfold Cert.ReferenceIdeal.Ops.cornerOf Cert.ReferenceIdeal.Ops.wrapped Cert.ReferenceIdeal.Ops.shifted
  dsimp only [entry, entry0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp <;> rfl

end Cert.Shared

end
-- ==== Proof.KCornersB.lean ====
/-
  The kernel program's eight corner gathers are the same function `cornerOf dx dy dz` of its own integer cell index and
  the grid as the reference's: the same columns, offsets, wrap and gather, operation for operation.
-/
import proofs.«175399_j60687887892817_2_alg».proof.Proof.KernelIdeal.HostPrefix
import proofs.«175399_j60687887892817_2_alg».proof.Proof.RefGatherA

set_option maxRecDepth 16384
set_option Elab.async false

noncomputable section

namespace Cert.Shared

open Idealize.ShloMosaic Idealize.ShloMosaic.TcCoe Idealize.SL.Sem Idealize.ShloMosaic.StableHlo
open Cert.KernelIdeal.Combine

variable (m : (ℓ : Loc Cert.KernelIdeal.nD Cert.KernelIdeal.τ Cert.KernelIdeal.sig) → Buf (Elt Ideal) ℓ) (c : Dev Cert.KernelIdeal.nD)

set_option maxHeartbeats 400000000 in
/-- The kernel program's corner 4 is the same gather of its own cell index and the grid. -/
theorem kcorner4 :
    entry m c Cert.KernelIdeal.main_v183
      = Cert.ReferenceIdeal.Ops.cornerOf 1#32 0#32 0#32 (entry m c Cert.KernelIdeal.main_v9)
          (m ((c : Thread Cert.KernelIdeal.nD Cert.KernelIdeal.τ).loc Cert.KernelIdeal.main_arg1)) := by
  unfold Cert.ReferenceIdeal.Ops.cornerOf Cert.ReferenceIdeal.Ops.wrapped Cert.ReferenceIdeal.Ops.shifted
  dsimp only [entry, entry0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp <;> rfl

set_option maxHeartbeats 400000000 in
/-- The kernel program's corner 5 is the same gather of its own cell index and the grid. -/
theorem kcorner5 :
    entry m c Cert.KernelIdeal.main_v215
      = Cert.ReferenceIdeal.Ops.cornerOf 1#32 0#32 1#32 (entry m c Cert.KernelIdeal.main_v9)
          (m ((c : Thread Cert.KernelIdeal.nD Cert.KernelIdeal.τ).loc Cert.KernelIdeal.main_arg1)) := by
  unfold Cert.ReferenceIdeal.Ops.cornerOf Cert.ReferenceIdeal.Ops.wrapped Cert.ReferenceIdeal.Ops.shifted
  dsimp only [entry, entry0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp <;> rfl

set_option maxHeartbeats 400000000 in
/-- The kernel program's corner 6 is the same gather of its own cell index and the grid. -/
theorem kcorner6 :
    entry m c Cert.KernelIdeal.main_v247
      = Cert.ReferenceIdeal.Ops.cornerOf 1#32 1#32 0#32 (entry m c Cert.KernelIdeal.main_v9)
          (m ((c : Thread Cert.KernelIdeal.nD Cert.KernelIdeal.τ).loc Cert.KernelIdeal.main_arg1)) := by
  unfold Cert.ReferenceIdeal.Ops.cornerOf Cert.ReferenceIdeal.Ops.wrapped Cert.ReferenceIdeal.Ops.shifted
  dsimp only [entry, entry0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp <;> rfl

set_option maxHeartbeats 400000000 in
/-- The kernel program's corner 7 is the same gather of its own cell index and the grid. -/
theorem kcorner7 :
    entry m c Cert.KernelIdeal.main_v279
      = Cert.ReferenceIdeal.Ops.cornerOf 1#32 1#32 1#32 (entry m c Cert.KernelIdeal.main_v9)
          (m ((c : Thread Cert.KernelIdeal.nD Cert.KernelIdeal.τ).loc Cert.KernelIdeal.main_arg1)) := by
  unfold Cert.ReferenceIdeal.Ops.cornerOf Cert.ReferenceIdeal.Ops.wrapped Cert.ReferenceIdeal.Ops.shifted
  dsimp only [entry, entry0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp <;> rfl

end Cert.Shared

end
-- ==== Proof.RefTail.lean ====
/-
  The reference's blend, as a function of the fractions `f` ([N,3]), the validity bits `v` ([N]) and the eight gathered
  corner arrays `c k` ([N,2]). For corner `k` it takes column 0, 1, 2 of `f` or one minus it as a vector over the rows,
  multiplies the three, spreads the product over the two channels, multiplies by `c k` and adds it to the running sum
  from zero; it then keeps the sum where the row's bit is set and puts zero elsewhere, and cuts out each channel.
  Read at row `n`, result `q` is: the bit selects between the trilinear sum `Cert.KernelIdeal.Cell.mix` of the fractions at row `n` with
  the eight corners at `(n, q)`, and zero.
-/
import proofs.«175399_j60687887892817_2_alg».proof.Proof.Gen.ReferenceIdeal
import proofs.«175399_j60687887892817_2_alg».proof.Proof.Cell
import proofs.«175399_j60687887892817_2_alg».proof.Proof.LibColumnBroadcast
import proofs.«175399_j60687887892817_2_alg».proof.Proof.LibSqueezeColumn

set_option maxRecDepth 16384

noncomputable section

namespace Cert.ReferenceIdeal.Tail

open Cert.ReferenceIdeal Cert.ReferenceIdeal.Gen
open Idealize.ShloMosaic Idealize.ShloMosaic.ValueIdx
open Cert.LibColumnBroadcast Cert.LibSqueezeColumn

/-- Column 0, 1, 2 of the fractions as a vector over the rows. -/
def fcol0 (f : FVec Ideal S2097152x3 .f32) : FVec Ideal S2097152 .f32 :=
  shapeCast S2097152 (extractStridedSlice S2097152x1 ![0, 0] f slices_S2097152x3_S2097152x1_0_0) shapeCasts_S2097152x1_S2097152
def fcol1 (f : FVec Ideal S2097152x3 .f32) : FVec Ideal S2097152 .f32 :=
  shapeCast S2097152 (extractStridedSlice S2097152x1 ![0, 1] f slices_S2097152x3_S2097152x1_0_1) shapeCasts_S2097152x1_S2097152
def fcol2 (f : FVec Ideal S2097152x3 .f32) : FVec Ideal S2097152 .f32 :=
  shapeCast S2097152 (extractStridedSlice S2097152x1 ![0, 2] f slices_S2097152x3_S2097152x1_0_2) shapeCasts_S2097152x1_S2097152

/-- One minus a weight vector. -/
def comp (w : FVec Ideal S2097152 .f32) : FVec Ideal S2097152 .f32 :=
  subf (F := Ideal) (broadcastInDim S2097152 ![] bcast_S_S2097152 (constant (F := Ideal) S_ .f32 0x3F800000#32)) w

/-- One weighted corner: the product of three weight vectors, spread over the channels, times the corner array. -/
def term (wx wy wz : FVec Ideal S2097152 .f32) (ck : FVec Ideal S2097152x2 .f32) : FVec Ideal S2097152x2 .f32 :=
  mulf (F := Ideal) (broadcastInDim S2097152x2 ![0, 1] bcast_S2097152x1_S2097152x2_0_1
    (broadcastInDim S2097152x1 ![0] bcast_S2097152_S2097152x1_0 (mulf (F := Ideal) (mulf (F := Ideal) wx wy) wz))) ck

/-- The eight weighted corners added from zero, z offset fastest. -/
def total (f : FVec Ideal S2097152x3 .f32) (c0 c1 c2 c3 c4 c5 c6 c7 : FVec Ideal S2097152x2 .f32) : FVec Ideal S2097152x2 .f32 :=
  addf (F := Ideal) (addf (F := Ideal) (addf (F := Ideal) (addf (F := Ideal) (addf (F := Ideal) (addf (F := Ideal) (addf (F := Ideal) (addf (F := Ideal)
    (broadcastInDim S2097152x2 ![] bcast_S_S2097152x2 (constant (F := Ideal) S_ .f32 0x00000000#32))
    (term (comp (fcol0 f)) (comp (fcol1 f)) (comp (fcol2 f)) c0))
    (term (comp (fcol0 f)) (comp (fcol1 f)) (fcol2 f) c1))
    (term (comp (fcol0 f)) (fcol1 f) (comp (fcol2 f)) c2))
    (term (comp (fcol0 f)) (fcol1 f) (fcol2 f) c3))
    (term (fcol0 f) (comp (fcol1 f)) (comp (fcol2 f)) c4))
    (term (fcol0 f) (comp (fcol1 f)) (fcol2 f) c5))
    (term (fcol0 f) (fcol1 f) (comp (fcol2 f)) c6))
    (term (fcol0 f) (fcol1 f) (fcol2 f) c7)

/-- The sum kept where the row's bit is set, zero elsewhere. -/
def masked (f : FVec Ideal S2097152x3 .f32) (v : IVec S2097152 1) (c0 c1 c2 c3 c4 c5 c6 c7 : FVec Ideal S2097152x2 .f32) : FVec Ideal S2097152x2 .f32 :=
  select (broadcastInDim S2097152x2 ![0, 1] bcast_S2097152x1_S2097152x2_0_1 (broadcastInDim S2097152x1 ![0] bcast_S2097152_S2097152x1_0 v))
    (total f c0 c1 c2 c3 c4 c5 c6 c7) (broadcastInDim S2097152x2 ![] bcast_S_S2097152x2 (constant (F := Ideal) S_ .f32 0x00000000#32))

/-- The two results: each channel's column, flattened. -/
def result0 (f : FVec Ideal S2097152x3 .f32) (v : IVec S2097152 1) (c0 c1 c2 c3 c4 c5 c6 c7 : FVec Ideal S2097152x2 .f32) : FVec Ideal S2097152 .f32 :=
  shapeCast S2097152 (extractStridedSlice S2097152x1 ![0, 0] (masked f v c0 c1 c2 c3 c4 c5 c6 c7) slices_S2097152x2_S2097152x1_0_0) shapeCasts_S2097152x1_S2097152
def result1 (f : FVec Ideal S2097152x3 .f32) (v : IVec S2097152 1) (c0 c1 c2 c3 c4 c5 c6 c7 : FVec Ideal S2097152x2 .f32) : FVec Ideal S2097152 .f32 :=
  shapeCast S2097152 (extractStridedSlice S2097152x1 ![0, 1] (masked f v c0 c1 c2 c3 c4 c5 c6 c7) slices_S2097152x2_S2097152x1_0_1) shapeCasts_S2097152x1_S2097152

/-! ## Read at a row -/

theorem fcol0_at (f : FVec Ideal S2097152x3 .f32) (n : Fin 2097152) : fcol0 f (ix1 n) = f (ix2 n (0 : Fin 3)) :=
  (shapeCast_a1_a_apply _ _ n).trans (column_cut_apply 0 f _ n 0 0 rfl)
theorem fcol1_at (f : FVec Ideal S2097152x3 .f32) (n : Fin 2097152) : fcol1 f (ix1 n) = f (ix2 n (1 : Fin 3)) :=
  (shapeCast_a1_a_apply _ _ n).trans (column_cut_apply 1 f _ n 0 1 rfl)
theorem fcol2_at (f : FVec Ideal S2097152x3 .f32) (n : Fin 2097152) : fcol2 f (ix1 n) = f (ix2 n (2 : Fin 3)) :=
  (shapeCast_a1_a_apply _ _ n).trans (column_cut_apply 2 f _ n 0 2 rfl)

theorem comp_at (w : FVec Ideal S2097152 .f32) (n : Fin 2097152) : comp w (ix1 n) = Cert.KernelIdeal.Cell.one - w (ix1 n) := by
  unfold comp
  rw [subf_apply, scalar_spread_apply, constant_apply]

theorem term_at (wx wy wz : FVec Ideal S2097152 .f32) (ck : FVec Ideal S2097152x2 .f32) (n : Fin 2097152) (q : Fin 2) :
    term wx wy wz ck (ix2 n q) = wx (ix1 n) * wy (ix1 n) * wz (ix1 n) * ck (ix2 n q) := by
  unfold term
  rw [mulf_apply, column_spread_apply, vector_as_column_apply, mulf_apply, mulf_apply]

/-- The masked sum at row `n`, channel `q`. -/
theorem masked_at (f : FVec Ideal S2097152x3 .f32) (v : IVec S2097152 1) (c0 c1 c2 c3 c4 c5 c6 c7 : FVec Ideal S2097152x2 .f32)
    (n : Fin 2097152) (q : Fin 2) :
    masked f v c0 c1 c2 c3 c4 c5 c6 c7 (ix2 n q)
      = Scalar.select (v (ix1 n))
          (Cert.KernelIdeal.Cell.mix (f (ix2 n (0 : Fin 3))) (f (ix2 n (1 : Fin 3))) (f (ix2 n (2 : Fin 3)))
            (c0 (ix2 n q)) (c1 (ix2 n q)) (c2 (ix2 n q)) (c3 (ix2 n q)) (c4 (ix2 n q)) (c5 (ix2 n q)) (c6 (ix2 n q)) (c7 (ix2 n q)))
          Cert.KernelIdeal.Cell.zero := by
  unfold masked total Cert.KernelIdeal.Cell.mix
  rw [select_apply, column_spread_apply, vector_as_column_apply]
  simp only [addf_apply, term_at, comp_at, fcol0_at, fcol1_at, fcol2_at]
  rw [scalar_spread_apply, constant_apply]

theorem result0_at (f : FVec Ideal S2097152x3 .f32) (v : IVec S2097152 1) (c0 c1 c2 c3 c4 c5 c6 c7 : FVec Ideal S2097152x2 .f32) (n : Fin 2097152) :
    result0 f v c0 c1 c2 c3 c4 c5 c6 c7 (ix1 n) = masked f v c0 c1 c2 c3 c4 c5 c6 c7 (ix2 n (0 : Fin 2)) :=
  (shapeCast_a1_a_apply _ _ n).trans (column_cut_apply 0 _ _ n 0 0 rfl)

theorem result1_at (f : FVec Ideal S2097152x3 .f32) (v : IVec S2097152 1) (c0 c1 c2 c3 c4 c5 c6 c7 : FVec Ideal S2097152x2 .f32) (n : Fin 2097152) :
    result1 f v c0 c1 c2 c3 c4 c5 c6 c7 (ix1 n) = masked f v c0 c1 c2 c3 c4 c5 c6 c7 (ix2 n (1 : Fin 2)) :=
  (shapeCast_a1_a_apply _ _ n).trans (column_cut_apply 1 _ _ n 0 1 rfl)

end Cert.ReferenceIdeal.Tail

end
-- ==== Proof.RefWeightsA.lean ====
/-
  The first three weight vectors of the reference's blend: one minus column 0, 1, 2 of the fractions, as vectors over the rows.
-/
import proofs.«175399_j60687887892817_2_alg».proof.Proof.RefCuts
import proofs.«175399_j60687887892817_2_alg».proof.Proof.RefTail

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo

set_option maxHeartbeats 400000000 in
theorem w_v25_cut (W : Valuation τ sig (Elt Ideal)) :
    (after (ops (F := Ideal)) W (Proc.devRef .tc main_v25) : FVec Ideal S2097152 .f32) = Tail.comp (Tail.fcol0 (after (ops (F := Ideal)) W (Proc.devRef .tc main_v20))) := by
  unfold Tail.comp Tail.fcol0
  simp only [ops, rest1, rest2, rest3, rest4, rest5, rest6, rest7, ops0, ops1, ops2, ops3, ops4, ops5, ops6, ops7, List.cons_append, List.nil_append, List.append_nil]
  after_results_simp <;> rfl

set_option maxHeartbeats 400000000 in
theorem w_v29_cut (W : Valuation τ sig (Elt Ideal)) :
    (after (ops (F := Ideal)) W (Proc.devRef .tc main_v29) : FVec Ideal S2097152 .f32) = Tail.comp (Tail.fcol1 (after (ops (F := Ideal)) W (Proc.devRef .tc main_v20))) := by
  unfold Tail.comp Tail.fcol1
  simp only [ops, rest1, rest2, rest3, rest4, rest5, rest6, rest7, ops0, ops1, ops2, ops3, ops4, ops5, ops6, ops7, List.cons_append, List.nil_append, List.append_nil]
  after_results_simp <;> rfl

set_option maxHeartbeats 400000000 in
theorem w_v33_cut (W : Valuation τ sig (Elt Ideal)) :
    (after (ops (F := Ideal)) W (Proc.devRef .tc main_v33) : FVec Ideal S2097152 .f32) = Tail.comp (Tail.fcol2 (after (ops (F := Ideal)) W (Proc.devRef .tc main_v20))) := by
  unfold Tail.comp Tail.fcol2
  simp only [ops, rest1, rest2, rest3, rest4, rest5, rest6, rest7, ops0, ops1, ops2, ops3, ops4, ops5, ops6, ops7, List.cons_append, List.nil_append, List.append_nil]
  after_results_simp <;> rfl

end Cert.ReferenceIdeal.Ops

end
-- ==== Proof.RefWeightsB.lean ====
/-
  The remaining weight vectors of the reference's blend: each is a column of the fractions, or one minus it, as a vector
  over the rows; each is read with the operations before its window left as they are found.
-/
import proofs.«175399_j60687887892817_2_alg».proof.Proof.RefCuts
import proofs.«175399_j60687887892817_2_alg».proof.Proof.RefTail

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo

set_option maxHeartbeats 400000000 in
theorem w_v73_cut (W : Valuation τ sig (Elt Ideal)) :
    (after (rest1 (F := Ideal)) W (Proc.devRef .tc main_v73) : FVec Ideal S2097152 .f32) = Tail.fcol2 (after (rest1 (F := Ideal)) W (Proc.devRef .tc main_v20)) := by
  unfold Tail.fcol2
  simp only [rest1, rest2, rest3, rest4, rest5, rest6, rest7, ops1, ops2, ops3, ops4, ops5, ops6, ops7, List.cons_append, List.nil_append, List.append_nil]
  after_results_simp <;> rfl

set_option maxHeartbeats 400000000 in
theorem w_v113_cut (W : Valuation τ sig (Elt Ideal)) :
    (after (rest2 (F := Ideal)) W (Proc.devRef .tc main_v113) : FVec Ideal S2097152 .f32) = Tail.fcol1 (after (rest2 (F := Ideal)) W (Proc.devRef .tc main_v20)) := by
  unfold Tail.fcol1
  simp only [rest2, rest3, rest4, rest5, rest6, rest7, ops2, ops3, ops4, ops5, ops6, ops7, List.cons_append, List.nil_append, List.append_nil]
  after_results_simp <;> rfl

set_option maxHeartbeats 400000000 in
theorem w_v117_cut (W : Valuation τ sig (Elt Ideal)) :
    (after (rest2 (F := Ideal)) W (Proc.devRef .tc main_v117) : FVec Ideal S2097152 .f32) = Tail.comp (Tail.fcol2 (after (rest2 (F := Ideal)) W (Proc.devRef .tc main_v20))) := by
  unfold Tail.comp Tail.fcol2
  simp only [rest2, rest3, rest4, rest5, rest6, rest7, ops2, ops3, ops4, ops5, ops6, ops7, List.cons_append, List.nil_append, List.append_nil]
  after_results_simp <;> rfl

set_option maxHeartbeats 400000000 in
theorem w_v157_cut (W : Valuation τ sig (Elt Ideal)) :
    (after (rest3 (F := Ideal)) W (Proc.devRef .tc main_v157) : FVec Ideal S2097152 .f32) = Tail.fcol2 (after (rest3 (F := Ideal)) W (Proc.devRef .tc main_v20)) := by
  unfold Tail.fcol2
  simp only [rest3, rest4, rest5, rest6, rest7, ops3, ops4, ops5, ops6, ops7, List.cons_append, List.nil_append, List.append_nil]
  after_results_simp <;> rfl

set_option maxHeartbeats 400000000 in
theorem w_v197_cut (W : Valuation τ sig (Elt Ideal)) :
    (after (rest4 (F := Ideal)) W (Proc.devRef .tc main_v197) : FVec Ideal S2097152 .f32) = Tail.fcol0 (after (rest4 (F := Ideal)) W (Proc.devRef .tc main_v20)) := by
  unfold Tail.fcol0
  simp only [rest4, rest5, rest6, rest7, ops4, ops5, ops6, ops7, List.cons_append, List.nil_append, List.append_nil]
  after_results_simp <;> rfl

set_option maxHeartbeats 400000000 in
theorem w_v201_cut (W : Valuation τ sig (Elt Ideal)) :
    (after (rest4 (F := Ideal)) W (Proc.devRef .tc main_v201) : FVec Ideal S2097152 .f32) = Tail.comp (Tail.fcol1 (after (rest4 (F := Ideal)) W (Proc.devRef .tc main_v20))) := by
  unfold Tail.comp Tail.fcol1
  simp only [rest4, rest5, rest6, rest7, ops4, ops5, ops6, ops7, List.cons_append, List.nil_append, List.append_nil]
  after_results_simp <;> rfl

set_option maxHeartbeats 400000000 in
theorem w_v205_cut (W : Valuation τ sig (Elt Ideal)) :
    (after (rest4 (F := Ideal)) W (Proc.devRef .tc main_v205) : FVec Ideal S2097152 .f32) = Tail.comp (Tail.fcol2 (after (rest4 (F := Ideal)) W (Proc.devRef .tc main_v20))) := by
  unfold Tail.comp Tail.fcol2
  simp only [rest4, rest5, rest6, rest7, ops4, ops5, ops6, ops7, List.cons_append, List.nil_append, List.append_nil]
  after_results_simp <;> rfl

set_option maxHeartbeats 400000000 in
theorem w_v245_cut (W : Valuation τ sig (Elt Ideal)) :
    (after (rest5 (F := Ideal)) W (Proc.devRef .tc main_v245) : FVec Ideal S2097152 .f32) = Tail.fcol2 (after (rest5 (F := Ideal)) W (Proc.devRef .tc main_v20)) := by
  unfold Tail.fcol2
  simp only [rest5, rest6, rest7, ops5, ops6, ops7, List.cons_append, List.nil_append, List.append_nil]
  after_results_simp <;> rfl

set_option maxHeartbeats 400000000 in
theorem w_v285_cut (W : Valuation τ sig (Elt Ideal)) :
    (after (rest5 (F := Ideal)) W (Proc.devRef .tc main_v285) : FVec Ideal S2097152 .f32) = Tail.fcol1 (after (rest5 (F := Ideal)) W (Proc.devRef .tc main_v20)) := by
  unfold Tail.fcol1
  simp only [rest5, rest6, rest7, ops5, ops6, ops7, List.cons_append, List.nil_append, List.append_nil]
  after_results_simp <;> rfl

set_option maxHeartbeats 400000000 in
theorem w_v289_cut (W : Valuation τ sig (Elt Ideal)) :
    (after (rest5 (F := Ideal)) W (Proc.devRef .tc main_v289) : FVec Ideal S2097152 .f32) = Tail.comp (Tail.fcol2 (after (rest5 (F := Ideal)) W (Proc.devRef .tc main_v20))) := by
  unfold Tail.comp Tail.fcol2
  simp only [rest5, rest6, rest7, ops5, ops6, ops7, List.cons_append, List.nil_append, List.append_nil]
  after_results_simp <;> rfl

set_option maxHeartbeats 400000000 in
theorem w_v329_cut (W : Valuation τ sig (Elt Ideal)) :
    (after (rest6 (F := Ideal)) W (Proc.devRef .tc main_v329) : FVec Ideal S2097152 .f32) = Tail.fcol2 (after (rest6 (F := Ideal)) W (Proc.devRef .tc main_v20)) := by
  unfold Tail.fcol2
  simp only [rest6, rest7, ops6, ops7, List.cons_append, List.nil_append, List.append_nil]
  after_results_simp <;> rfl

end Cert.ReferenceIdeal.Ops

end
-- ==== Proof.RefSums.lean ====
/-
  The reference's running sum, corner by corner: after corner `k` it is the sum after corner `k - 1` plus the product of
  three weight vectors spread over the channels times the gathered corner array; then the selection on the validity bits
  and the two channel cuts. Each equation is read with the operations before its window left as they are found.
-/
import proofs.«175399_j60687887892817_2_alg».proof.Proof.RefCuts
import proofs.«175399_j60687887892817_2_alg».proof.Proof.RefTail

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo

set_option maxHeartbeats 400000000 in
theorem a_v71_cut (W : Valuation τ sig (Elt Ideal)) :
    (after (rest1 (F := Ideal)) W (Proc.devRef .tc main_v71) : FVec Ideal S2097152x2 .f32)
      = addf (F := Ideal) (after (rest1 (F := Ideal)) W (Proc.devRef .tc main_v21))
          (Tail.term (after (rest1 (F := Ideal)) W (Proc.devRef .tc main_v25)) (after (rest1 (F := Ideal)) W (Proc.devRef .tc main_v29))
            (after (rest1 (F := Ideal)) W (Proc.devRef .tc main_v33)) (after (rest1 (F := Ideal)) W (Proc.devRef .tc main_v65))) := by
  unfold Tail.term
  simp only [rest1, rest2, rest3, rest4, rest5, rest6, rest7, ops1, ops2, ops3, ops4, ops5, ops6, ops7, List.cons_append, List.nil_append, List.append_nil]
  after_results_simp <;> rfl

set_option maxHeartbeats 400000000 in
theorem a_v111_cut (W : Valuation τ sig (Elt Ideal)) :
    (after (rest2 (F := Ideal)) W (Proc.devRef .tc main_v111) : FVec Ideal S2097152x2 .f32)
      = addf (F := Ideal) (after (rest2 (F := Ideal)) W (Proc.devRef .tc main_v71))
          (Tail.term (after (rest2 (F := Ideal)) W (Proc.devRef .tc main_v25)) (after (rest2 (F := Ideal)) W (Proc.devRef .tc main_v29))
            (after (rest2 (F := Ideal)) W (Proc.devRef .tc main_v73)) (after (rest2 (F := Ideal)) W (Proc.devRef .tc main_v105))) := by
  unfold Tail.term
  simp only [rest2, rest3, rest4, rest5, rest6, rest7, ops2, ops3, ops4, ops5, ops6, ops7, List.cons_append, List.nil_append, List.append_nil]
  after_results_simp <;> rfl

set_option maxHeartbeats 400000000 in
theorem a_v155_cut (W : Valuation τ sig (Elt Ideal)) :
    (after (rest3 (F := Ideal)) W (Proc.devRef .tc main_v155) : FVec Ideal S2097152x2 .f32)
      = addf (F := Ideal) (after (rest3 (F := Ideal)) W (Proc.devRef .tc main_v111))
          (Tail.term (after (rest3 (F := Ideal)) W (Proc.devRef .tc main_v25)) (after (rest3 (F := Ideal)) W (Proc.devRef .tc main_v113))
            (after (rest3 (F := Ideal)) W (Proc.devRef .tc main_v117)) (after (rest3 (F := Ideal)) W (Proc.devRef .tc main_v149))) := by
  unfold Tail.term
  simp only [rest3, rest4, rest5, rest6, rest7, ops3, ops4, ops5, ops6, ops7, List.cons_append, List.nil_append, List.append_nil]
  after_results_simp <;> rfl

set_option maxHeartbeats 400000000 in
theorem a_v195_cut (W : Valuation τ sig (Elt Ideal)) :
    (after (rest4 (F := Ideal)) W (Proc.devRef .tc main_v195) : FVec Ideal S2097152x2 .f32)
      = addf (F := Ideal) (after (rest4 (F := Ideal)) W (Proc.devRef .tc main_v155))
          (Tail.term (after (rest4 (F := Ideal)) W (Proc.devRef .tc main_v25)) (after (rest4 (F := Ideal)) W (Proc.devRef .tc main_v113))
            (after (rest4 (F := Ideal)) W (Proc.devRef .tc main_v157)) (after (rest4 (F := Ideal)) W (Proc.devRef .tc main_v189))) := by
  unfold Tail.term
  simp only [rest4, rest5, rest6, rest7, ops4, ops5, ops6, ops7, List.cons_append, List.nil_append, List.append_nil]
  after_results_simp <;> rfl

set_option maxHeartbeats 400000000 in
theorem a_v243_cut (W : Valuation τ sig (Elt Ideal)) :
    (after (rest4 (F := Ideal)) W (Proc.devRef .tc main_v243) : FVec Ideal S2097152x2 .f32)
      = addf (F := Ideal) (after (rest4 (F := Ideal)) W (Proc.devRef .tc main_v195))
          (Tail.term (after (rest4 (F := Ideal)) W (Proc.devRef .tc main_v197)) (after (rest4 (F := Ideal)) W (Proc.devRef .tc main_v201))
            (after (rest4 (F := Ideal)) W (Proc.devRef .tc main_v205)) (after (rest4 (F := Ideal)) W (Proc.devRef .tc main_v237))) := by
  unfold Tail.term
  simp only [rest4, rest5, rest6, rest7, ops4, ops5, ops6, ops7, List.cons_append, List.nil_append, List.append_nil]
  after_results_simp <;> rfl

set_option maxHeartbeats 400000000 in
theorem a_v283_cut (W : Valuation τ sig (Elt Ideal)) :
    (after (rest5 (F := Ideal)) W (Proc.devRef .tc main_v283) : FVec Ideal S2097152x2 .f32)
      = addf (F := Ideal) (after (rest5 (F := Ideal)) W (Proc.devRef .tc main_v243))
          (Tail.term (after (rest5 (F := Ideal)) W (Proc.devRef .tc main_v197)) (after (rest5 (F := Ideal)) W (Proc.devRef .tc main_v201))
            (after (rest5 (F := Ideal)) W (Proc.devRef .tc main_v245)) (after (rest5 (F := Ideal)) W (Proc.devRef .tc main_v277))) := by
  unfold Tail.term
  simp only [rest5, rest6, rest7, ops5, ops6, ops7, List.cons_append, List.nil_append, List.append_nil]
  after_results_simp <;> rfl

set_option maxHeartbeats 400000000 in
theorem a_v327_cut (W : Valuation τ sig (Elt Ideal)) :
    (after (rest6 (F := Ideal)) W (Proc.devRef .tc main_v327) : FVec Ideal S2097152x2 .f32)
      = addf (F := Ideal) (after (rest6 (F := Ideal)) W (Proc.devRef .tc main_v283))
          (Tail.term (after (rest6 (F := Ideal)) W (Proc.devRef .tc main_v197)) (after (rest6 (F := Ideal)) W (Proc.devRef .tc main_v285))
            (after (rest6 (F := Ideal)) W (Proc.devRef .tc main_v289)) (after (rest6 (F := Ideal)) W (Proc.devRef .tc main_v321))) := by
  unfold Tail.term
  simp only [rest6, rest7, ops6, ops7, List.cons_append, List.nil_append, List.append_nil]
  after_results_simp <;> rfl

set_option maxHeartbeats 400000000 in
theorem a_v367_cut (W : Valuation τ sig (Elt Ideal)) :
    (after (rest7 (F := Ideal)) W (Proc.devRef .tc main_v367) : FVec Ideal S2097152x2 .f32)
      = addf (F := Ideal) (after (rest7 (F := Ideal)) W (Proc.devRef .tc main_v327))
          (Tail.term (after (rest7 (F := Ideal)) W (Proc.devRef .tc main_v197)) (after (rest7 (F := Ideal)) W (Proc.devRef .tc main_v285))
            (after (rest7 (F := Ideal)) W (Proc.devRef .tc main_v329)) (after (rest7 (F := Ideal)) W (Proc.devRef .tc main_v361))) := by
  unfold Tail.term
  simp only [rest7, ops7, List.cons_append, List.nil_append, List.append_nil]
  after_results_simp <;> rfl

set_option maxHeartbeats 400000000 in
theorem zero_cut (W : Valuation τ sig (Elt Ideal)) :
    (after (ops (F := Ideal)) W (Proc.devRef .tc main_v21) : FVec Ideal S2097152x2 .f32)
      = broadcastInDim S2097152x2 ![] bcast_S_S2097152x2 (constant (F := Ideal) S_ .f32 0x00000000#32) := by
  simp only [ops, rest1, rest2, rest3, rest4, rest5, rest6, rest7, ops0, ops1, ops2, ops3, ops4, ops5, ops6, ops7, List.cons_append, List.nil_append, List.append_nil]
  after_results_simp <;> rfl

set_option maxHeartbeats 400000000 in
theorem masked_cut (W : Valuation τ sig (Elt Ideal)) :
    (after (rest7 (F := Ideal)) W (Proc.devRef .tc main_v369) : FVec Ideal S2097152x2 .f32)
      = select (broadcastInDim S2097152x2 ![0, 1] bcast_S2097152x1_S2097152x2_0_1
            (broadcastInDim S2097152x1 ![0] bcast_S2097152_S2097152x1_0 (after (rest7 (F := Ideal)) W (Proc.devRef .tc main_v13))))
          (after (rest7 (F := Ideal)) W (Proc.devRef .tc main_v367))
          (broadcastInDim S2097152x2 ![] bcast_S_S2097152x2 (constant (F := Ideal) S_ .f32 0x00000000#32)) := by
  simp only [rest7, ops7, List.cons_append, List.nil_append, List.append_nil]
  after_results_simp <;> rfl

set_option maxHeartbeats 400000000 in
theorem out0_cut (W : Valuation τ sig (Elt Ideal)) :
    (after (rest7 (F := Ideal)) W (Proc.devRef .tc main_v371) : FVec Ideal S2097152 .f32)
      = shapeCast S2097152 (extractStridedSlice S2097152x1 ![0, 0] (after (rest7 (F := Ideal)) W (Proc.devRef .tc main_v369))
          slices_S2097152x2_S2097152x1_0_0) shapeCasts_S2097152x1_S2097152 := by
  simp only [rest7, ops7, List.cons_append, List.nil_append, List.append_nil]
  after_results_simp <;> rfl

set_option maxHeartbeats 400000000 in
theorem out1_cut (W : Valuation τ sig (Elt Ideal)) :
    (after (rest7 (F := Ideal)) W (Proc.devRef .tc main_v373) : FVec Ideal S2097152 .f32)
      = shapeCast S2097152 (extractStridedSlice S2097152x1 ![0, 1] (after (rest7 (F := Ideal)) W (Proc.devRef .tc main_v369))
          slices_S2097152x2_S2097152x1_0_1) shapeCasts_S2097152x1_S2097152 := by
  simp only [rest7, ops7, List.cons_append, List.nil_append, List.append_nil]
  after_results_simp <;> rfl

end Cert.ReferenceIdeal.Ops

end
-- ==== Proof.RefValue.lean ====
/-
  The reference's two results and its argument arrays after its run, in terms of three families of intermediate buffers:
  the fractions (%20), the validity bits (%13) and the eight gathered corner arrays (%65, %105, …, %361). Each result
  buffer's fold over the 471 operations is the blend `Tail.result0/1` of those buffers' folds: the local equations of the
  weight vectors, of the running sum, of the selection and of the channel cuts, chained. No operation writes an argument array.
-/
import proofs.«175399_j60687887892817_2_alg».proof.Proof.RefWeightsA
import proofs.«175399_j60687887892817_2_alg».proof.Proof.RefWeightsB
import proofs.«175399_j60687887892817_2_alg».proof.Proof.RefSums

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo

variable (V : Valuation τ sig (Elt Ideal))

/-- The fractions and the validity bits after the run. -/
abbrev fracs : FVec Ideal S2097152x3 .f32 := after (ops (F := Ideal)) V (Proc.devRef .tc main_v20)
abbrev bits : IVec S2097152 1 := after (ops (F := Ideal)) V (Proc.devRef .tc main_v13)

/-! ## The local equations over the whole fold -/

theorem w_v25 : (after (ops (F := Ideal)) V (Proc.devRef .tc main_v25) : FVec Ideal S2097152 .f32) = Tail.comp (Tail.fcol0 (after (ops (F := Ideal)) V (Proc.devRef .tc main_v20))) :=
  w_v25_cut V

theorem w_v29 : (after (ops (F := Ideal)) V (Proc.devRef .tc main_v29) : FVec Ideal S2097152 .f32) = Tail.comp (Tail.fcol1 (after (ops (F := Ideal)) V (Proc.devRef .tc main_v20))) :=
  w_v29_cut V

theorem w_v33 : (after (ops (F := Ideal)) V (Proc.devRef .tc main_v33) : FVec Ideal S2097152 .f32) = Tail.comp (Tail.fcol2 (after (ops (F := Ideal)) V (Proc.devRef .tc main_v20))) :=
  w_v33_cut V

theorem w_v73 : (after (ops (F := Ideal)) V (Proc.devRef .tc main_v73) : FVec Ideal S2097152 .f32) = Tail.fcol2 (after (ops (F := Ideal)) V (Proc.devRef .tc main_v20)) := by
  have h := w_v73_cut (at1 V)
  rw [← full_eq1 V] at h
  exact h

theorem w_v113 : (after (ops (F := Ideal)) V (Proc.devRef .tc main_v113) : FVec Ideal S2097152 .f32) = Tail.fcol1 (after (ops (F := Ideal)) V (Proc.devRef .tc main_v20)) := by
  have h := w_v113_cut (at2 V)
  rw [← full_eq2 V] at h
  exact h

theorem w_v117 : (after (ops (F := Ideal)) V (Proc.devRef .tc main_v117) : FVec Ideal S2097152 .f32) = Tail.comp (Tail.fcol2 (after (ops (F := Ideal)) V (Proc.devRef .tc main_v20))) := by
  have h := w_v117_cut (at2 V)
  rw [← full_eq2 V] at h
  exact h

theorem w_v157 : (after (ops (F := Ideal)) V (Proc.devRef .tc main_v157) : FVec Ideal S2097152 .f32) = Tail.fcol2 (after (ops (F := Ideal)) V (Proc.devRef .tc main_v20)) := by
  have h := w_v157_cut (at3 V)
  rw [← full_eq3 V] at h
  exact h

theorem w_v197 : (after (ops (F := Ideal)) V (Proc.devRef .tc main_v197) : FVec Ideal S2097152 .f32) = Tail.fcol0 (after (ops (F := Ideal)) V (Proc.devRef .tc main_v20)) := by
  have h := w_v197_cut (at4 V)
  rw [← full_eq4 V] at h
  exact h

theorem w_v201 : (after (ops (F := Ideal)) V (Proc.devRef .tc main_v201) : FVec Ideal S2097152 .f32) = Tail.comp (Tail.fcol1 (after (ops (F := Ideal)) V (Proc.devRef .tc main_v20))) := by
  have h := w_v201_cut (at4 V)
  rw [← full_eq4 V] at h
  exact h

theorem w_v205 : (after (ops (F := Ideal)) V (Proc.devRef .tc main_v205) : FVec Ideal S2097152 .f32) = Tail.comp (Tail.fcol2 (after (ops (F := Ideal)) V (Proc.devRef .tc main_v20))) := by
  have h := w_v205_cut (at4 V)
  rw [← full_eq4 V] at h
  exact h

theorem w_v245 : (after (ops (F := Ideal)) V (Proc.devRef .tc main_v245) : FVec Ideal S2097152 .f32) = Tail.fcol2 (after (ops (F := Ideal)) V (Proc.devRef .tc main_v20)) := by
  have h := w_v245_cut (at5 V)
  rw [← full_eq5 V] at h
  exact h

theorem w_v285 : (after (ops (F := Ideal)) V (Proc.devRef .tc main_v285) : FVec Ideal S2097152 .f32) = Tail.fcol1 (after (ops (F := Ideal)) V (Proc.devRef .tc main_v20)) := by
  have h := w_v285_cut (at5 V)
  rw [← full_eq5 V] at h
  exact h

theorem w_v289 : (after (ops (F := Ideal)) V (Proc.devRef .tc main_v289) : FVec Ideal S2097152 .f32) = Tail.comp (Tail.fcol2 (after (ops (F := Ideal)) V (Proc.devRef .tc main_v20))) := by
  have h := w_v289_cut (at5 V)
  rw [← full_eq5 V] at h
  exact h

theorem w_v329 : (after (ops (F := Ideal)) V (Proc.devRef .tc main_v329) : FVec Ideal S2097152 .f32) = Tail.fcol2 (after (ops (F := Ideal)) V (Proc.devRef .tc main_v20)) := by
  have h := w_v329_cut (at6 V)
  rw [← full_eq6 V] at h
  exact h

theorem a_v71 : (after (ops (F := Ideal)) V (Proc.devRef .tc main_v71) : FVec Ideal S2097152x2 .f32)
    = addf (F := Ideal) (after (ops (F := Ideal)) V (Proc.devRef .tc main_v21))
        (Tail.term (after (ops (F := Ideal)) V (Proc.devRef .tc main_v25)) (after (ops (F := Ideal)) V (Proc.devRef .tc main_v29))
          (after (ops (F := Ideal)) V (Proc.devRef .tc main_v33)) (after (ops (F := Ideal)) V (Proc.devRef .tc main_v65))) := by
  have h := a_v71_cut (at1 V)
  rw [← full_eq1 V] at h
  exact h

theorem a_v111 : (after (ops (F := Ideal)) V (Proc.devRef .tc main_v111) : FVec Ideal S2097152x2 .f32)
    = addf (F := Ideal) (after (ops (F := Ideal)) V (Proc.devRef .tc main_v71))
        (Tail.term (after (ops (F := Ideal)) V (Proc.devRef .tc main_v25)) (after (ops (F := Ideal)) V (Proc.devRef .tc main_v29))
          (after (ops (F := Ideal)) V (Proc.devRef .tc main_v73)) (after (ops (F := Ideal)) V (Proc.devRef .tc main_v105))) := by
  have h := a_v111_cut (at2 V)
  rw [← full_eq2 V] at h
  exact h

theorem a_v155 : (after (ops (F := Ideal)) V (Proc.devRef .tc main_v155) : FVec Ideal S2097152x2 .f32)
    = addf (F := Ideal) (after (ops (F := Ideal)) V (Proc.devRef .tc main_v111))
        (Tail.term (after (ops (F := Ideal)) V (Proc.devRef .tc main_v25)) (after (ops (F := Ideal)) V (Proc.devRef .tc main_v113))
          (after (ops (F := Ideal)) V (Proc.devRef .tc main_v117)) (after (ops (F := Ideal)) V (Proc.devRef .tc main_v149))) := by
  have h := a_v155_cut (at3 V)
  rw [← full_eq3 V] at h
  exact h

theorem a_v195 : (after (ops (F := Ideal)) V (Proc.devRef .tc main_v195) : FVec Ideal S2097152x2 .f32)
    = addf (F := Ideal) (after (ops (F := Ideal)) V (Proc.devRef .tc main_v155))
        (Tail.term (after (ops (F := Ideal)) V (Proc.devRef .tc main_v25)) (after (ops (F := Ideal)) V (Proc.devRef .tc main_v113))
          (after (ops (F := Ideal)) V (Proc.devRef .tc main_v157)) (after (ops (F := Ideal)) V (Proc.devRef .tc main_v189))) := by
  have h := a_v195_cut (at4 V)
  rw [← full_eq4 V] at h
  exact h

theorem a_v243 : (after (ops (F := Ideal)) V (Proc.devRef .tc main_v243) : FVec Ideal S2097152x2 .f32)
    = addf (F := Ideal) (after (ops (F := Ideal)) V (Proc.devRef .tc main_v195))
        (Tail.term (after (ops (F := Ideal)) V (Proc.devRef .tc main_v197)) (after (ops (F := Ideal)) V (Proc.devRef .tc main_v201))
          (after (ops (F := Ideal)) V (Proc.devRef .tc main_v205)) (after (ops (F := Ideal)) V (Proc.devRef .tc main_v237))) := by
  have h := a_v243_cut (at4 V)
  rw [← full_eq4 V] at h
  exact h

theorem a_v283 : (after (ops (F := Ideal)) V (Proc.devRef .tc main_v283) : FVec Ideal S2097152x2 .f32)
    = addf (F := Ideal) (after (ops (F := Ideal)) V (Proc.devRef .tc main_v243))
        (Tail.term (after (ops (F := Ideal)) V (Proc.devRef .tc main_v197)) (after (ops (F := Ideal)) V (Proc.devRef .tc main_v201))
          (after (ops (F := Ideal)) V (Proc.devRef .tc main_v245)) (after (ops (F := Ideal)) V (Proc.devRef .tc main_v277))) := by
  have h := a_v283_cut (at5 V)
  rw [← full_eq5 V] at h
  exact h

theorem a_v327 : (after (ops (F := Ideal)) V (Proc.devRef .tc main_v327) : FVec Ideal S2097152x2 .f32)
    = addf (F := Ideal) (after (ops (F := Ideal)) V (Proc.devRef .tc main_v283))
        (Tail.term (after (ops (F := Ideal)) V (Proc.devRef .tc main_v197)) (after (ops (F := Ideal)) V (Proc.devRef .tc main_v285))
          (after (ops (F := Ideal)) V (Proc.devRef .tc main_v289)) (after (ops (F := Ideal)) V (Proc.devRef .tc main_v321))) := by
  have h := a_v327_cut (at6 V)
  rw [← full_eq6 V] at h
  exact h

theorem a_v367 : (after (ops (F := Ideal)) V (Proc.devRef .tc main_v367) : FVec Ideal S2097152x2 .f32)
    = addf (F := Ideal) (after (ops (F := Ideal)) V (Proc.devRef .tc main_v327))
        (Tail.term (after (ops (F := Ideal)) V (Proc.devRef .tc main_v197)) (after (ops (F := Ideal)) V (Proc.devRef .tc main_v285))
          (after (ops (F := Ideal)) V (Proc.devRef .tc main_v329)) (after (ops (F := Ideal)) V (Proc.devRef .tc main_v361))) := by
  have h := a_v367_cut (at7 V)
  rw [← full_eq7 V] at h
  exact h

theorem masked_full : (after (ops (F := Ideal)) V (Proc.devRef .tc main_v369) : FVec Ideal S2097152x2 .f32)
    = select (broadcastInDim S2097152x2 ![0, 1] bcast_S2097152x1_S2097152x2_0_1
          (broadcastInDim S2097152x1 ![0] bcast_S2097152_S2097152x1_0 (after (ops (F := Ideal)) V (Proc.devRef .tc main_v13))))
        (after (ops (F := Ideal)) V (Proc.devRef .tc main_v367))
        (broadcastInDim S2097152x2 ![] bcast_S_S2097152x2 (constant (F := Ideal) S_ .f32 0x00000000#32)) := by
  have h := masked_cut (at7 V)
  rw [← full_eq7 V] at h
  exact h

theorem out0_full : (after (ops (F := Ideal)) V (Proc.devRef .tc main_v371) : FVec Ideal S2097152 .f32)
    = shapeCast S2097152 (extractStridedSlice S2097152x1 ![0, 0] (after (ops (F := Ideal)) V (Proc.devRef .tc main_v369))
        slices_S2097152x2_S2097152x1_0_0) shapeCasts_S2097152x1_S2097152 := by
  have h := out0_cut (at7 V)
  rw [← full_eq7 V] at h
  exact h

theorem out1_full : (after (ops (F := Ideal)) V (Proc.devRef .tc main_v373) : FVec Ideal S2097152 .f32)
    = shapeCast S2097152 (extractStridedSlice S2097152x1 ![0, 1] (after (ops (F := Ideal)) V (Proc.devRef .tc main_v369))
        slices_S2097152x2_S2097152x1_0_1) shapeCasts_S2097152x1_S2097152 := by
  have h := out1_cut (at7 V)
  rw [← full_eq7 V] at h
  exact h

/-! ## The results -/

/-- The first result is the blend of the fractions, the bits and the eight corner arrays, channel 0. -/
theorem result0_eq :
    (after (ops (F := Ideal)) V (Proc.devRef .tc main_v371) : FVec Ideal S2097152 .f32)
      = Tail.result0 (fracs V) (bits V) (after (ops (F := Ideal)) V (Proc.devRef .tc main_v65)) (after (ops (F := Ideal)) V (Proc.devRef .tc main_v105)) (after (ops (F := Ideal)) V (Proc.devRef .tc main_v149)) (after (ops (F := Ideal)) V (Proc.devRef .tc main_v189))
          (after (ops (F := Ideal)) V (Proc.devRef .tc main_v237)) (after (ops (F := Ideal)) V (Proc.devRef .tc main_v277)) (after (ops (F := Ideal)) V (Proc.devRef .tc main_v321)) (after (ops (F := Ideal)) V (Proc.devRef .tc main_v361)) := by
  unfold Tail.result0 Tail.masked Tail.total
  rw [out0_full V, masked_full V, a_v367 V, a_v327 V, a_v283 V, a_v243 V, a_v195 V, a_v155 V, a_v111 V, a_v71 V, zero_cut V,
    w_v25 V, w_v29 V, w_v33 V, w_v73 V, w_v113 V, w_v117 V, w_v157 V, w_v197 V, w_v201 V, w_v205 V, w_v245 V, w_v285 V, w_v289 V, w_v329 V]

/-- The second, channel 1. -/
theorem result1_eq :
    (after (ops (F := Ideal)) V (Proc.devRef .tc main_v373) : FVec Ideal S2097152 .f32)
      = Tail.result1 (fracs V) (bits V) (after (ops (F := Ideal)) V (Proc.devRef .tc main_v65)) (after (ops (F := Ideal)) V (Proc.devRef .tc main_v105)) (after (ops (F := Ideal)) V (Proc.devRef .tc main_v149)) (after (ops (F := Ideal)) V (Proc.devRef .tc main_v189))
          (after (ops (F := Ideal)) V (Proc.devRef .tc main_v237)) (after (ops (F := Ideal)) V (Proc.devRef .tc main_v277)) (after (ops (F := Ideal)) V (Proc.devRef .tc main_v321)) (after (ops (F := Ideal)) V (Proc.devRef .tc main_v361)) := by
  unfold Tail.result1 Tail.masked Tail.total
  rw [out1_full V, masked_full V, a_v367 V, a_v327 V, a_v283 V, a_v243 V, a_v195 V, a_v155 V, a_v111 V, a_v71 V, zero_cut V,
    w_v25 V, w_v29 V, w_v33 V, w_v73 V, w_v113 V, w_v117 V, w_v157 V, w_v197 V, w_v201 V, w_v205 V, w_v245 V, w_v285 V, w_v289 V, w_v329 V]

/-! ## The arguments -/

set_option maxHeartbeats 400000000 in
/-- No operation writes the first argument array. -/
theorem arg0_kept : after (ops (F := Ideal)) V (Proc.devRef .tc main_arg0) = V (Proc.devRef .tc main_arg0) := by
  simp only [ops, ops0, ops1, ops2, ops3, ops4, ops5, ops6, ops7, List.cons_append, List.nil_append, List.append_nil]
  after_results_simp <;> rfl

set_option maxHeartbeats 400000000 in
/-- Nor the second. -/
theorem arg1_kept : after (ops (F := Ideal)) V (Proc.devRef .tc main_arg1) = V (Proc.devRef .tc main_arg1) := by
  simp only [ops, ops0, ops1, ops2, ops3, ops4, ops5, ops6, ops7, List.cons_append, List.nil_append, List.append_nil]
  after_results_simp <;> rfl

end Cert.ReferenceIdeal.Ops

end
-- ==== Proof.Atoms.lean ====
/-
  The ten shared intermediate arrays, together. Each reference gather, over the whole fold, is `cornerOf dx dy dz` of the
  reference's integer cell index and grid; the kernel program's gather is the same function of its own cell index and grid;
  the two cell indices are the same function of arguments that agree, and no operation writes the grid. With the fractions
  and the validity bits, these are the ten arrays the two blends are made of.
-/
import proofs.«175399_j60687887892817_2_alg».proof.Proof.AtomsA
import proofs.«175399_j60687887892817_2_alg».proof.Proof.RefGatherB
import proofs.«175399_j60687887892817_2_alg».proof.Proof.KCornersA
import proofs.«175399_j60687887892817_2_alg».proof.Proof.KCornersB
import proofs.«175399_j60687887892817_2_alg».proof.Proof.RefValue

noncomputable section

namespace Cert.ReferenceIdeal.Ops

open Cert.ReferenceIdeal Cert.ReferenceIdeal.Gen Idealize.ShloMosaic Idealize.ShloMosaic.TcCoe Idealize.SL.Sem Idealize.ShloMosaic.StableHlo

theorem corner0_full (V : Valuation τ sig (Elt Ideal)) :
    (after (ops (F := Ideal)) V (Proc.devRef .tc main_v65) : FVec Ideal S2097152x2 .f32)
      = cornerOf 0#32 0#32 0#32 (after (ops (F := Ideal)) V (Proc.devRef .tc main_v18)) (after (ops (F := Ideal)) V (Proc.devRef .tc main_arg1)) :=
  g0_cut V

theorem corner1_full (V : Valuation τ sig (Elt Ideal)) :
    (after (ops (F := Ideal)) V (Proc.devRef .tc main_v105) : FVec Ideal S2097152x2 .f32)
      = cornerOf 0#32 0#32 1#32 (after (ops (F := Ideal)) V (Proc.devRef .tc main_v18)) (after (ops (F := Ideal)) V (Proc.devRef .tc main_arg1)) := by
  have h := g1_cut (at1 V)
  rw [← full_eq1 V] at h
  exact h

theorem corner2_full (V : Valuation τ sig (Elt Ideal)) :
    (after (ops (F := Ideal)) V (Proc.devRef .tc main_v149) : FVec Ideal S2097152x2 .f32)
      = cornerOf 0#32 1#32 0#32 (after (ops (F := Ideal)) V (Proc.devRef .tc main_v18)) (after (ops (F := Ideal)) V (Proc.devRef .tc main_arg1)) := by
  have h := g2_cut (at2 V)
  rw [← full_eq2 V] at h
  exact h

theorem corner3_full (V : Valuation τ sig (Elt Ideal)) :
    (after (ops (F := Ideal)) V (Proc.devRef .tc main_v189) : FVec Ideal S2097152x2 .f32)
      = cornerOf 0#32 1#32 1#32 (after (ops (F := Ideal)) V (Proc.devRef .tc main_v18)) (after (ops (F := Ideal)) V (Proc.devRef .tc main_arg1)) := by
  have h := g3_cut (at3 V)
  rw [← full_eq3 V] at h
  exact h

theorem corner4_full (V : Valuation τ sig (Elt Ideal)) :
    (after (ops (F := Ideal)) V (Proc.devRef .tc main_v237) : FVec Ideal S2097152x2 .f32)
      = cornerOf 1#32 0#32 0#32 (after (ops (F := Ideal)) V (Proc.devRef .tc main_v18)) (after (ops (F := Ideal)) V (Proc.devRef .tc main_arg1)) := by
  have h := g4_cut (at4 V)
  rw [← full_eq4 V] at h
  exact h

theorem corner5_full (V : Valuation τ sig (Elt Ideal)) :
    (after (ops (F := Ideal)) V (Proc.devRef .tc main_v277) : FVec Ideal S2097152x2 .f32)
      = cornerOf 1#32 0#32 1#32 (after (ops (F := Ideal)) V (Proc.devRef .tc main_v18)) (after (ops (F := Ideal)) V (Proc.devRef .tc main_arg1)) := by
  have h := g5_cut (at5 V)
  rw [← full_eq5 V] at h
  exact h

theorem corner6_full (V : Valuation τ sig (Elt Ideal)) :
    (after (ops (F := Ideal)) V (Proc.devRef .tc main_v321) : FVec Ideal S2097152x2 .f32)
      = cornerOf 1#32 1#32 0#32 (after (ops (F := Ideal)) V (Proc.devRef .tc main_v18)) (after (ops (F := Ideal)) V (Proc.devRef .tc main_arg1)) := by
  have h := g6_cut (at6 V)
  rw [← full_eq6 V] at h
  exact h

theorem corner7_full (V : Valuation τ sig (Elt Ideal)) :
    (after (ops (F := Ideal)) V (Proc.devRef .tc main_v361) : FVec Ideal S2097152x2 .f32)
      = cornerOf 1#32 1#32 1#32 (after (ops (F := Ideal)) V (Proc.devRef .tc main_v18)) (after (ops (F := Ideal)) V (Proc.devRef .tc main_arg1)) := by
  have h := g7_cut (at6 V)
  rw [← full_eq6 V] at h
  exact h

end Cert.ReferenceIdeal.Ops

namespace Cert.Shared

open Idealize.ShloMosaic Idealize.ShloMosaic.TcCoe Idealize.SL.Sem Idealize.ShloMosaic.StableHlo
open Cert.KernelIdeal.Combine

variable (m : (ℓ : Loc Cert.KernelIdeal.nD Cert.KernelIdeal.τ Cert.KernelIdeal.sig) → Buf (Elt Ideal) ℓ) (c : Dev Cert.KernelIdeal.nD)
  (V' : Valuation Cert.ReferenceIdeal.τ Cert.ReferenceIdeal.sig (Elt Ideal))

theorem atom_v65
    (h0 : (V' (Proc.devRef .tc Cert.ReferenceIdeal.main_arg0) : FVec Ideal Cert.ReferenceIdeal.S2097152x3 .f32)
      = m ((c : Thread Cert.KernelIdeal.nD Cert.KernelIdeal.τ).loc Cert.KernelIdeal.main_arg0))
    (h1 : (V' (Proc.devRef .tc Cert.ReferenceIdeal.main_arg1) : FVec Ideal Cert.ReferenceIdeal.S256x256x256x2 .f32)
      = m ((c : Thread Cert.KernelIdeal.nD Cert.KernelIdeal.τ).loc Cert.KernelIdeal.main_arg1)) :
    (after (Cert.ReferenceIdeal.Ops.ops (F := Ideal)) V' (Proc.devRef .tc Cert.ReferenceIdeal.main_v65) : FVec Ideal Cert.ReferenceIdeal.S2097152x2 .f32) = entry m c Cert.KernelIdeal.main_v55 := by
  rw [Cert.ReferenceIdeal.Ops.corner0_full V', atom_v18 m c V' h0 h1, Cert.ReferenceIdeal.Ops.arg1_kept V', h1]
  exact (kcorner0 m c).symm

theorem atom_v105
    (h0 : (V' (Proc.devRef .tc Cert.ReferenceIdeal.main_arg0) : FVec Ideal Cert.ReferenceIdeal.S2097152x3 .f32)
      = m ((c : Thread Cert.KernelIdeal.nD Cert.KernelIdeal.τ).loc Cert.KernelIdeal.main_arg0))
    (h1 : (V' (Proc.devRef .tc Cert.ReferenceIdeal.main_arg1) : FVec Ideal Cert.ReferenceIdeal.S256x256x256x2 .f32)
      = m ((c : Thread Cert.KernelIdeal.nD Cert.KernelIdeal.τ).loc Cert.KernelIdeal.main_arg1)) :
    (after (Cert.ReferenceIdeal.Ops.ops (F := Ideal)) V' (Proc.devRef .tc Cert.ReferenceIdeal.main_v105) : FVec Ideal Cert.ReferenceIdeal.S2097152x2 .f32) = entry m c Cert.KernelIdeal.main_v87 := by
  rw [Cert.ReferenceIdeal.Ops.corner1_full V', atom_v18 m c V' h0 h1, Cert.ReferenceIdeal.Ops.arg1_kept V', h1]
  exact (kcorner1 m c).symm

theorem atom_v149
    (h0 : (V' (Proc.devRef .tc Cert.ReferenceIdeal.main_arg0) : FVec Ideal Cert.ReferenceIdeal.S2097152x3 .f32)
      = m ((c : Thread Cert.KernelIdeal.nD Cert.KernelIdeal.τ).loc Cert.KernelIdeal.main_arg0))
    (h1 : (V' (Proc.devRef .tc Cert.ReferenceIdeal.main_arg1) : FVec Ideal Cert.ReferenceIdeal.S256x256x256x2 .f32)
      = m ((c : Thread Cert.KernelIdeal.nD Cert.KernelIdeal.τ).loc Cert.KernelIdeal.main_arg1)) :
    (after (Cert.ReferenceIdeal.Ops.ops (F := Ideal)) V' (Proc.devRef .tc Cert.ReferenceIdeal.main_v149) : FVec Ideal Cert.ReferenceIdeal.S2097152x2 .f32) = entry m c Cert.KernelIdeal.main_v119 := by
  rw [Cert.ReferenceIdeal.Ops.corner2_full V', atom_v18 m c V' h0 h1, Cert.ReferenceIdeal.Ops.arg1_kept V', h1]
  exact (kcorner2 m c).symm

theorem atom_v189
    (h0 : (V' (Proc.devRef .tc Cert.ReferenceIdeal.main_arg0) : FVec Ideal Cert.ReferenceIdeal.S2097152x3 .f32)
      = m ((c : Thread Cert.KernelIdeal.nD Cert.KernelIdeal.τ).loc Cert.KernelIdeal.main_arg0))
    (h1 : (V' (Proc.devRef .tc Cert.ReferenceIdeal.main_arg1) : FVec Ideal Cert.ReferenceIdeal.S256x256x256x2 .f32)
      = m ((c : Thread Cert.KernelIdeal.nD Cert.KernelIdeal.τ).loc Cert.KernelIdeal.main_arg1)) :
    (after (Cert.ReferenceIdeal.Ops.ops (F := Ideal)) V' (Proc.devRef .tc Cert.ReferenceIdeal.main_v189) : FVec Ideal Cert.ReferenceIdeal.S2097152x2 .f32) = entry m c Cert.KernelIdeal.main_v151 := by
  rw [Cert.ReferenceIdeal.Ops.corner3_full V', atom_v18 m c V' h0 h1, Cert.ReferenceIdeal.Ops.arg1_kept V', h1]
  exact (kcorner3 m c).symm

theorem atom_v237
    (h0 : (V' (Proc.devRef .tc Cert.ReferenceIdeal.main_arg0) : FVec Ideal Cert.ReferenceIdeal.S2097152x3 .f32)
      = m ((c : Thread Cert.KernelIdeal.nD Cert.KernelIdeal.τ).loc Cert.KernelIdeal.main_arg0))
    (h1 : (V' (Proc.devRef .tc Cert.ReferenceIdeal.main_arg1) : FVec Ideal Cert.ReferenceIdeal.S256x256x256x2 .f32)
      = m ((c : Thread Cert.KernelIdeal.nD Cert.KernelIdeal.τ).loc Cert.KernelIdeal.main_arg1)) :
    (after (Cert.ReferenceIdeal.Ops.ops (F := Ideal)) V' (Proc.devRef .tc Cert.ReferenceIdeal.main_v237) : FVec Ideal Cert.ReferenceIdeal.S2097152x2 .f32) = entry m c Cert.KernelIdeal.main_v183 := by
  rw [Cert.ReferenceIdeal.Ops.corner4_full V', atom_v18 m c V' h0 h1, Cert.ReferenceIdeal.Ops.arg1_kept V', h1]
  exact (kcorner4 m c).symm

theorem atom_v277
    (h0 : (V' (Proc.devRef .tc Cert.ReferenceIdeal.main_arg0) : FVec Ideal Cert.ReferenceIdeal.S2097152x3 .f32)
      = m ((c : Thread Cert.KernelIdeal.nD Cert.KernelIdeal.τ).loc Cert.KernelIdeal.main_arg0))
    (h1 : (V' (Proc.devRef .tc Cert.ReferenceIdeal.main_arg1) : FVec Ideal Cert.ReferenceIdeal.S256x256x256x2 .f32)
      = m ((c : Thread Cert.KernelIdeal.nD Cert.KernelIdeal.τ).loc Cert.KernelIdeal.main_arg1)) :
    (after (Cert.ReferenceIdeal.Ops.ops (F := Ideal)) V' (Proc.devRef .tc Cert.ReferenceIdeal.main_v277) : FVec Ideal Cert.ReferenceIdeal.S2097152x2 .f32) = entry m c Cert.KernelIdeal.main_v215 := by
  rw [Cert.ReferenceIdeal.Ops.corner5_full V', atom_v18 m c V' h0 h1, Cert.ReferenceIdeal.Ops.arg1_kept V', h1]
  exact (kcorner5 m c).symm

theorem atom_v321
    (h0 : (V' (Proc.devRef .tc Cert.ReferenceIdeal.main_arg0) : FVec Ideal Cert.ReferenceIdeal.S2097152x3 .f32)
      = m ((c : Thread Cert.KernelIdeal.nD Cert.KernelIdeal.τ).loc Cert.KernelIdeal.main_arg0))
    (h1 : (V' (Proc.devRef .tc Cert.ReferenceIdeal.main_arg1) : FVec Ideal Cert.ReferenceIdeal.S256x256x256x2 .f32)
      = m ((c : Thread Cert.KernelIdeal.nD Cert.KernelIdeal.τ).loc Cert.KernelIdeal.main_arg1)) :
    (after (Cert.ReferenceIdeal.Ops.ops (F := Ideal)) V' (Proc.devRef .tc Cert.ReferenceIdeal.main_v321) : FVec Ideal Cert.ReferenceIdeal.S2097152x2 .f32) = entry m c Cert.KernelIdeal.main_v247 := by
  rw [Cert.ReferenceIdeal.Ops.corner6_full V', atom_v18 m c V' h0 h1, Cert.ReferenceIdeal.Ops.arg1_kept V', h1]
  exact (kcorner6 m c).symm

theorem atom_v361
    (h0 : (V' (Proc.devRef .tc Cert.ReferenceIdeal.main_arg0) : FVec Ideal Cert.ReferenceIdeal.S2097152x3 .f32)
      = m ((c : Thread Cert.KernelIdeal.nD Cert.KernelIdeal.τ).loc Cert.KernelIdeal.main_arg0))
    (h1 : (V' (Proc.devRef .tc Cert.ReferenceIdeal.main_arg1) : FVec Ideal Cert.ReferenceIdeal.S256x256x256x2 .f32)
      = m ((c : Thread Cert.KernelIdeal.nD Cert.KernelIdeal.τ).loc Cert.KernelIdeal.main_arg1)) :
    (after (Cert.ReferenceIdeal.Ops.ops (F := Ideal)) V' (Proc.devRef .tc Cert.ReferenceIdeal.main_v361) : FVec Ideal Cert.ReferenceIdeal.S2097152x2 .f32) = entry m c Cert.KernelIdeal.main_v279 := by
  rw [Cert.ReferenceIdeal.Ops.corner7_full V', atom_v18 m c V' h0 h1, Cert.ReferenceIdeal.Ops.arg1_kept V', h1]
  exact (kcorner7 m c).symm

theorem atoms_eq
    (h0 : (V' (Proc.devRef .tc Cert.ReferenceIdeal.main_arg0) : FVec Ideal Cert.ReferenceIdeal.S2097152x3 .f32)
      = m ((c : Thread Cert.KernelIdeal.nD Cert.KernelIdeal.τ).loc Cert.KernelIdeal.main_arg0))
    (h1 : (V' (Proc.devRef .tc Cert.ReferenceIdeal.main_arg1) : FVec Ideal Cert.ReferenceIdeal.S256x256x256x2 .f32)
      = m ((c : Thread Cert.KernelIdeal.nD Cert.KernelIdeal.τ).loc Cert.KernelIdeal.main_arg1)) :
    (Cert.ReferenceIdeal.Ops.fracs V' = entry m c Cert.KernelIdeal.main_v11)
    ∧ (Cert.ReferenceIdeal.Ops.bits V' = entry m c Cert.KernelIdeal.main_v20)
    ∧ ((after (Cert.ReferenceIdeal.Ops.ops (F := Ideal)) V' (Proc.devRef .tc Cert.ReferenceIdeal.main_v65) : FVec Ideal Cert.ReferenceIdeal.S2097152x2 .f32) = entry m c Cert.KernelIdeal.main_v55)
    ∧ ((after (Cert.ReferenceIdeal.Ops.ops (F := Ideal)) V' (Proc.devRef .tc Cert.ReferenceIdeal.main_v105) : FVec Ideal Cert.ReferenceIdeal.S2097152x2 .f32) = entry m c Cert.KernelIdeal.main_v87)
    ∧ ((after (Cert.ReferenceIdeal.Ops.ops (F := Ideal)) V' (Proc.devRef .tc Cert.ReferenceIdeal.main_v149) : FVec Ideal Cert.ReferenceIdeal.S2097152x2 .f32) = entry m c Cert.KernelIdeal.main_v119)
    ∧ ((after (Cert.ReferenceIdeal.Ops.ops (F := Ideal)) V' (Proc.devRef .tc Cert.ReferenceIdeal.main_v189) : FVec Ideal Cert.ReferenceIdeal.S2097152x2 .f32) = entry m c Cert.KernelIdeal.main_v151)
    ∧ ((after (Cert.ReferenceIdeal.Ops.ops (F := Ideal)) V' (Proc.devRef .tc Cert.ReferenceIdeal.main_v237) : FVec Ideal Cert.ReferenceIdeal.S2097152x2 .f32) = entry m c Cert.KernelIdeal.main_v183)
    ∧ ((after (Cert.ReferenceIdeal.Ops.ops (F := Ideal)) V' (Proc.devRef .tc Cert.ReferenceIdeal.main_v277) : FVec Ideal Cert.ReferenceIdeal.S2097152x2 .f32) = entry m c Cert.KernelIdeal.main_v215)
    ∧ ((after (Cert.ReferenceIdeal.Ops.ops (F := Ideal)) V' (Proc.devRef .tc Cert.ReferenceIdeal.main_v321) : FVec Ideal Cert.ReferenceIdeal.S2097152x2 .f32) = entry m c Cert.KernelIdeal.main_v247)
    ∧ ((after (Cert.ReferenceIdeal.Ops.ops (F := Ideal)) V' (Proc.devRef .tc Cert.ReferenceIdeal.main_v361) : FVec Ideal Cert.ReferenceIdeal.S2097152x2 .f32) = entry m c Cert.KernelIdeal.main_v279) :=
  ⟨atom_v20 m c V' h0 h1, atom_v13 m c V' h0 h1, atom_v65 m c V' h0 h1, atom_v105 m c V' h0 h1, atom_v149 m c V' h0 h1,
    atom_v189 m c V' h0 h1, atom_v237 m c V' h0 h1, atom_v277 m c V' h0 h1, atom_v321 m c V' h0 h1, atom_v361 m c V' h0 h1⟩

end Cert.Shared

end
-- ==== Proof.Bridge.lean ====
/-
  The two programs return the same values. At a query row `n` and channel `q` the kernel's program returns the
  trilinear sum of the eight corners times the mask column, which holds the validity bit read as 0.0 or 1.0; the
  reference returns that sum where the bit is set and zero elsewhere. The fractions, the bits and the corners are
  the same arrays on both sides, and `s · 1 = s`, `s · 0 = 0` for every extended real `s`, infinities included, so
  the two agree whatever the inputs hold.
-/
import proofs.«175399_j60687887892817_2_alg».proof.Proof.KernelIdeal.TailValue
import proofs.«175399_j60687887892817_2_alg».proof.Proof.Atoms
import Idealize.ShloMosaic.PureOps.Ideal.Laws

set_option maxRecDepth 16384

noncomputable section

namespace Cert.KernelIdeal.Combine

open Cert.KernelIdeal Cert.KernelIdeal.Gen
open Idealize.ShloMosaic Idealize.ShloMosaic.TcCoe Idealize.ShloMosaic.ValueIdx Idealize.ShloMosaic.StableHlo
open Idealize.SL Idealize.SL.Sem
open Cert.LibColumnBroadcast Cert.LibSqueezeColumn

/-! ## The packed operands' columns read back -/

/-- Columns 0, 1, 2 of the packed fractions-and-mask array are the fractions. -/
theorem packAux_frac (f : S2097152x3.Idx → EReal) (v : S2097152.Idx → BitVec 1) (n : Fin 2097152) (j : Fin 3) (k : Fin 4)
    (hk : k.val = j.val) : packAux f v (ix2 n k) = f (ix2 n j) := by
  unfold packAux
  refine concatenate_apply_piece (1 : Fin 2) _ _ (ix2 n k) 0 ?_ S2097152x3 f ?_ ?_ 0 ?_ (ix2 n j) ?_ ?_
  · simp only [List.length_cons, List.length_nil]; omega
  · rfl
  · rfl
  · rfl
  · intro b hb
    match b with
    | ⟨0, _⟩ => rfl
    | ⟨1, _⟩ => exact absurd rfl hb
  · show 0 + j.val = k.val
    omega

/-- Column 3 is the validity bit read as a number. -/
theorem packAux_mask (f : S2097152x3.Idx → EReal) (v : S2097152.Idx → BitVec 1) (n : Fin 2097152) :
    packAux f v (ix2 n (3 : Fin 4)) = (((v (ix1 n)).toNat : ℝ) : EReal) := by
  unfold packAux
  refine (concatenate_apply_piece (1 : Fin 2) _ _ (ix2 n (3 : Fin 4)) 1 ?_ S2097152x1
    (broadcastInDim S2097152x1 ![0] bcast_S2097152_S2097152x1_0 (uitofp (F := Ideal) .f32 v)) ?_ ?_ 3 ?_
    (ix2 n (0 : Fin 1)) ?_ ?_).trans ?_
  · simp only [List.length_cons, List.length_nil]; omega
  · rfl
  · rfl
  · rfl
  · intro b hb
    match b with
    | ⟨0, _⟩ => rfl
    | ⟨1, _⟩ => exact absurd rfl hb
  · rfl
  · exact vector_as_column_apply _ _ n 0

/-- Columns `2k, 2k + 1` of the packed corners are corner `k`'s two channels, for each of the eight corners. -/
theorem packCorners_at0 (c : Fin 8 → S2097152x2.Idx → EReal) (n : Fin 2097152) (q : Fin 2) :
    packCorners c (ix2 n (Cell.col 0 q)) = c 0 (ix2 n q) := by
  unfold packCorners
  refine concatenate_apply_piece (1 : Fin 2) _ _ (ix2 n (Cell.col 0 q)) 0 ?_ S2097152x2 (c 0) ?_ ?_ 0 ?_ (ix2 n q) ?_ ?_
  · simp only [List.length_cons, List.length_nil]; omega
  · rfl
  · rfl
  · rfl
  · intro b hb
    match b with
    | ⟨0, _⟩ => rfl
    | ⟨1, _⟩ => exact absurd rfl hb
  · show 0 + q.val = 2 * 0 + q.val
    omega

theorem packCorners_at1 (c : Fin 8 → S2097152x2.Idx → EReal) (n : Fin 2097152) (q : Fin 2) :
    packCorners c (ix2 n (Cell.col 1 q)) = c 1 (ix2 n q) := by
  unfold packCorners
  refine concatenate_apply_piece (1 : Fin 2) _ _ (ix2 n (Cell.col 1 q)) 1 ?_ S2097152x2 (c 1) ?_ ?_ 2 ?_ (ix2 n q) ?_ ?_
  · simp only [List.length_cons, List.length_nil]; omega
  · rfl
  · rfl
  · rfl
  · intro b hb
    match b with
    | ⟨0, _⟩ => rfl
    | ⟨1, _⟩ => exact absurd rfl hb
  · show 2 + q.val = 2 * 1 + q.val
    omega

theorem packCorners_at2 (c : Fin 8 → S2097152x2.Idx → EReal) (n : Fin 2097152) (q : Fin 2) :
    packCorners c (ix2 n (Cell.col 2 q)) = c 2 (ix2 n q) := by
  unfold packCorners
  refine concatenate_apply_piece (1 : Fin 2) _ _ (ix2 n (Cell.col 2 q)) 2 ?_ S2097152x2 (c 2) ?_ ?_ 4 ?_ (ix2 n q) ?_ ?_
  · simp only [List.length_cons, List.length_nil]; omega
  · rfl
  · rfl
  · rfl
  · intro b hb
    match b with
    | ⟨0, _⟩ => rfl
    | ⟨1, _⟩ => exact absurd rfl hb
  · show 4 + q.val = 2 * 2 + q.val
    omega

theorem packCorners_at3 (c : Fin 8 → S2097152x2.Idx → EReal) (n : Fin 2097152) (q : Fin 2) :
    packCorners c (ix2 n (Cell.col 3 q)) = c 3 (ix2 n q) := by
  unfold packCorners
  refine concatenate_apply_piece (1 : Fin 2) _ _ (ix2 n (Cell.col 3 q)) 3 ?_ S2097152x2 (c 3) ?_ ?_ 6 ?_ (ix2 n q) ?_ ?_
  · simp only [List.length_cons, List.length_nil]; omega
  · rfl
  · rfl
  · rfl
  · intro b hb
    match b with
    | ⟨0, _⟩ => rfl
    | ⟨1, _⟩ => exact absurd rfl hb
  · show 6 + q.val = 2 * 3 + q.val
    omega

theorem packCorners_at4 (c : Fin 8 → S2097152x2.Idx → EReal) (n : Fin 2097152) (q : Fin 2) :
    packCorners c (ix2 n (Cell.col 4 q)) = c 4 (ix2 n q) := by
  unfold packCorners
  refine concatenate_apply_piece (1 : Fin 2) _ _ (ix2 n (Cell.col 4 q)) 4 ?_ S2097152x2 (c 4) ?_ ?_ 8 ?_ (ix2 n q) ?_ ?_
  · simp only [List.length_cons, List.length_nil]; omega
  · rfl
  · rfl
  · rfl
  · intro b hb
    match b with
    | ⟨0, _⟩ => rfl
    | ⟨1, _⟩ => exact absurd rfl hb
  · show 8 + q.val = 2 * 4 + q.val
    omega

theorem packCorners_at5 (c : Fin 8 → S2097152x2.Idx → EReal) (n : Fin 2097152) (q : Fin 2) :
    packCorners c (ix2 n (Cell.col 5 q)) = c 5 (ix2 n q) := by
  unfold packCorners
  refine concatenate_apply_piece (1 : Fin 2) _ _ (ix2 n (Cell.col 5 q)) 5 ?_ S2097152x2 (c 5) ?_ ?_ 10 ?_ (ix2 n q) ?_ ?_
  · simp only [List.length_cons, List.length_nil]; omega
  · rfl
  · rfl
  · rfl
  · intro b hb
    match b with
    | ⟨0, _⟩ => rfl
    | ⟨1, _⟩ => exact absurd rfl hb
  · show 10 + q.val = 2 * 5 + q.val
    omega

theorem packCorners_at6 (c : Fin 8 → S2097152x2.Idx → EReal) (n : Fin 2097152) (q : Fin 2) :
    packCorners c (ix2 n (Cell.col 6 q)) = c 6 (ix2 n q) := by
  unfold packCorners
  refine concatenate_apply_piece (1 : Fin 2) _ _ (ix2 n (Cell.col 6 q)) 6 ?_ S2097152x2 (c 6) ?_ ?_ 12 ?_ (ix2 n q) ?_ ?_
  · simp only [List.length_cons, List.length_nil]; omega
  · rfl
  · rfl
  · rfl
  · intro b hb
    match b with
    | ⟨0, _⟩ => rfl
    | ⟨1, _⟩ => exact absurd rfl hb
  · show 12 + q.val = 2 * 6 + q.val
    omega

theorem packCorners_at7 (c : Fin 8 → S2097152x2.Idx → EReal) (n : Fin 2097152) (q : Fin 2) :
    packCorners c (ix2 n (Cell.col 7 q)) = c 7 (ix2 n q) := by
  unfold packCorners
  refine concatenate_apply_piece (1 : Fin 2) _ _ (ix2 n (Cell.col 7 q)) 7 ?_ S2097152x2 (c 7) ?_ ?_ 14 ?_ (ix2 n q) ?_ ?_
  · simp only [List.length_cons, List.length_nil]; omega
  · rfl
  · rfl
  · rfl
  · intro b hb
    match b with
    | ⟨0, _⟩ => rfl
    | ⟨1, _⟩ => exact absurd rfl hb
  · show 14 + q.val = 2 * 7 + q.val
    omega

/-! ## The mask law -/

/-- Multiplying by a bit read as a number keeps the value where the bit is set and gives zero elsewhere: on the extended
    reals `s · 1 = s` and `s · 0 = 0` whatever `s` is. -/
theorem mask_law (s : EReal) (b : BitVec 1) : s * (((b.toNat : ℝ)) : EReal) = Scalar.select b s Cell.zero := by
  rcases (by decide : ∀ b : BitVec 1, b = 0#1 ∨ b = 1#1) b with rfl | rfl
  · show s * (((0 : ℕ) : ℝ) : EReal) = Scalar.select 0#1 s Cell.zero
    rw [select_zero, Nat.cast_zero, EReal.coe_zero, mul_zero]
    exact Ideal.ofBits_zero_f32.symm
  · show s * (((1 : ℕ) : ℝ) : EReal) = Scalar.select 1#1 s Cell.zero
    rw [select_one, Nat.cast_one, EReal.coe_one, mul_one]

/-- The kernel's row over the packed operands: the bit selects between the trilinear sum and zero. -/
theorem packed_row (f : S2097152x3.Idx → EReal) (v : S2097152.Idx → BitVec 1) (c : Fin 8 → S2097152x2.Idx → EReal)
    (n : Fin 2097152) (q : Fin 2) :
    blendedAt (packAux f v) (packCorners c) n q
      = Scalar.select (v (ix1 n))
          (Cell.mix (f (ix2 n (0 : Fin 3))) (f (ix2 n (1 : Fin 3))) (f (ix2 n (2 : Fin 3)))
            (c 0 (ix2 n q)) (c 1 (ix2 n q)) (c 2 (ix2 n q)) (c 3 (ix2 n q)) (c 4 (ix2 n q)) (c 5 (ix2 n q)) (c 6 (ix2 n q)) (c 7 (ix2 n q)))
          Cell.zero := by
  unfold blendedAt Cell.blend
  rw [packAux_frac f v n 0 0 rfl, packAux_frac f v n 1 1 rfl, packAux_frac f v n 2 2 rfl, packAux_mask,
    packCorners_at0 c n q, packCorners_at1 c n q, packCorners_at2 c n q, packCorners_at3 c n q,
    packCorners_at4 c n q, packCorners_at5 c n q, packCorners_at6 c n q, packCorners_at7 c n q]
  exact mask_law _ _

/-! ## The results -/

variable (m : (ℓ : Loc nD τ sig) → Buf (Elt Ideal) ℓ) (c : Dev nD)
  (V' : Valuation Cert.ReferenceIdeal.τ Cert.ReferenceIdeal.sig (Elt Ideal))

/-- From arguments that agree, the reference's two result buffers hold what the kernel program's hold. -/
theorem results_agree
    (h0 : (V' (Proc.devRef .tc Cert.ReferenceIdeal.main_arg0) : FVec Ideal Cert.ReferenceIdeal.S2097152x3 .f32)
      = m ((c : Thread nD τ).loc main_arg0))
    (h1 : (V' (Proc.devRef .tc Cert.ReferenceIdeal.main_arg1) : FVec Ideal Cert.ReferenceIdeal.S256x256x256x2 .f32)
      = m ((c : Thread nD τ).loc main_arg1)) :
    ((after (Cert.ReferenceIdeal.Ops.ops (F := Ideal)) V' (Proc.devRef .tc Cert.ReferenceIdeal.main_v371) : S2097152.Idx → EReal)
        = (Pipeline.afterTail₀ cfgs (dats m) 0 (entry0 m) [hostOps1] c main_v283 : S2097152.Idx → EReal))
    ∧ ((after (Cert.ReferenceIdeal.Ops.ops (F := Ideal)) V' (Proc.devRef .tc Cert.ReferenceIdeal.main_v373) : S2097152.Idx → EReal)
        = (Pipeline.afterTail₀ cfgs (dats m) 0 (entry0 m) [hostOps1] c main_v285 : S2097152.Idx → EReal)) := by
  obtain ⟨eF, eV, e0, e1, e2, e3, e4, e5, e6, e7⟩ := Cert.Shared.atoms_eq m c V' h0 h1
  constructor
  · funext i
    obtain ⟨n, rfl⟩ : ∃ n : Fin 2097152, i = ix1 n := ⟨i 0, eq_ix1 i⟩
    rw [Cert.ReferenceIdeal.Ops.result0_eq, Cert.ReferenceIdeal.Tail.result0_at, Cert.ReferenceIdeal.Tail.masked_at,
      eF, eV, e0, e1, e2, e3, e4, e5, e6, e7, result0_at, entry_aux, entry_corners, packed_row]
    simp only [cornersAtEntry]
  · funext i
    obtain ⟨n, rfl⟩ : ∃ n : Fin 2097152, i = ix1 n := ⟨i 0, eq_ix1 i⟩
    rw [Cert.ReferenceIdeal.Ops.result1_eq, Cert.ReferenceIdeal.Tail.result1_at, Cert.ReferenceIdeal.Tail.masked_at,
      eF, eV, e0, e1, e2, e3, e4, e5, e6, e7, result1_at, entry_aux, entry_corners, packed_row]
    simp only [cornersAtEntry]

end Cert.KernelIdeal.Combine

end
-- ==== Proof.lean ====
/-
  The certificate of the trilinear-lookup kernel against its jnp reference.

  Both programs compute, on the host and with the same operations, the grid index of each query point, its integer
  cell, the three fractions, the validity bit and the eight gathered corner values. The kernel's program then packs
  them into two arrays and blends them in a pallas_call, 2048 rows per grid point; the reference blends them with
  whole-array operations and selects on the validity bit. At the extended reals the two blends are the same
  expression, term by term in the same order, and multiplying by the bit read as 0.0 / 1.0 is the selection; nothing
  in the comparison needs the inputs to be finite.

  The three frames: each kernel program's run around its one region (`Combine.frame`), and the reference's run, in
  which no operation writes an argument. The idealization rewrote no operation, so `preserves` holds trivially.
  `algebraic`: the kernel program's run names each result buffer; the reference's run leaves each of its result buffers
  at the fold of its operations, which `Combine.results_agree` identifies with the kernel program's.
-/
import proofs.«175399_j60687887892817_2_alg».proof.Defs
import proofs.«175399_j60687887892817_2_alg».proof.Proof.Gen.Kernel
import proofs.«175399_j60687887892817_2_alg».proof.Proof.Gen.KernelIdeal
import proofs.«175399_j60687887892817_2_alg».proof.Proof.Gen.ReferenceIdeal
import proofs.«175399_j60687887892817_2_alg».proof.Proof.Gen.Pre_finite_inputs
import proofs.«175399_j60687887892817_2_alg».proof.Proof.Kernel.Run
import proofs.«175399_j60687887892817_2_alg».proof.Proof.KernelIdeal.Run
import proofs.«175399_j60687887892817_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_kernel : Cert.frame_Kernel := fun m ρ _ => Cert.Kernel.Combine.frame (F := Bits) m ρ

theorem frame_kernelIdeal : Cert.frame_KernelIdeal := fun m ρ _ => Cert.KernelIdeal.Combine.frame (F := Ideal) m ρ

theorem frame_reference : Cert.frame_ReferenceIdeal := fun m ρ _ =>
  (θ_run Cert.ReferenceIdeal.defs _ _).mono (fun _ h c =>
    ⟨(h c Cert.ReferenceIdeal.main_arg0).trans (Cert.ReferenceIdeal.Ops.arg0_kept _),
     (h c Cert.ReferenceIdeal.main_arg1).trans (Cert.ReferenceIdeal.Ops.arg1_kept _)⟩)
    (Cert.ReferenceIdeal.Ops.run (F := Ideal) m ρ)

theorem preserves : Cert.preserves_Kernel_KernelIdeal := trivial

open Cert.KernelIdeal Cert.KernelIdeal.Gen Cert.KernelIdeal.Combine in
theorem algebraic : Cert.algebraic_KernelIdeal_ReferenceIdeal := by
  intro m ρ m' ρ' _ hagree
  refine ⟨fun c => Pipeline.afterTail₀ cfgs (dats m) 0 (entry0 m) [hostOps1] c main_v283,
          fun c => Pipeline.afterTail₀ cfgs (dats m) 0 (entry0 m) [hostOps1] c main_v285, ?_, ?_⟩
  · exact (θ_run defs _ _).mono (fun _ h c =>
      ⟨(h c).2 main_v283 (Pipeline.mem_restRefs_of main_v283 (by decide) (by decide)),
       (h c).2 main_v285 (Pipeline.mem_restRefs_of main_v285 (by decide) (by decide)),
       ((h c).2 main_arg0 (Pipeline.mem_restRefs_of main_arg0 (by decide) (by decide))).trans (end_arg0 m (dats m) c),
       ((h c).2 main_arg1 (Pipeline.mem_restRefs_of main_arg1 (by decide) (by decide))).trans (end_arg1 m (dats m) c)⟩)
      (run_main m ρ)
  · refine (θ_run Cert.ReferenceIdeal.defs _ _).mono (fun _ h c => ?_) (Cert.ReferenceIdeal.Ops.run (F := Ideal) m' ρ')
    have hr := results_agree m c (launchContents m' c) (hagree c).1 (hagree c).2
    exact ⟨(h c Cert.ReferenceIdeal.main_v371).trans hr.1, (h c Cert.ReferenceIdeal.main_v373).trans hr.2,
      (h c Cert.ReferenceIdeal.main_arg0).trans (Cert.ReferenceIdeal.Ops.arg0_kept _),
      (h c Cert.ReferenceIdeal.main_arg1).trans (Cert.ReferenceIdeal.Ops.arg1_kept _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
